-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x4 .f32) (main_arg12 : FVec F S4 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x4 .f32 := Host.absf main_arg11
  let main_cst_16 : FVec F S_ .f32 := constant S_ .f32 0x7F800000#32
  let main_v45 : FVec F S32x4 .f32 := broadcastInDim S32x4 ![] bcast_S_S32x4 main_cst_16
  let main_v46 : IVec S32x4 1 := cmpf .olt main_v44 main_v45
  let main_c_17 : IVec S_ 1 := constantI S_ 1 1#1
  let main_v47 : IVec S_ 1 := (fun x v => Host.reduce IntOp.andi x v reducesTo_S32x4_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x4 .f32) (main_arg12 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x4 .f32) (main_arg12 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x4 : Shape := ⟨2, ![1, 4]⟩
abbrev S50000x4 : Shape := ⟨2, ![50000, 4]⟩
abbrev S5000x4 : Shape := ⟨2, ![5000, 4]⟩
abbrev S5000 : Shape := ⟨1, ![5000]⟩

abbrev nBuf : Space → Nat
  | .hbm => 99
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x4, .f32⟩
  | .hbm, ⟨12, _⟩ => ⟨S4, .f32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x64, .bf16⟩
  | .hbm, ⟨41, _⟩ => ⟨S850000x64, .f32⟩
  | .hbm, ⟨42, _⟩ => ⟨S_, .f32⟩
  | .hbm, ⟨43, _⟩ => ⟨S50000x64, .f32⟩
  | .hbm, ⟨44, _⟩ => ⟨S850000x1, .i32⟩
  | .hbm, ⟨45, _⟩ => ⟨S50000x64, .f32⟩
  | .hbm, ⟨46, _⟩ => ⟨S1x64, .f32⟩
  | .hbm, ⟨47, _⟩ => ⟨S50000x64, .bf16⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .bf16⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S1x64, .f32⟩
  | .hbm, ⟨63, _⟩ => ⟨S50000x64, .bf16⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .bf16⟩
  | .hbm, ⟨73, _⟩ => ⟨S850000x64, .f32⟩
  | .hbm, ⟨74, _⟩ => ⟨S_, .f32⟩
  | .hbm, ⟨75, _⟩ => ⟨S50000x64, .f32⟩
  | .hbm, ⟨76, _⟩ => ⟨S850000x1, .i32⟩
  | .hbm, ⟨77, _⟩ => ⟨S50000x64, .f32⟩
  | .hbm, ⟨78, _⟩ => ⟨S1x64, .f32⟩
  | .hbm, ⟨79, _⟩ => ⟨S50000x32, .bf16⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x32, .bf16⟩
  | .hbm, ⟨89, _⟩ => ⟨S850000x32, .f32⟩
  | .hbm, ⟨90, _⟩ => ⟨S_, .f32⟩
  | .hbm, ⟨91, _⟩ => ⟨S50000x32, .f32⟩
  | .hbm, ⟨92, _⟩ => ⟨S850000x1, .i32⟩
  | .hbm, ⟨93, _⟩ => ⟨S50000x32, .f32⟩
  | .hbm, ⟨94, _⟩ => ⟨S1x32, .f32⟩
  | .hbm, ⟨95, _⟩ => ⟨S50000x32, .f32⟩
  | .hbm, ⟨96, _⟩ => ⟨S1x4, .f32⟩
  | .hbm, ⟨97, _⟩ => ⟨S50000x32, .f32⟩
  | .hbm, ⟨98, _⟩ => ⟨S50000x4, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x32, .f32⟩
  | .local _ .vmem, ⟨29, _⟩ => ⟨S5000x32, .bf16⟩
  | .local _ .vmem, ⟨30, _⟩ => ⟨S5000x32, .bf16⟩
  | .local _ .vmem, ⟨31, _⟩ => ⟨S5000x32, .f32⟩
  | .local _ .vmem, ⟨32, _⟩ => ⟨S5000x32, .f32⟩
  | .local _ .vmem, ⟨33, _⟩ => ⟨S5000x1, .f32⟩
  | .local _ .vmem, ⟨34, _⟩ => ⟨S5000x1, .f32⟩
  | .local _ .vmem, ⟨35, _⟩ => ⟨S1x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S32x4, .f32⟩
  | .local _ .vmem, ⟨41, _⟩ => ⟨S1x4, .f32⟩
  | .local _ .vmem, ⟨42, _⟩ => ⟨S5000x32, .f32⟩
  | .local _ .vmem, ⟨43, _⟩ => ⟨S5000x32, .f32⟩
  | .local _ .vmem, ⟨44, _⟩ => ⟨S5000x4, .f32⟩
  | .local _ .vmem, ⟨45, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66_0 : Ref sig .tc := ⟨.hbm, 97, rfl⟩
abbrev main_v66_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc5_sem4_0 : DmaSem sig := 44
abbrev cc5_sem4_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x4 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x4 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x4 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S4_S1x4 : S4.ShapeCasts S1x4
  reduces_S5000x32_S5000 : S5000x32.Reduces [1] S5000
  shapeCasts_S5000_S5000x1 : S5000.ShapeCasts S5000x1
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S850000x1_S850000_n_0_0_1_wf : ScatterDims.WF S50000 S850000x1 S850000 [] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x4_S5000x4_1_0_0_1_n_n_wf : DotDims.WF S5000x32 S32x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .bf16 = 32 ∨ (Rect.block (s := S50000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S50000x32.size a
  hwx3_4 : ∀ i : grid3.Coords, EltTy.bits .bf16 = 32 ∨ (Rect.block (s := S50000x32) S5000x32.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S50000x32.size a
  hwx4_3 : ∀ i : grid4.Coords, EltTy.bits .f32 = 32 ∨ (Rect.block (s := S50000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x4.size a ≤ S32x4.size a
  hwx5_1 : ∀ i : grid5.Coords, EltTy.bits .f32 = 32 ∨ (Rect.block (s := S32x4) S32x4.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x4.size a ≤ S1x4.size a
  hwx5_2 : ∀ i : grid5.Coords, EltTy.bits .f32 = 32 ∨ (Rect.block (s := S1x4) S1x4.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S50000x32.size a
  hwx5_3 : ∀ i : grid5.Coords, EltTy.bits .f32 = 32 ∨ (Rect.block (s := S50000x32) S5000x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x4.size a ≤ S50000x4.size a
  hwx5_4 : ∀ i : grid5.Coords, EltTy.bits .f32 = 32 ∨ (Rect.block (s := S50000x4) S5000x4.size (cc5_transform_4 i) (hinb5_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x4_S5000x4_1_0_0_1_n_n : DotDims S5000x32 S32x4 S5000x4 where
  lhsContracting := [1]
  rhsContracting := [0]
  lhsNonContracting := [0]
  rhsNonContracting := [1]
  lhsBatch := []
  rhsBatch := []
  wf := dot_S5000x32_S32x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v64) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S32x4.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x4.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66_0) S5000x32.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v66_1) S5000x4.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩
abbrev S50000x4 : Shape := ⟨2, ![50000, 4]⟩
abbrev S1x4 : Shape := ⟨2, ![1, 4]⟩

abbrev nBuf : Space → Nat
  | .hbm => 292
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x4, .f32⟩
  | 12 => ⟨S4, .f32⟩
  | 13 => ⟨S50000x64, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S_, .f32⟩
  | 71 => ⟨S50000x64, .f32⟩
  | 72 => ⟨S50000x64, .i1⟩
  | 73 => ⟨S_, .f32⟩
  | 74 => ⟨S50000x64, .f32⟩
  | 75 => ⟨S50000x64, .f32⟩
  | 76 => ⟨S50000x64, .f32⟩
  | 77 => ⟨S50000x64, .f32⟩
  | 78 => ⟨S50000, .i32⟩
  | 79 => ⟨S850000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S50000x128, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S_, .f32⟩
  | 7 => ⟨S50000x64, .f32⟩
  | 8 => ⟨S50000x64, .i1⟩
  | 9 => ⟨S_, .f32⟩
  | 10 => ⟨S50000x64, .f32⟩
  | 11 => ⟨S50000x64, .f32⟩
  | 12 => ⟨S50000x64, .f32⟩
  | 13 => ⟨S50000x64, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S_, .f32⟩
  | 71 => ⟨S50000x64, .f32⟩
  | 72 => ⟨S50000x64, .i1⟩
  | 73 => ⟨S_, .f32⟩
  | 74 => ⟨S50000x64, .f32⟩
  | 75 => ⟨S50000x64, .f32⟩
  | 76 => ⟨S50000x64, .f32⟩
  | 77 => ⟨S50000x32, .f32⟩
  | 78 => ⟨S50000, .i32⟩
  | 79 => ⟨S850000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x32, .f32⟩
  | 123 => ⟨S850000x1, .f32⟩
  | 124 => ⟨S850000x32, .f32⟩
  | 125 => ⟨S850000x32, .f32⟩
  | 126 => ⟨S_, .f32⟩
  | 127 => ⟨S50000x32, .f32⟩
  | _ => ⟨S50000x128, .f32⟩

abbrev hbmTy0_2 (i : Nat) : BufTy := match i % 128 with
  | 0 => ⟨S850000x1, .i32⟩
  | 1 => ⟨S50000x32, .f32⟩
  | 2 => ⟨S1x32, .f32⟩
  | 3 => ⟨S50000x32, .f32⟩
  | 4 => ⟨S50000x32, .f32⟩
  | 5 => ⟨S_, .f32⟩
  | 6 => ⟨S_, .f32⟩
  | 7 => ⟨S50000x32, .f32⟩
  | 8 => ⟨S50000x32, .i1⟩
  | 9 => ⟨S_, .f32⟩
  | 10 => ⟨S50000x32, .f32⟩
  | 11 => ⟨S50000x32, .f32⟩
  | 12 => ⟨S50000x32, .f32⟩
  | 13 => ⟨S_, .f32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x32, .f32⟩
  | 20 => ⟨S50000x32, .f32⟩
  | 21 => ⟨S50000x32, .f32⟩
  | 22 => ⟨S_, .f32⟩
  | 23 => ⟨S50000, .f32⟩
  | 24 => ⟨S50000x1, .f32⟩
  | 25 => ⟨S50000x32, .f32⟩
  | 26 => ⟨S50000x32, .f32⟩
  | 27 => ⟨S_, .f32⟩
  | 28 => ⟨S50000, .f32⟩
  | 29 => ⟨S50000x1, .f32⟩
  | 30 => ⟨S50000x32, .f32⟩
  | 31 => ⟨S50000x32, .f32⟩
  | 32 => ⟨S50000x4, .f32⟩
  | 33 => ⟨S1x4, .f32⟩
  | 34 => ⟨S50000x4, .f32⟩
  | 35 => ⟨S50000x4, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_13 : Ref sig .tc := ⟨.hbm, 91, rfl⟩
abbrev main_call2_v0 : Ref sig .tc := ⟨.hbm, 92, rfl⟩
abbrev main_call2_v1 : Ref sig .tc := ⟨.hbm, 93, rfl⟩
abbrev main_v55 : Ref sig .tc := ⟨.hbm, 94, rfl⟩
abbrev main_c_14 : Ref sig .tc := ⟨.hbm, 95, rfl⟩
abbrev main_v56 : Ref sig .tc := ⟨.hbm, 96, rfl⟩
abbrev main_v57 : Ref sig .tc := ⟨.hbm, 97, rfl⟩
abbrev main_c_15 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_16 : Ref sig .tc := ⟨.hbm, 104, rfl⟩
abbrev main_v63 : Ref sig .tc := ⟨.hbm, 105, rfl⟩
abbrev main_v64 : Ref sig .tc := ⟨.hbm, 106, rfl⟩
abbrev main_c_17 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_18 : Ref sig .tc := ⟨.hbm, 114, rfl⟩
abbrev main_v71 : Ref sig .tc := ⟨.hbm, 115, rfl⟩
abbrev main_v72 : Ref sig .tc := ⟨.hbm, 116, rfl⟩
abbrev main_c_19 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_20 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_21 : Ref sig .tc := ⟨.hbm, 133, rfl⟩
abbrev main_call3_cst : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_22 : Ref sig .tc := ⟨.hbm, 145, rfl⟩
abbrev main_v92 : Ref sig .tc := ⟨.hbm, 146, rfl⟩
abbrev main_cst_23 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_24 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_25 : Ref sig .tc := ⟨.hbm, 155, rfl⟩
abbrev main_call4_v0 : Ref sig .tc := ⟨.hbm, 156, rfl⟩
abbrev main_call4_v1 : Ref sig .tc := ⟨.hbm, 157, rfl⟩
abbrev main_v99 : Ref sig .tc := ⟨.hbm, 158, rfl⟩
abbrev main_c_26 : Ref sig .tc := ⟨.hbm, 159, rfl⟩
abbrev main_v100 : Ref sig .tc := ⟨.hbm, 160, rfl⟩
abbrev main_v101 : Ref sig .tc := ⟨.hbm, 161, rfl⟩
abbrev main_c_27 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_c_28 : Ref sig .tc := ⟨.hbm, 168, rfl⟩
abbrev main_v107 : Ref sig .tc := ⟨.hbm, 169, rfl⟩
abbrev main_v108 : Ref sig .tc := ⟨.hbm, 170, rfl⟩
abbrev main_c_29 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_c_30 : Ref sig .tc := ⟨.hbm, 178, rfl⟩
abbrev main_v115 : Ref sig .tc := ⟨.hbm, 179, rfl⟩
abbrev main_v116 : Ref sig .tc := ⟨.hbm, 180, rfl⟩
abbrev main_c_31 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_32 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_33 : Ref sig .tc := ⟨.hbm, 197, rfl⟩
abbrev main_call5_cst : Ref sig .tc := ⟨.hbm, 198, rfl⟩
abbrev main_call5_v0 : Ref sig .tc := ⟨.hbm, 199, rfl⟩
abbrev main_call5_v1 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_34 : Ref sig .tc := ⟨.hbm, 209, rfl⟩
abbrev main_v136 : Ref sig .tc := ⟨.hbm, 210, rfl⟩
abbrev main_cst_35 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_36 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_37 : Ref sig .tc := ⟨.hbm, 219, rfl⟩
abbrev main_call6_v0 : Ref sig .tc := ⟨.hbm, 220, rfl⟩
abbrev main_call6_v1 : Ref sig .tc := ⟨.hbm, 221, rfl⟩
abbrev main_v143 : Ref sig .tc := ⟨.hbm, 222, rfl⟩
abbrev main_c_38 : Ref sig .tc := ⟨.hbm, 223, rfl⟩
abbrev main_v144 : Ref sig .tc := ⟨.hbm, 224, rfl⟩
abbrev main_v145 : Ref sig .tc := ⟨.hbm, 225, rfl⟩
abbrev main_c_39 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_c_40 : Ref sig .tc := ⟨.hbm, 232, rfl⟩
abbrev main_v151 : Ref sig .tc := ⟨.hbm, 233, rfl⟩
abbrev main_v152 : Ref sig .tc := ⟨.hbm, 234, rfl⟩
abbrev main_c_41 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_c_42 : Ref sig .tc := ⟨.hbm, 242, rfl⟩
abbrev main_v159 : Ref sig .tc := ⟨.hbm, 243, rfl⟩
abbrev main_v160 : Ref sig .tc := ⟨.hbm, 244, rfl⟩
abbrev main_c_43 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_cst_44 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_cst_45 : Ref sig .tc := ⟨.hbm, 261, rfl⟩
abbrev main_call7_cst : Ref sig .tc := ⟨.hbm, 262, rfl⟩
abbrev main_call7_v0 : Ref sig .tc := ⟨.hbm, 263, rfl⟩
abbrev main_call7_v1 : Ref sig .tc := ⟨.hbm, 264, rfl⟩
abbrev main_call7_v2 : Ref sig .tc := ⟨.hbm, 265, rfl⟩
abbrev main_call7_v3 : Ref sig .tc := ⟨.hbm, 266, rfl⟩
abbrev main_call7_v4 : Ref sig .tc := ⟨.hbm, 267, rfl⟩
abbrev main_v175 : Ref sig .tc := ⟨.hbm, 268, rfl⟩
abbrev main_cst_46 : Ref sig .tc := ⟨.hbm, 269, rfl⟩
abbrev main_v176 : Ref sig .tc := ⟨.hbm, 270, rfl⟩
abbrev main_cst_47 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_cst_48 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_cst_49 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x4_S50000x4_1_0_0_1_n_n_wf : DotDims.WF S50000x32 S32x4 S50000x4 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x4_S50000x4_1_0_0_1_n_n : DotDims S50000x32 S32x4 S50000x4 where
  lhsContracting := [1]
  rhsContracting := [0]
  lhsNonContracting := [0]
  rhsNonContracting := [1]
  lhsBatch := []
  rhsBatch := []
  wf := dot_S50000x32_S32x4_S50000x4_1_0_0_1_n_n_wf

class Facts : Prop extends Facts₀ where

variable [Facts]
-- ==== Proof.KRun.lean ====
import proofs.«166952_j50646254354931_2_alg».proof.Proof.Gen.KernelIdeal.Frame
import Idealize.ShloMosaic.PureOps.Ideal

/-!
# The run of the program, with its two result arrays named

From any launch memory with zero counters, every weakly fair execution of the program on the TensorCores
terminates without a fault, and in every final state

* each of the two result arrays holds what the fold of the program's segments over the launch memory
  (`Gen.W14`: a stretch of whole-array operations applied in order, a blocked region's arrays at what its
  write-backs leave) has at that array, and
* each of the thirteen argument arrays is as launched.

The segments, their thread states and the launch are those of the frame theorem `Gen.frame`; only the last
step differs: the final state agrees with the fold at every unscoped buffer, and here that is read at the
two result buffers as well as at the arguments.
-/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run at any float instance: the results at the fold's value, the arguments as launched. -/
theorem runF : θ_run defs (onTc (τ := τ) (main (F := F))) ⟨m, fun _ => 0, ρ⟩ (fun r => ∀ c : Dev nD,
      r.2.mem ((c.tc : Thread nD τ).loc main_v66_0) = Gen.W14 (F := F) m ρ c (Proc.devRef .tc main_v66_0)
      ∧ r.2.mem ((c.tc : Thread nD τ).loc main_v66_1) = Gen.W14 (F := F) m ρ c (Proc.devRef .tc main_v66_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v66_0 (by decide)),
       h c _ (mem_uc main_v66_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end

/-- The run at the ideal instance. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v66_0) = Gen.W14 (F := Ideal) m ρ c (Proc.devRef .tc main_v66_0)
      ∧ r.2.mem ((c.tc : Thread nD τ).loc main_v66_1) = Gen.W14 (F := Ideal) m ρ c (Proc.devRef .tc main_v66_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  runF (F := Ideal) m ρ

end Cert.KernelIdeal.KRun

end
-- ==== Proof.KTerm.lean ====
import proofs.«166952_j50646254354931_2_alg».proof.KernelIdeal
import Idealize.ShloMosaic.PureOps.Ideal

/-!
# The host stretches of the program, as terms

Between its six blocked regions the program runs short stretches of whole-array operations. This file
names what each stretch computes, as a function of the arrays it reads, at the ideal instance (a float an
extended real, every operation its textbook one).

The graph has 50000 nodes and 800000 directed edges, given as two index vectors: the sources and the
targets. Every stretch first appends one self-loop per node to an edge vector (`cat`), so that the extended
vectors have 850000 entries.

* `deg`, `dinv2`: the in-degree of each node (a scatter-add of ones along the extended targets) and, from it,
  the scaling column `1 / sqrt(deg)` where the degree is positive, `0` elsewhere, as a 50000 × 1 column.
* `agg64`, `agg32`: the neighbourhood sum of a feature matrix: the rows gathered along the extended sources,
  then scatter-added along the extended targets into the zero matrix.
* `biasRow64`, `biasRow32`, `biasRow4`: a bias vector read as a one-row matrix.
-/

noncomputable section

namespace Cert.KernelIdeal.KTerm

open Idealize.ShloMosaic Idealize.SL.Sem

variable [Facts₀]
open Facts₀

/-- An edge vector followed by the node numbers `0, 1, …, 49999`: the edges, then one self-loop per node. -/
def cat (e : IVec S800000 32) : IVec S850000 32 :=
  concatenate S850000 0 [⟨S800000, e⟩, ⟨S50000, iotaInDim S50000 32 0⟩] concatenates_S800000_S50000_S850000_d0

/-- An index vector read as a one-column matrix of indices, unchanged. -/
def rawIdx (v : IVec S850000 32) : IVec S850000x1 32 :=
  broadcastInDim S850000x1 ![0] bcast_S850000_S850000x1_0 v

/-- An index vector with each negative entry moved up by the number of nodes (an index counted from the
    end), read as a one-column matrix of indices. -/
def normIdx (v : IVec S850000 32) : IVec S850000x1 32 :=
  broadcastInDim S850000x1 ![0] bcast_S850000_S850000x1_0
    (select
      (cmpi .slt v (broadcastInDim S850000 ![] bcast_S_S850000 (constantI S_ 32 0#32)))
      (addi v (broadcastInDim S850000 ![] bcast_S_S850000 (constantI S_ 32 50000#32)))
      v)

/-- The in-degree of each node, self-loop included: ones added into the zero vector along the extended
    targets. -/
def deg (dst : IVec S800000 32) : FVec Ideal S50000 .f32 :=
  Host.scatterAdd (F := Ideal) scatter_S50000_S850000x1_S850000_n_0_0_1
    (broadcastInDim S50000 ![] bcast_S_S50000 (constant (F := Ideal) S_ .f32 0x00000000#32))
    (rawIdx (cat dst))
    (broadcastInDim S850000 ![] bcast_S_S850000 (constant (F := Ideal) S_ .f32 0x3F800000#32))

/-- The scaling column: `1 / sqrt (deg)` at a node of positive degree, `0` at any other, as a 50000 × 1
    column. -/
def dinv2 (dst : IVec S800000 32) : FVec Ideal S50000x1 .f32 :=
  shapeCast S50000x1
    (select
      (cmpf (F := Ideal) .ogt (deg dst)
        (broadcastInDim S50000 ![] bcast_S_S50000 (constant (F := Ideal) S_ .f32 0x00000000#32)))
      (Host.rsqrt (F := Ideal) (deg dst))
      (broadcastInDim S50000 ![] bcast_S_S50000 (constant (F := Ideal) S_ .f32 0x00000000#32)))
    shapeCasts_S50000_S50000x1

/-- The neighbourhood sum of a 64-column feature matrix: row `t` of the result is the sum, over the extended
    edges `s → t`, of row `s` of `raw` (the change of float format is the identity at the ideal instance). -/
def agg64 (raw : FVec Ideal S50000x64 .bf16) (src dst : IVec S800000 32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (rawIdx (cat dst))
    (extf (F := Ideal) .f32
      (Host.gather gather_S50000x64_S850000x1_S850000x64_1_0_n_n_0_1_164 raw (normIdx (cat src)))
      bitsLt_bf16_f32)

/-- The neighbourhood sum of a 32-column feature matrix, as `agg64`. -/
def agg32 (raw : FVec Ideal S50000x32 .bf16) (src dst : IVec S800000 32) : FVec Ideal S50000x32 .f32 :=
  Host.scatterAdd (F := Ideal) scatter_S50000x32_S850000x1_S850000x32_1_0_0_1
    (broadcastInDim S50000x32 ![] bcast_S_S50000x32 (constant (F := Ideal) S_ .f32 0x00000000#32))
    (rawIdx (cat dst))
    (extf (F := Ideal) .f32
      (Host.gather gather_S50000x32_S850000x1_S850000x32_1_0_n_n_0_1_132 raw (normIdx (cat src)))
      bitsLt_bf16_f32)

/-- A 64-entry bias vector as a 1 × 64 row. -/
def biasRow64 (b : FVec Ideal S64 .f32) : FVec Ideal S1x64 .f32 := shapeCast S1x64 b shapeCasts_S64_S1x64

/-- A 32-entry bias vector as a 1 × 32 row. -/
def biasRow32 (b : FVec Ideal S32 .f32) : FVec Ideal S1x32 .f32 := shapeCast S1x32 b shapeCasts_S32_S1x32

/-- A 4-entry bias vector as a 1 × 4 row. -/
def biasRow4 (b : FVec Ideal S4 .f32) : FVec Ideal S1x4 .f32 := shapeCast S1x4 b shapeCasts_S4_S1x4

end Cert.KernelIdeal.KTerm

end
-- ==== Proof.KChain.lean ====
import proofs.«166952_j50646254354931_2_alg».proof.Proof.Gen.KernelIdeal.Frame
import proofs.«166952_j50646254354931_2_alg».proof.Proof.KTerm

set_option maxRecDepth 16384

/-!
# What each blocked region reads, and what the program returns, as terms

The program alternates stretches of whole-array operations with six blocked regions. `Gen.W0 … Gen.W14` are the
buffer contents at the fourteen boundaries, a fold from the launch memory; `Gen.V<j>` is the same read at the
TensorCore's references.

Here the fold is read at every array a region takes as input, and at the two results. Each such array is one of

* an argument array, unchanged since the launch (no stretch and no region writes it);
* the scaling column `KTerm.dinv2` of the target vector, computed before the first region and read by five regions;
* the neighbourhood sum `KTerm.agg64` / `KTerm.agg32` of the previous region's output;
* a bias argument read as a one-row matrix;
* for the last region, the previous region's output itself.

A buffer that a stretch does not write keeps its contents through it; a buffer that is not one of a region's arrays,
or is one of its input arrays, keeps its contents through the region. The two extended edge vectors are computed once,
before the first region, and carried to each later stretch in this way.
-/

noncomputable section

namespace Cert.KernelIdeal.KChain

open Idealize.ShloMosaic Idealize.ShloMosaic.TcCoe
open Idealize.SL.Sem
open Cert.KernelIdeal.Gen

/-- A buffer that no operation of a stretch writes keeps its contents through the stretch. -/
macro "host_skip " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## Each stretch, over any contents `V` of the buffers it reads -/
section Stretch
variable (V : Valuation τ sig (Elt Ideal))

/-- The first stretch extends the source vector … -/
theorem s0_v1 : StableHlo.after hostOps0 V (Proc.devRef .tc main_v1) = KTerm.cat (V (Proc.devRef .tc main_arg1)) := by
  dsimp only [Gen.hostOps0]; after_results; try rfl
/-- … and the target vector, -/
theorem s0_v2 : StableHlo.after hostOps0 V (Proc.devRef .tc main_v2) = KTerm.cat (V (Proc.devRef .tc main_arg2)) := by
  dsimp only [Gen.hostOps0]; after_results; try rfl
/-- counts the in-degrees, -/
theorem s0_v6 : StableHlo.after hostOps0 V (Proc.devRef .tc main_v6) = KTerm.deg (V (Proc.devRef .tc main_arg2)) := by
  dsimp only [Gen.hostOps0]; after_results; try rfl
/-- marks the nodes of positive degree, -/
theorem s0_v8 : StableHlo.after hostOps0 V (Proc.devRef .tc main_v8) = cmpf (F := Ideal) .ogt (KTerm.deg (V (Proc.devRef .tc main_arg2)))
    (broadcastInDim S50000 ![] Facts₀.bcast_S_S50000 (constant (F := Ideal) S_ .f32 0x00000000#32)) := by
  dsimp only [Gen.hostOps0]; after_results; try rfl
/-- takes the reciprocal square root of each degree, -/
theorem s0_v9 : StableHlo.after hostOps0 V (Proc.devRef .tc main_v9) = Host.rsqrt (F := Ideal) (KTerm.deg (V (Proc.devRef .tc main_arg2))) := by
  dsimp only [Gen.hostOps0]; after_results; try rfl
/-- and leaves the constant zero. -/
theorem s0_cst2 : StableHlo.after hostOps0 V (Proc.devRef .tc main_cst_2) = (constant (F := Ideal) S_ .f32 0x00000000#32) := by
  dsimp only [Gen.hostOps0]; after_results; try rfl

/-- The second stretch selects, per node, the reciprocal square root or zero. -/
theorem s01_v10 : StableHlo.after hostOps0_1 V (Proc.devRef .tc main_v10)
    = select (V (Proc.devRef .tc main_v8)) (V (Proc.devRef .tc main_v9)) (broadcastInDim S50000 ![] Facts₀.bcast_S_S50000 (V (Proc.devRef .tc main_cst_2))) := by
  dsimp only [Gen.hostOps0_1]; after_results; try rfl
/-- The third stretch reads that vector as a column. -/
theorem s02_v11 : StableHlo.after hostOps0_2 V (Proc.devRef .tc main_v11)
    = shapeCast S50000x1 (V (Proc.devRef .tc main_v10)) Facts₀.shapeCasts_S50000_S50000x1 := by
  dsimp only [Gen.hostOps0_2]; after_results; try rfl

/-- The stretch before region 1 sums, into each node's row, the rows of the previous output along the extended edges … -/
theorem s1_agg (raw : FVec Ideal S50000x64 .bf16) (src dst : IVec S800000 32)
    (hr : V (Proc.devRef .tc main_v12) = raw) (h1 : V (Proc.devRef .tc main_v1) = KTerm.cat src) (h2 : V (Proc.devRef .tc main_v2) = KTerm.cat dst) :
    StableHlo.after hostOps1 V (Proc.devRef .tc main_v23) = KTerm.agg64 raw src dst := by
  dsimp only [Gen.hostOps1]
  after_results_simp
  first | rw [hr, h1, h2] | simp only [hr, h1, h2]
  try rfl
/-- … and reads the layer's bias as a row. -/
theorem s1_bias (b : FVec Ideal S64 .f32) (hb : V (Proc.devRef .tc main_arg4) = b) :
    StableHlo.after hostOps1 V (Proc.devRef .tc main_v24) = KTerm.biasRow64 b := by
  dsimp only [Gen.hostOps1]
  after_results
  first | rw [hb] | simp only [hb]
  try rfl

/-- The stretch before region 2 sums, into each node's row, the rows of the previous output along the extended edges … -/
theorem s2_agg (raw : FVec Ideal S50000x64 .bf16) (src dst : IVec S800000 32)
    (hr : V (Proc.devRef .tc main_v25) = raw) (h1 : V (Proc.devRef .tc main_v1) = KTerm.cat src) (h2 : V (Proc.devRef .tc main_v2) = KTerm.cat dst) :
    StableHlo.after hostOps2 V (Proc.devRef .tc main_v36) = KTerm.agg64 raw src dst := by
  dsimp only [Gen.hostOps2]
  after_results_simp
  first | rw [hr, h1, h2] | simp only [hr, h1, h2]
  try rfl
/-- … and reads the layer's bias as a row. -/
theorem s2_bias (b : FVec Ideal S64 .f32) (hb : V (Proc.devRef .tc main_arg6) = b) :
    StableHlo.after hostOps2 V (Proc.devRef .tc main_v37) = KTerm.biasRow64 b := by
  dsimp only [Gen.hostOps2]
  after_results
  first | rw [hb] | simp only [hb]
  try rfl

/-- The stretch before region 3 sums, into each node's row, the rows of the previous output along the extended edges … -/
theorem s3_agg (raw : FVec Ideal S50000x64 .bf16) (src dst : IVec S800000 32)
    (hr : V (Proc.devRef .tc main_v38) = raw) (h1 : V (Proc.devRef .tc main_v1) = KTerm.cat src) (h2 : V (Proc.devRef .tc main_v2) = KTerm.cat dst) :
    StableHlo.after hostOps3 V (Proc.devRef .tc main_v49) = KTerm.agg64 raw src dst := by
  dsimp only [Gen.hostOps3]
  after_results_simp
  first | rw [hr, h1, h2] | simp only [hr, h1, h2]
  try rfl
/-- … and reads the layer's bias as a row. -/
theorem s3_bias (b : FVec Ideal S64 .f32) (hb : V (Proc.devRef .tc main_arg8) = b) :
    StableHlo.after hostOps3 V (Proc.devRef .tc main_v50) = KTerm.biasRow64 b := by
  dsimp only [Gen.hostOps3]
  after_results
  first | rw [hb] | simp only [hb]
  try rfl

/-- The stretch before region 4 sums, into each node's row, the rows of the previous output along the extended edges … -/
theorem s4_agg (raw : FVec Ideal S50000x32 .bf16) (src dst : IVec S800000 32)
    (hr : V (Proc.devRef .tc main_v51) = raw) (h1 : V (Proc.devRef .tc main_v1) = KTerm.cat src) (h2 : V (Proc.devRef .tc main_v2) = KTerm.cat dst) :
    StableHlo.after hostOps4 V (Proc.devRef .tc main_v62) = KTerm.agg32 raw src dst := by
  dsimp only [Gen.hostOps4]
  after_results_simp
  first | rw [hr, h1, h2] | simp only [hr, h1, h2]
  try rfl
/-- … and reads the layer's bias as a row. -/
theorem s4_bias (b : FVec Ideal S32 .f32) (hb : V (Proc.devRef .tc main_arg10) = b) :
    StableHlo.after hostOps4 V (Proc.devRef .tc main_v63) = KTerm.biasRow32 b := by
  dsimp only [Gen.hostOps4]
  after_results
  first | rw [hb] | simp only [hb]
  try rfl

/-- The stretch before the last region reads the last bias as a row. -/
theorem s5_bias (b : FVec Ideal S4 .f32) (hb : V (Proc.devRef .tc main_arg12) = b) :
    StableHlo.after hostOps5 V (Proc.devRef .tc main_v65) = KTerm.biasRow4 b := by
  dsimp only [Gen.hostOps5]
  after_results
  first | rw [hb] | simp only [hb]
  try rfl
end Stretch

/-! ## The two extended edge vectors, carried to each aggregation stretch -/
theorem v1_W4 : Gen.W4 m ρ c (Proc.devRef .tc main_v1) = KTerm.cat (m ((c : Thread nD τ).loc main_arg1)) :=
  (Gen.W4_of_ne m ρ c main_v1 (by decide)).trans
    ((show Gen.W3 m ρ c (Proc.devRef .tc main_v1) = Gen.W2 m ρ c (Proc.devRef .tc main_v1) by host_skip hostOps0_2).trans
    ((show Gen.W2 m ρ c (Proc.devRef .tc main_v1) = Gen.W1 m ρ c (Proc.devRef .tc main_v1) by host_skip hostOps0_1).trans
    ((s0_v1 (Gen.W0 m ρ c)))))
theorem v2_W4 : Gen.W4 m ρ c (Proc.devRef .tc main_v2) = KTerm.cat (m ((c : Thread nD τ).loc main_arg2)) :=
  (Gen.W4_of_ne m ρ c main_v2 (by decide)).trans
    ((show Gen.W3 m ρ c (Proc.devRef .tc main_v2) = Gen.W2 m ρ c (Proc.devRef .tc main_v2) by host_skip hostOps0_2).trans
    ((show Gen.W2 m ρ c (Proc.devRef .tc main_v2) = Gen.W1 m ρ c (Proc.devRef .tc main_v2) by host_skip hostOps0_1).trans
    ((s0_v2 (Gen.W0 m ρ c)))))
theorem v1_W6 : Gen.W6 m ρ c (Proc.devRef .tc main_v1) = KTerm.cat (m ((c : Thread nD τ).loc main_arg1)) :=
  (Gen.W6_of_ne m ρ c main_v1 (by decide)).trans
    ((show Gen.W5 m ρ c (Proc.devRef .tc main_v1) = Gen.W4 m ρ c (Proc.devRef .tc main_v1) by host_skip hostOps1).trans
    ((v1_W4 m ρ c)))
theorem v2_W6 : Gen.W6 m ρ c (Proc.devRef .tc main_v2) = KTerm.cat (m ((c : Thread nD τ).loc main_arg2)) :=
  (Gen.W6_of_ne m ρ c main_v2 (by decide)).trans
    ((show Gen.W5 m ρ c (Proc.devRef .tc main_v2) = Gen.W4 m ρ c (Proc.devRef .tc main_v2) by host_skip hostOps1).trans
    ((v2_W4 m ρ c)))
theorem v1_W8 : Gen.W8 m ρ c (Proc.devRef .tc main_v1) = KTerm.cat (m ((c : Thread nD τ).loc main_arg1)) :=
  (Gen.W8_of_ne m ρ c main_v1 (by decide)).trans
    ((show Gen.W7 m ρ c (Proc.devRef .tc main_v1) = Gen.W6 m ρ c (Proc.devRef .tc main_v1) by host_skip hostOps2).trans
    ((v1_W6 m ρ c)))
theorem v2_W8 : Gen.W8 m ρ c (Proc.devRef .tc main_v2) = KTerm.cat (m ((c : Thread nD τ).loc main_arg2)) :=
  (Gen.W8_of_ne m ρ c main_v2 (by decide)).trans
    ((show Gen.W7 m ρ c (Proc.devRef .tc main_v2) = Gen.W6 m ρ c (Proc.devRef .tc main_v2) by host_skip hostOps2).trans
    ((v2_W6 m ρ c)))
theorem v1_W10 : Gen.W10 m ρ c (Proc.devRef .tc main_v1) = KTerm.cat (m ((c : Thread nD τ).loc main_arg1)) :=
  (Gen.W10_of_ne m ρ c main_v1 (by decide)).trans
    ((show Gen.W9 m ρ c (Proc.devRef .tc main_v1) = Gen.W8 m ρ c (Proc.devRef .tc main_v1) by host_skip hostOps3).trans
    ((v1_W8 m ρ c)))
theorem v2_W10 : Gen.W10 m ρ c (Proc.devRef .tc main_v2) = KTerm.cat (m ((c : Thread nD τ).loc main_arg2)) :=
  (Gen.W10_of_ne m ρ c main_v2 (by decide)).trans
    ((show Gen.W9 m ρ c (Proc.devRef .tc main_v2) = Gen.W8 m ρ c (Proc.devRef .tc main_v2) by host_skip hostOps3).trans
    ((v2_W8 m ρ c)))

/-! ## The scaling column -/
theorem v11_W3 : Gen.W3 m ρ c (Proc.devRef .tc main_v11) = KTerm.dinv2 (m ((c : Thread nD τ).loc main_arg2)) := by
  rw [show Gen.W3 m ρ c (Proc.devRef .tc main_v11) = _ from s02_v11 (Gen.W2 m ρ c)]
  rw [show Gen.W2 m ρ c (Proc.devRef .tc main_v10) = _ from s01_v10 (Gen.W1 m ρ c)]
  rw [show Gen.W1 m ρ c (Proc.devRef .tc main_v8) = _ from s0_v8 (Gen.W0 m ρ c), show Gen.W1 m ρ c (Proc.devRef .tc main_v9) = _ from s0_v9 (Gen.W0 m ρ c),
    show Gen.W1 m ρ c (Proc.devRef .tc main_cst_2) = _ from s0_cst2 (Gen.W0 m ρ c)]
  try rfl
theorem v11_W5 : Gen.W5 m ρ c (Proc.devRef .tc main_v11) = KTerm.dinv2 (m ((c : Thread nD τ).loc main_arg2)) :=
  (show Gen.W5 m ρ c (Proc.devRef .tc main_v11) = Gen.W4 m ρ c (Proc.devRef .tc main_v11) by host_skip hostOps1).trans
    ((show Gen.W4 m ρ c (Proc.devRef .tc main_v11) = Gen.W3 m ρ c (Proc.devRef .tc main_v11) from (Gen.W4_arr m ρ c 2).trans (((Gen.dat0 (Gen.V3 m ρ) c).arrAt_in 2 rfl _).trans (Gen.A_eq0 (Gen.V3 m ρ) c 2))).trans
    ((v11_W3 m ρ c)))
theorem v11_W7 : Gen.W7 m ρ c (Proc.devRef .tc main_v11) = KTerm.dinv2 (m ((c : Thread nD τ).loc main_arg2)) :=
  (show Gen.W7 m ρ c (Proc.devRef .tc main_v11) = Gen.W6 m ρ c (Proc.devRef .tc main_v11) by host_skip hostOps2).trans
    ((show Gen.W6 m ρ c (Proc.devRef .tc main_v11) = Gen.W5 m ρ c (Proc.devRef .tc main_v11) from (Gen.W6_arr m ρ c 1).trans (((Gen.dat1 (Gen.V5 m ρ) c).arrAt_in 1 rfl _).trans (Gen.A_eq1 (Gen.V5 m ρ) c 1))).trans
    ((v11_W5 m ρ c)))
theorem v11_W9 : Gen.W9 m ρ c (Proc.devRef .tc main_v11) = KTerm.dinv2 (m ((c : Thread nD τ).loc main_arg2)) :=
  (show Gen.W9 m ρ c (Proc.devRef .tc main_v11) = Gen.W8 m ρ c (Proc.devRef .tc main_v11) by host_skip hostOps3).trans
    ((show Gen.W8 m ρ c (Proc.devRef .tc main_v11) = Gen.W7 m ρ c (Proc.devRef .tc main_v11) from (Gen.W8_arr m ρ c 1).trans (((Gen.dat2 (Gen.V7 m ρ) c).arrAt_in 1 rfl _).trans (Gen.A_eq2 (Gen.V7 m ρ) c 1))).trans
    ((v11_W7 m ρ c)))
theorem v11_W11 : Gen.W11 m ρ c (Proc.devRef .tc main_v11) = KTerm.dinv2 (m ((c : Thread nD τ).loc main_arg2)) :=
  (show Gen.W11 m ρ c (Proc.devRef .tc main_v11) = Gen.W10 m ρ c (Proc.devRef .tc main_v11) by host_skip hostOps4).trans
    ((show Gen.W10 m ρ c (Proc.devRef .tc main_v11) = Gen.W9 m ρ c (Proc.devRef .tc main_v11) from (Gen.W10_arr m ρ c 1).trans (((Gen.dat3 (Gen.V9 m ρ) c).arrAt_in 1 rfl _).trans (Gen.A_eq3 (Gen.V9 m ρ) c 1))).trans
    ((v11_W9 m ρ c)))

/-! ## The bias arguments at the stretch that reshapes them -/
theorem arg4_W4 : Gen.W4 m ρ c (Proc.devRef .tc main_arg4) = (m ((c : Thread nD τ).loc main_arg4)) :=
  (Gen.W4_of_ne m ρ c main_arg4 (by decide)).trans
    ((show Gen.W3 m ρ c (Proc.devRef .tc main_arg4) = Gen.W2 m ρ c (Proc.devRef .tc main_arg4) by host_skip hostOps0_2).trans
    ((show Gen.W2 m ρ c (Proc.devRef .tc main_arg4) = Gen.W1 m ρ c (Proc.devRef .tc main_arg4) by host_skip hostOps0_1).trans
    ((show Gen.W1 m ρ c (Proc.devRef .tc main_arg4) = Gen.W0 m ρ c (Proc.devRef .tc main_arg4) by host_skip hostOps0).trans
    ((show Gen.W0 m ρ c (Proc.devRef .tc main_arg4) = m ((c : Thread nD τ).loc main_arg4) from rfl)))))
theorem arg6_W6 : Gen.W6 m ρ c (Proc.devRef .tc main_arg6) = (m ((c : Thread nD τ).loc main_arg6)) :=
  (Gen.W6_of_ne m ρ c main_arg6 (by decide)).trans
    ((show Gen.W5 m ρ c (Proc.devRef .tc main_arg6) = Gen.W4 m ρ c (Proc.devRef .tc main_arg6) by host_skip hostOps1).trans
    ((Gen.W4_of_ne m ρ c main_arg6 (by decide)).trans
    ((show Gen.W3 m ρ c (Proc.devRef .tc main_arg6) = Gen.W2 m ρ c (Proc.devRef .tc main_arg6) by host_skip hostOps0_2).trans
    ((show Gen.W2 m ρ c (Proc.devRef .tc main_arg6) = Gen.W1 m ρ c (Proc.devRef .tc main_arg6) by host_skip hostOps0_1).trans
    ((show Gen.W1 m ρ c (Proc.devRef .tc main_arg6) = Gen.W0 m ρ c (Proc.devRef .tc main_arg6) by host_skip hostOps0).trans
    ((show Gen.W0 m ρ c (Proc.devRef .tc main_arg6) = m ((c : Thread nD τ).loc main_arg6) from rfl)))))))
theorem arg8_W8 : Gen.W8 m ρ c (Proc.devRef .tc main_arg8) = (m ((c : Thread nD τ).loc main_arg8)) :=
  (Gen.W8_of_ne m ρ c main_arg8 (by decide)).trans
    ((show Gen.W7 m ρ c (Proc.devRef .tc main_arg8) = Gen.W6 m ρ c (Proc.devRef .tc main_arg8) by host_skip hostOps2).trans
    ((Gen.W6_of_ne m ρ c main_arg8 (by decide)).trans
    ((show Gen.W5 m ρ c (Proc.devRef .tc main_arg8) = Gen.W4 m ρ c (Proc.devRef .tc main_arg8) by host_skip hostOps1).trans
    ((Gen.W4_of_ne m ρ c main_arg8 (by decide)).trans
    ((show Gen.W3 m ρ c (Proc.devRef .tc main_arg8) = Gen.W2 m ρ c (Proc.devRef .tc main_arg8) by host_skip hostOps0_2).trans
    ((show Gen.W2 m ρ c (Proc.devRef .tc main_arg8) = Gen.W1 m ρ c (Proc.devRef .tc main_arg8) by host_skip hostOps0_1).trans
    ((show Gen.W1 m ρ c (Proc.devRef .tc main_arg8) = Gen.W0 m ρ c (Proc.devRef .tc main_arg8) by host_skip hostOps0).trans
    ((show Gen.W0 m ρ c (Proc.devRef .tc main_arg8) = m ((c : Thread nD τ).loc main_arg8) from rfl)))))))))
theorem arg10_W10 : Gen.W10 m ρ c (Proc.devRef .tc main_arg10) = (m ((c : Thread nD τ).loc main_arg10)) :=
  (Gen.W10_of_ne m ρ c main_arg10 (by decide)).trans
    ((show Gen.W9 m ρ c (Proc.devRef .tc main_arg10) = Gen.W8 m ρ c (Proc.devRef .tc main_arg10) by host_skip hostOps3).trans
    ((Gen.W8_of_ne m ρ c main_arg10 (by decide)).trans
    ((show Gen.W7 m ρ c (Proc.devRef .tc main_arg10) = Gen.W6 m ρ c (Proc.devRef .tc main_arg10) by host_skip hostOps2).trans
    ((Gen.W6_of_ne m ρ c main_arg10 (by decide)).trans
    ((show Gen.W5 m ρ c (Proc.devRef .tc main_arg10) = Gen.W4 m ρ c (Proc.devRef .tc main_arg10) by host_skip hostOps1).trans
    ((Gen.W4_of_ne m ρ c main_arg10 (by decide)).trans
    ((show Gen.W3 m ρ c (Proc.devRef .tc main_arg10) = Gen.W2 m ρ c (Proc.devRef .tc main_arg10) by host_skip hostOps0_2).trans
    ((show Gen.W2 m ρ c (Proc.devRef .tc main_arg10) = Gen.W1 m ρ c (Proc.devRef .tc main_arg10) by host_skip hostOps0_1).trans
    ((show Gen.W1 m ρ c (Proc.devRef .tc main_arg10) = Gen.W0 m ρ c (Proc.devRef .tc main_arg10) by host_skip hostOps0).trans
    ((show Gen.W0 m ρ c (Proc.devRef .tc main_arg10) = m ((c : Thread nD τ).loc main_arg10) from rfl)))))))))))
theorem arg12_W12 : Gen.W12 m ρ c (Proc.devRef .tc main_arg12) = (m ((c : Thread nD τ).loc main_arg12)) :=
  (Gen.W12_of_ne m ρ c main_arg12 (by decide)).trans
    ((show Gen.W11 m ρ c (Proc.devRef .tc main_arg12) = Gen.W10 m ρ c (Proc.devRef .tc main_arg12) by host_skip hostOps4).trans
    ((Gen.W10_of_ne m ρ c main_arg12 (by decide)).trans
    ((show Gen.W9 m ρ c (Proc.devRef .tc main_arg12) = Gen.W8 m ρ c (Proc.devRef .tc main_arg12) by host_skip hostOps3).trans
    ((Gen.W8_of_ne m ρ c main_arg12 (by decide)).trans
    ((show Gen.W7 m ρ c (Proc.devRef .tc main_arg12) = Gen.W6 m ρ c (Proc.devRef .tc main_arg12) by host_skip hostOps2).trans
    ((Gen.W6_of_ne m ρ c main_arg12 (by decide)).trans
    ((show Gen.W5 m ρ c (Proc.devRef .tc main_arg12) = Gen.W4 m ρ c (Proc.devRef .tc main_arg12) by host_skip hostOps1).trans
    ((Gen.W4_of_ne m ρ c main_arg12 (by decide)).trans
    ((show Gen.W3 m ρ c (Proc.devRef .tc main_arg12) = Gen.W2 m ρ c (Proc.devRef .tc main_arg12) by host_skip hostOps0_2).trans
    ((show Gen.W2 m ρ c (Proc.devRef .tc main_arg12) = Gen.W1 m ρ c (Proc.devRef .tc main_arg12) by host_skip hostOps0_1).trans
    ((show Gen.W1 m ρ c (Proc.devRef .tc main_arg12) = Gen.W0 m ρ c (Proc.devRef .tc main_arg12) by host_skip hostOps0).trans
    ((show Gen.W0 m ρ c (Proc.devRef .tc main_arg12) = m ((c : Thread nD τ).loc main_arg12) from rfl)))))))))))))

/-! ## Region 0: the features, the first weight, the scaling column -/
theorem in0_0 : Gen.V3 m ρ c (Pipeline.arrRef spec0 0) = (m ((c : Thread nD τ).loc main_arg0)) :=
  (show Gen.W3 m ρ c (Proc.devRef .tc main_arg0) = Gen.W2 m ρ c (Proc.devRef .tc main_arg0) by host_skip hostOps0_2).trans
    ((show Gen.W2 m ρ c (Proc.devRef .tc main_arg0) = Gen.W1 m ρ c (Proc.devRef .tc main_arg0) by host_skip hostOps0_1).trans
    ((show Gen.W1 m ρ c (Proc.devRef .tc main_arg0) = Gen.W0 m ρ c (Proc.devRef .tc main_arg0) by host_skip hostOps0).trans
    ((show Gen.W0 m ρ c (Proc.devRef .tc main_arg0) = m ((c : Thread nD τ).loc main_arg0) from rfl))))
theorem in0_1 : Gen.V3 m ρ c (Pipeline.arrRef spec0 1) = (m ((c : Thread nD τ).loc main_arg3)) :=
  (show Gen.W3 m ρ c (Proc.devRef .tc main_arg3) = Gen.W2 m ρ c (Proc.devRef .tc main_arg3) by host_skip hostOps0_2).trans
    ((show Gen.W2 m ρ c (Proc.devRef .tc main_arg3) = Gen.W1 m ρ c (Proc.devRef .tc main_arg3) by host_skip hostOps0_1).trans
    ((show Gen.W1 m ρ c (Proc.devRef .tc main_arg3) = Gen.W0 m ρ c (Proc.devRef .tc main_arg3) by host_skip hostOps0).trans
    ((show Gen.W0 m ρ c (Proc.devRef .tc main_arg3) = m ((c : Thread nD τ).loc main_arg3) from rfl))))
theorem in0_2 : Gen.V3 m ρ c (Pipeline.arrRef spec0 2) = KTerm.dinv2 (m ((c : Thread nD τ).loc main_arg2)) := v11_W3 m ρ c

/-! ## Region 1: the neighbourhood sum of region 0's output, the scaling column, the bias row, the weight -/
theorem in1_0 : Gen.V5 m ρ c (Pipeline.arrRef spec1 0)
    = KTerm.agg64 (Gen.V4 m ρ c (Pipeline.arrRef spec0 3)) (m ((c : Thread nD τ).loc main_arg1)) (m ((c : Thread nD τ).loc main_arg2)) :=
  s1_agg (Gen.W4 m ρ c) _ _ _ rfl (v1_W4 m ρ c) (v2_W4 m ρ c)
theorem in1_1 : Gen.V5 m ρ c (Pipeline.arrRef spec1 1) = KTerm.dinv2 (m ((c : Thread nD τ).loc main_arg2)) := v11_W5 m ρ c
theorem in1_2 : Gen.V5 m ρ c (Pipeline.arrRef spec1 2) = KTerm.biasRow64 (m ((c : Thread nD τ).loc main_arg4)) :=
  s1_bias (Gen.W4 m ρ c) _ (arg4_W4 m ρ c)
theorem in1_3 : Gen.V5 m ρ c (Pipeline.arrRef spec1 3) = (m ((c : Thread nD τ).loc main_arg5)) :=
  (show Gen.W5 m ρ c (Proc.devRef .tc main_arg5) = Gen.W4 m ρ c (Proc.devRef .tc main_arg5) by host_skip hostOps1).trans
    ((Gen.W4_of_ne m ρ c main_arg5 (by decide)).trans
    ((show Gen.W3 m ρ c (Proc.devRef .tc main_arg5) = Gen.W2 m ρ c (Proc.devRef .tc main_arg5) by host_skip hostOps0_2).trans
    ((show Gen.W2 m ρ c (Proc.devRef .tc main_arg5) = Gen.W1 m ρ c (Proc.devRef .tc main_arg5) by host_skip hostOps0_1).trans
    ((show Gen.W1 m ρ c (Proc.devRef .tc main_arg5) = Gen.W0 m ρ c (Proc.devRef .tc main_arg5) by host_skip hostOps0).trans
    ((show Gen.W0 m ρ c (Proc.devRef .tc main_arg5) = m ((c : Thread nD τ).loc main_arg5) from rfl))))))

/-! ## Region 2: the neighbourhood sum of region 1's output, the scaling column, the bias row, the weight -/
theorem in2_0 : Gen.V7 m ρ c (Pipeline.arrRef spec2 0)
    = KTerm.agg64 (Gen.V6 m ρ c (Pipeline.arrRef spec1 4)) (m ((c : Thread nD τ).loc main_arg1)) (m ((c : Thread nD τ).loc main_arg2)) :=
  s2_agg (Gen.W6 m ρ c) _ _ _ rfl (v1_W6 m ρ c) (v2_W6 m ρ c)
theorem in2_1 : Gen.V7 m ρ c (Pipeline.arrRef spec2 1) = KTerm.dinv2 (m ((c : Thread nD τ).loc main_arg2)) := v11_W7 m ρ c
theorem in2_2 : Gen.V7 m ρ c (Pipeline.arrRef spec2 2) = KTerm.biasRow64 (m ((c : Thread nD τ).loc main_arg6)) :=
  s2_bias (Gen.W6 m ρ c) _ (arg6_W6 m ρ c)
theorem in2_3 : Gen.V7 m ρ c (Pipeline.arrRef spec2 3) = (m ((c : Thread nD τ).loc main_arg7)) :=
  (show Gen.W7 m ρ c (Proc.devRef .tc main_arg7) = Gen.W6 m ρ c (Proc.devRef .tc main_arg7) by host_skip hostOps2).trans
    ((Gen.W6_of_ne m ρ c main_arg7 (by decide)).trans
    ((show Gen.W5 m ρ c (Proc.devRef .tc main_arg7) = Gen.W4 m ρ c (Proc.devRef .tc main_arg7) by host_skip hostOps1).trans
    ((Gen.W4_of_ne m ρ c main_arg7 (by decide)).trans
    ((show Gen.W3 m ρ c (Proc.devRef .tc main_arg7) = Gen.W2 m ρ c (Proc.devRef .tc main_arg7) by host_skip hostOps0_2).trans
    ((show Gen.W2 m ρ c (Proc.devRef .tc main_arg7) = Gen.W1 m ρ c (Proc.devRef .tc main_arg7) by host_skip hostOps0_1).trans
    ((show Gen.W1 m ρ c (Proc.devRef .tc main_arg7) = Gen.W0 m ρ c (Proc.devRef .tc main_arg7) by host_skip hostOps0).trans
    ((show Gen.W0 m ρ c (Proc.devRef .tc main_arg7) = m ((c : Thread nD τ).loc main_arg7) from rfl))))))))

/-! ## Region 3: the neighbourhood sum of region 2's output, the scaling column, the bias row, the weight -/
theorem in3_0 : Gen.V9 m ρ c (Pipeline.arrRef spec3 0)
    = KTerm.agg64 (Gen.V8 m ρ c (Pipeline.arrRef spec2 4)) (m ((c : Thread nD τ).loc main_arg1)) (m ((c : Thread nD τ).loc main_arg2)) :=
  s3_agg (Gen.W8 m ρ c) _ _ _ rfl (v1_W8 m ρ c) (v2_W8 m ρ c)
theorem in3_1 : Gen.V9 m ρ c (Pipeline.arrRef spec3 1) = KTerm.dinv2 (m ((c : Thread nD τ).loc main_arg2)) := v11_W9 m ρ c
theorem in3_2 : Gen.V9 m ρ c (Pipeline.arrRef spec3 2) = KTerm.biasRow64 (m ((c : Thread nD τ).loc main_arg8)) :=
  s3_bias (Gen.W8 m ρ c) _ (arg8_W8 m ρ c)
theorem in3_3 : Gen.V9 m ρ c (Pipeline.arrRef spec3 3) = (m ((c : Thread nD τ).loc main_arg9)) :=
  (show Gen.W9 m ρ c (Proc.devRef .tc main_arg9) = Gen.W8 m ρ c (Proc.devRef .tc main_arg9) by host_skip hostOps3).trans
    ((Gen.W8_of_ne m ρ c main_arg9 (by decide)).trans
    ((show Gen.W7 m ρ c (Proc.devRef .tc main_arg9) = Gen.W6 m ρ c (Proc.devRef .tc main_arg9) by host_skip hostOps2).trans
    ((Gen.W6_of_ne m ρ c main_arg9 (by decide)).trans
    ((show Gen.W5 m ρ c (Proc.devRef .tc main_arg9) = Gen.W4 m ρ c (Proc.devRef .tc main_arg9) by host_skip hostOps1).trans
    ((Gen.W4_of_ne m ρ c main_arg9 (by decide)).trans
    ((show Gen.W3 m ρ c (Proc.devRef .tc main_arg9) = Gen.W2 m ρ c (Proc.devRef .tc main_arg9) by host_skip hostOps0_2).trans
    ((show Gen.W2 m ρ c (Proc.devRef .tc main_arg9) = Gen.W1 m ρ c (Proc.devRef .tc main_arg9) by host_skip hostOps0_1).trans
    ((show Gen.W1 m ρ c (Proc.devRef .tc main_arg9) = Gen.W0 m ρ c (Proc.devRef .tc main_arg9) by host_skip hostOps0).trans
    ((show Gen.W0 m ρ c (Proc.devRef .tc main_arg9) = m ((c : Thread nD τ).loc main_arg9) from rfl))))))))))

/-! ## Region 4: the neighbourhood sum of region 3's output, the scaling column, the bias row -/
theorem in4_0 : Gen.V11 m ρ c (Pipeline.arrRef spec4 0)
    = KTerm.agg32 (Gen.V10 m ρ c (Pipeline.arrRef spec3 4)) (m ((c : Thread nD τ).loc main_arg1)) (m ((c : Thread nD τ).loc main_arg2)) :=
  s4_agg (Gen.W10 m ρ c) _ _ _ rfl (v1_W10 m ρ c) (v2_W10 m ρ c)
theorem in4_1 : Gen.V11 m ρ c (Pipeline.arrRef spec4 1) = KTerm.dinv2 (m ((c : Thread nD τ).loc main_arg2)) := v11_W11 m ρ c
theorem in4_2 : Gen.V11 m ρ c (Pipeline.arrRef spec4 2) = KTerm.biasRow32 (m ((c : Thread nD τ).loc main_arg10)) :=
  s4_bias (Gen.W10 m ρ c) _ (arg10_W10 m ρ c)

/-! ## Region 5: region 4's output itself, the last weight, the last bias row -/
theorem in5_0 : Gen.V13 m ρ c (Pipeline.arrRef spec5 0) = Gen.V12 m ρ c (Pipeline.arrRef spec4 3) :=
  (show Gen.W13 m ρ c (Proc.devRef .tc main_v64) = Gen.W12 m ρ c (Proc.devRef .tc main_v64) by host_skip hostOps5)
theorem in5_1 : Gen.V13 m ρ c (Pipeline.arrRef spec5 1) = (m ((c : Thread nD τ).loc main_arg11)) :=
  (show Gen.W13 m ρ c (Proc.devRef .tc main_arg11) = Gen.W12 m ρ c (Proc.devRef .tc main_arg11) by host_skip hostOps5).trans
    ((Gen.W12_of_ne m ρ c main_arg11 (by decide)).trans
    ((show Gen.W11 m ρ c (Proc.devRef .tc main_arg11) = Gen.W10 m ρ c (Proc.devRef .tc main_arg11) by host_skip hostOps4).trans
    ((Gen.W10_of_ne m ρ c main_arg11 (by decide)).trans
    ((show Gen.W9 m ρ c (Proc.devRef .tc main_arg11) = Gen.W8 m ρ c (Proc.devRef .tc main_arg11) by host_skip hostOps3).trans
    ((Gen.W8_of_ne m ρ c main_arg11 (by decide)).trans
    ((show Gen.W7 m ρ c (Proc.devRef .tc main_arg11) = Gen.W6 m ρ c (Proc.devRef .tc main_arg11) by host_skip hostOps2).trans
    ((Gen.W6_of_ne m ρ c main_arg11 (by decide)).trans
    ((show Gen.W5 m ρ c (Proc.devRef .tc main_arg11) = Gen.W4 m ρ c (Proc.devRef .tc main_arg11) by host_skip hostOps1).trans
    ((Gen.W4_of_ne m ρ c main_arg11 (by decide)).trans
    ((show Gen.W3 m ρ c (Proc.devRef .tc main_arg11) = Gen.W2 m ρ c (Proc.devRef .tc main_arg11) by host_skip hostOps0_2).trans
    ((show Gen.W2 m ρ c (Proc.devRef .tc main_arg11) = Gen.W1 m ρ c (Proc.devRef .tc main_arg11) by host_skip hostOps0_1).trans
    ((show Gen.W1 m ρ c (Proc.devRef .tc main_arg11) = Gen.W0 m ρ c (Proc.devRef .tc main_arg11) by host_skip hostOps0).trans
    ((show Gen.W0 m ρ c (Proc.devRef .tc main_arg11) = m ((c : Thread nD τ).loc main_arg11) from rfl))))))))))))))
theorem in5_2 : Gen.V13 m ρ c (Pipeline.arrRef spec5 2) = KTerm.biasRow4 (m ((c : Thread nD τ).loc main_arg12)) :=
  s5_bias (Gen.W12 m ρ c) _ (arg12_W12 m ρ c)

/-! ## Each region's output is what its write-backs leave; the two results are the last region's outputs -/
theorem reg0_out : Gen.V4 m ρ c (Pipeline.arrRef spec0 3) = (Gen.dat0 (Gen.V3 m ρ) c).arrAt 3 cfg0.N := (Gen.hF0 m ρ c 3).symm
theorem reg1_out : Gen.V6 m ρ c (Pipeline.arrRef spec1 4) = (Gen.dat1 (Gen.V5 m ρ) c).arrAt 4 cfg1.N := (Gen.hF1 m ρ c 4).symm
theorem reg2_out : Gen.V8 m ρ c (Pipeline.arrRef spec2 4) = (Gen.dat2 (Gen.V7 m ρ) c).arrAt 4 cfg2.N := (Gen.hF2 m ρ c 4).symm
theorem reg3_out : Gen.V10 m ρ c (Pipeline.arrRef spec3 4) = (Gen.dat3 (Gen.V9 m ρ) c).arrAt 4 cfg3.N := (Gen.hF3 m ρ c 4).symm
theorem reg4_out : Gen.V12 m ρ c (Pipeline.arrRef spec4 3) = (Gen.dat4 (Gen.V11 m ρ) c).arrAt 3 cfg4.N := (Gen.hF4 m ρ c 3).symm
theorem reg5_out0 : Gen.V14 m ρ c (Pipeline.arrRef spec5 3) = (Gen.dat5 (Gen.V13 m ρ) c).arrAt 3 cfg5.N := (Gen.hF5 m ρ c 3).symm
theorem reg5_out1 : Gen.V14 m ρ c (Pipeline.arrRef spec5 4) = (Gen.dat5 (Gen.V13 m ρ) c).arrAt 4 cfg5.N := (Gen.hF5 m ρ c 4).symm
theorem out0 : Gen.W14 m ρ c (Proc.devRef .tc main_v66_0) = (Gen.dat5 (Gen.V13 m ρ) c).arrAt 3 cfg5.N := Gen.W14_arr m ρ c 3
theorem out1 : Gen.W14 m ρ c (Proc.devRef .tc main_v66_1) = (Gen.dat5 (Gen.V13 m ρ) c).arrAt 4 cfg5.N := Gen.W14_arr m ρ c 4

end Cert.KernelIdeal.KChain

end
-- ==== Proof.KSpec.lean ====
/-
  What each tiled kernel of the network leaves in its output array, entry by entry, as a function of the arrays it
  reads — all on the extended reals.  Rows are nodes.  A node's row of an output depends only on the same node's
  row of the inputs, so the tiling disappears: these are functions of a row `n` and a column.
  `d` is the column of inverse square roots of the degrees (one entry per node), `b` a bias row.
-/
import Idealize.ShloMosaic.PureOps.Ideal
import Idealize.ShloMosaic.Lib.ValueIdx

noncomputable section

open scoped BigOperators

namespace Cert.KSpec

open Idealize.ShloMosaic Idealize.ShloMosaic.ValueIdx

/-- A matrix of extended reals with `r` rows and `c` columns. -/
abbrev Arr2 (r c : Nat) : Type := (⟨2, ![r, c]⟩ : Shape).Idx → EReal

/-- The float literal `0.0`. -/
def zeroLit : EReal := FloatOps.ofBits (F := Ideal) .f32 0x00000000#32
/-- The slope of the leaky rectifier, the float nearest to one hundredth. -/
def slopeLit : EReal := FloatOps.ofBits (F := Ideal) .f32 0x3C23D70A#32
/-- The float literal `-inf`, the neutral element of a maximum. -/
def negInfLit : EReal := FloatOps.ofBits (F := Ideal) .f32 0xFF800000#32

/-- The leaky rectifier as the kernels take it: `v` where `v > 0`, `slope · v` elsewhere. -/
def lreluGT (v : EReal) : EReal := Scalar.select (Ideal.cmp .ogt v zeroLit) v (slopeLit * v)

/-- Entry `(n, j)` of the product `H · W`. -/
def dense {N A B : Nat} (H : Arr2 N A) (W : Arr2 A B) (n : Fin N) (j : Fin B) : EReal :=
  ∑ k : Fin A, H (ix2 n k) * W (ix2 k j)

/-- The first kernel: `(x · W)(n, j) · d(n)`. -/
def pre {N A B : Nat} (x : Arr2 N A) (W : Arr2 A B) (d : Arr2 N 1) (n : Fin N) (j : Fin B) : EReal :=
  dense x W n j * d (ix2 n (0 : Fin 1))

/-- Bias and activation of an aggregated entry: `lrelu (agg(n, k) · d(n) + b(k))`. -/
def act {N A : Nat} (agg : Arr2 N A) (d : Arr2 N 1) (b : Arr2 1 A) (n : Fin N) (k : Fin A) : EReal :=
  lreluGT (agg (ix2 n k) * d (ix2 n (0 : Fin 1)) + b (ix2 (0 : Fin 1) k))

/-- The fused kernels: the activated row times the next weight matrix, times `d(n)`. -/
def fused {N A B : Nat} (agg : Arr2 N A) (d : Arr2 N 1) (b : Arr2 1 A) (W : Arr2 A B) (n : Fin N) (j : Fin B) : EReal :=
  (∑ k : Fin A, act agg d b n k * W (ix2 k j)) * d (ix2 n (0 : Fin 1))

/-- The maximum of a row of `C` entries, folded from `-inf`. -/
def rowMax {C : Nat} (f : Fin C → EReal) : EReal := (Finset.univ : Finset (Fin C)).fold max negInfLit f

/-- Entry `(n, j)` of the softmax of row `n`: `exp (h − max) / Σ exp (h − max)`. -/
def smax {N C : Nat} (h : Arr2 N C) (n : Fin N) (j : Fin C) : EReal :=
  Ideal.div (Ideal.exp (h (ix2 n j) - rowMax fun k => h (ix2 n k)))
    (∑ k : Fin C, Ideal.exp (h (ix2 n k) - rowMax fun k' => h (ix2 n k')))

/-- The softmax row divided by its own maximum. -/
def concepts {N C : Nat} (h : Arr2 N C) (n : Fin N) (j : Fin C) : EReal :=
  Ideal.div (smax h n j) (rowMax fun k => smax h n k)

/-- The last linear layer on the normalized row, plus its bias. -/
def logits {N C K : Nat} (h : Arr2 N C) (Wl : Arr2 C K) (bl : Arr2 1 K) (n : Fin N) (q : Fin K) : EReal :=
  (∑ j : Fin C, concepts h n j * Wl (ix2 j q)) + bl (ix2 (0 : Fin 1) q)

end Cert.KSpec

end
-- ==== Proof.KNet.lean ====
/-
  The kernel program's two results as terms of its thirteen argument arrays: the six tiled kernels (as the row
  functions of `KSpec`) alternating with the neighbourhood sums.
-/
import proofs.«166952_j50646254354931_2_alg».proof.Proof.KTerm
import proofs.«166952_j50646254354931_2_alg».proof.Proof.KSpec

noncomputable section

namespace Cert.KernelIdeal.KNet

open Idealize.ShloMosaic Idealize.ShloMosaic.ValueIdx Cert.KSpec Cert.KernelIdeal Cert.KernelIdeal.KTerm

variable [Facts₀]

variable (a0 : FVec Ideal S50000x128 .f32) (a1 a2 : IVec S800000 32) (a3 : FVec Ideal S128x64 .f32)
  (a4 : FVec Ideal S64 .f32) (a5 : FVec Ideal S64x64 .f32) (a6 : FVec Ideal S64 .f32) (a7 : FVec Ideal S64x64 .f32)
  (a8 : FVec Ideal S64 .f32) (a9 : FVec Ideal S64x32 .f32) (a10 : FVec Ideal S32 .f32) (a11 : FVec Ideal S32x4 .f32)
  (a12 : FVec Ideal S4 .f32)

/-- The first kernel's output: `(x · W0)` with row `n` scaled by `d n`. -/
def raw0 : FVec Ideal S50000x64 .bf16 := fun i => pre (N := 50000) (A := 128) (B := 64) a0 a3 (dinv2 a2) (i 0) (i 1)
/-- Its neighbourhood sum. -/
def agg0 : FVec Ideal S50000x64 .f32 := agg64 (raw0 a0 a2 a3) a1 a2
/-- The second kernel's output. -/
def raw1 : FVec Ideal S50000x64 .bf16 :=
  fun i => fused (N := 50000) (A := 64) (B := 64) (agg0 a0 a1 a2 a3) (dinv2 a2) (biasRow64 a4) a5 (i 0) (i 1)
def agg1 : FVec Ideal S50000x64 .f32 := agg64 (raw1 a0 a1 a2 a3 a4 a5) a1 a2
/-- The third kernel's output. -/
def raw2 : FVec Ideal S50000x64 .bf16 :=
  fun i => fused (N := 50000) (A := 64) (B := 64) (agg1 a0 a1 a2 a3 a4 a5) (dinv2 a2) (biasRow64 a6) a7 (i 0) (i 1)
def agg2 : FVec Ideal S50000x64 .f32 := agg64 (raw2 a0 a1 a2 a3 a4 a5 a6 a7) a1 a2
/-- The fourth kernel's output, 32 columns. -/
def raw3 : FVec Ideal S50000x32 .bf16 :=
  fun i => fused (N := 50000) (A := 64) (B := 32) (agg2 a0 a1 a2 a3 a4 a5 a6 a7) (dinv2 a2) (biasRow64 a8) a9 (i 0) (i 1)
def agg3 : FVec Ideal S50000x32 .f32 := agg32 (raw3 a0 a1 a2 a3 a4 a5 a6 a7 a8 a9) a1 a2
/-- The fifth kernel's output: the last layer's activations. -/
def h4 : FVec Ideal S50000x32 .f32 :=
  fun i => act (N := 50000) (A := 32) (agg3 a0 a1 a2 a3 a4 a5 a6 a7 a8 a9) (dinv2 a2) (biasRow32 a10) (i 0) (i 1)
/-- The first result. -/
def out0 : FVec Ideal S50000x32 .f32 :=
  fun i => concepts (N := 50000) (C := 32) (h4 a0 a1 a2 a3 a4 a5 a6 a7 a8 a9 a10) (i 0) (i 1)
/-- The second result. -/
def out1 : FVec Ideal S50000x4 .f32 :=
  fun i => logits (N := 50000) (C := 32) (K := 4) (h4 a0 a1 a2 a3 a4 a5 a6 a7 a8 a9 a10) a11 (biasRow4 a12) (i 0) (i 1)

end Cert.KernelIdeal.KNet

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.KReg0.lean ====
/-
  The first tiled kernel, from its row blocks to its whole output array, on the extended reals.

  The kernel walks ten row tiles of 5000 nodes. At tile `t` it multiplies rows `5000 t … 5000 t + 4999` of `x` by the
  whole weight matrix and scales row `p` of the product by `d (5000 t + p)`. A node's output row depends only on the
  same node's input rows, so the ten blocks are the restrictions of one function of the whole arrays:
  entry `(n, j)` of the output is `(x · W)(n, j) · d(n)`.
-/
import proofs.«166952_j50646254354931_2_alg».proof.Proof.Gen.KernelIdeal.Frame
import proofs.«166952_j50646254354931_2_alg».proof.Proof.KSpec
import proofs.«166952_j50646254354931_2_alg».proof.Proof.LibDenseBlock
import proofs.«166952_j50646254354931_2_alg».proof.Proof.LibColumn
import Idealize.ShloMosaic.Lib.Pipeline.Value

set_option maxRecDepth 16384

noncomputable section

open scoped BigOperators

namespace Cert.KernelIdeal.KReg

open Cert.KernelIdeal Cert.KernelIdeal.Gen Idealize.ShloMosaic Idealize.ShloMosaic.ValueIdx
open Idealize.ShloMosaic.Pipeline (Dat)
open Idealize.ShloMosaic.TcCoe Idealize.SL.Sem

/-- Entry `(p, q)` of what the first kernel stores: row `p` of `x` times column `q` of `W`, scaled by `d p`. -/
theorem pay0 (x0 : Vec Ideal S5000x128 .f32) (x1 : Vec Ideal S128x64 .f32) (x2 : Vec Ideal S5000x1 .f32)
    (p : Fin 5000) (q : Fin 64) :
    Gen.k0_pay1 (F := Ideal) x0 x1 x2 (ix2 p q) = KSpec.pre x0 x1 x2 p q := by
  have hd : dot_S5000x128_S128x64_S5000x64_1_0_0_1_n_n
      = DenseBlock.mmDims 5000 128 64 dot_S5000x128_S128x64_S5000x64_1_0_0_1_n_n_wf := rfl
  unfold Gen.k0_pay1 KSpec.pre KSpec.dense
  simp only [truncf, mulf, Ideal.truncf_def, Ideal.mulf_def, matmul, shapeCast_self]
  rw [hd, DenseBlock.matmul_zero_apply, Column.broadcastTo_a1_ab_apply]
  simp only [truncf, Ideal.truncf_def]

variable (V : (c : Dev nD) → (b : Ref sig .tc) → Buf (Elt Ideal) ((c : Thread nD τ).loc b))

theorem hz0 : (![0, 0] : Fin 2 → Nat) = fun _ => 0 := funext fun a => by fin_cases a <;> rfl

/-- Where each window's block sits at grid point `t`: the tiled operands at row block `t`, the weight whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the `x` block at point `t` is row `5000 t + p` of `x`. -/
theorem blk0_0 (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c (Pipeline.arrRef spec0 0) : S50000x128.Idx → EReal) k := by
  obtain ⟨e0, e1, -⟩ := idx0 t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight block is the weight. -/
theorem blk0_1 (c : Dev nD) (t : Fin cfg0.N) (x : S128x64.Idx) :
    (iblk0 V c 1 t : Vec Ideal S128x64 .f32) x = (V c (Pipeline.arrRef spec0 1) : S128x64.Idx → EReal) x := by
  obtain ⟨-, -, e0, e1, -⟩ := idx0 t
  unfold iblk0
  rw [View.read_apply]
  show V c (Pipeline.arrRef spec0 1) _ = V c (Pipeline.arrRef spec0 1) _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- Row `p` of the `d` block at point `t` is row `5000 t + p` of `d`. -/
theorem blk0_2 (c : Dev nD) (t : Fin cfg0.N) (x : S5000x1.Idx) (k : S50000x1.Idx)
    (hk0 : (k 0).val = 5000 * t.val + (x 0).val) (hk1 : (k 1).val = (x 1).val) :
    (iblk0 V c 2 t : Vec Ideal S5000x1 .f32) x = (V c (Pipeline.arrRef spec0 2) : S50000x1.Idx → EReal) k := by
  obtain ⟨-, -, -, -, e0, e1, -⟩ := idx0 t
  unfold iblk0
  rw [View.read_apply]
  show V c (Pipeline.arrRef spec0 2) _ = V c (Pipeline.arrRef spec0 2) _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- The whole-array function the first kernel leaves. -/
abbrev G0 (c : Dev nD) : S50000x64.Idx → EReal := fun i =>
  KSpec.pre (N := 50000) (A := 128) (B := 64) (V c (Pipeline.arrRef spec0 0)) (V c (Pipeline.arrRef spec0 1)) (V c (Pipeline.arrRef spec0 2)) (i 0) (i 1)

/-- What grid point `t` writes back is block `t` of `G0`. -/
theorem flushed0 (c : Dev nD) (t : Fin cfg0.N) :
    (cfg0.win 3).cut (grid0.coords t) ((dat0 V c).after 3 t) = ((cfg0.win 3).blk t).view.read (Elt Ideal) (G0 V c) := by
  rw [after0_3]
  unfold out0_3
  rw [View.canon_unit_zero hz0]
  simp only [View.ld_unit_zero (S := S5000x128) hz0, View.ld_unit_zero (S := S128x64) hz0, View.ld_unit_zero (S := S5000x1) hz0]
  obtain ⟨-, -, -, -, -, -, e0, e1⟩ := idx0 t
  funext j
  obtain ⟨p, q, rfl⟩ : ∃ (p : Fin 5000) (q : Fin 64), j = ix2 p q := ⟨j 0, j 1, eq_ix2 j⟩
  have hp := p.isLt
  have hq := q.isLt
  show k0_pay1 (iblk0 V c 0 t) (iblk0 V c 1 t) (iblk0 V c 2 t) (ix2 p q) = G0 V c (((cfg0.win 3).blk t).view.emb (ix2 p q))
  rw [pay0]
  have hr0 : ((((cfg0.win 3).blk t).view.emb (ix2 p q)) 0).val = 5000 * t.val + p.val := by
    show win0_3.index t 0 * 5000 + 1 * p.val = _; rw [e0]; omega
  have hr1 : ((((cfg0.win 3).blk t).view.emb (ix2 p q)) 1).val = q.val := by
    show win0_3.index t 1 * 64 + 1 * q.val = _; rw [e1]; omega
  unfold G0 KSpec.pre KSpec.dense
  congr 1
  · refine Finset.sum_congr rfl fun n _ => ?_
    congr 1
    · exact blk0_0 V c t (ix2 p n) _ hr0 rfl
    · rw [blk0_1]; congr 1; funext a; apply Fin.ext
      match a with
      | ⟨0, _⟩ => rfl
      | ⟨1, _⟩ => exact hr1.symm
  · exact blk0_2 V c t (ix2 p 0) _ hr0 rfl

/-- Row `r` of the output lies in the block of point `r / 5000`. -/
theorem cover0 (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx0 t
  refine ⟨t, flush0_3 t, ?_⟩
  show i ∈ ((View.whole main_v12).slice (win0_3.rect t)).set
  rw [View.set_slice_whole, Rect.mem_set_unit]
  intro a
  match a with
  | ⟨0, _⟩ =>
    show win0_3.index t 0 * 5000 ≤ (i 0).val ∧ (i 0).val < win0_3.index t 0 * 5000 + 5000
    rw [e0, ht]; omega
  | ⟨1, _⟩ =>
    show win0_3.index t 1 * 64 ≤ (i 1).val ∧ (i 1).val < win0_3.index t 1 * 64 + 64
    rw [e1]; omega

/-- After the first kernel its output array is `(x · W)(n, j) · d(n)` at every entry. -/
theorem arr0 (c : Dev nD) : (Gen.dat0 (F := Ideal) V c).arrAt 3 cfg0.N
    = fun i => KSpec.pre (N := 50000) (A := 128) (B := 64) (V c (Pipeline.arrRef spec0 0)) (V c (Pipeline.arrRef spec0 1))
        (V c (Pipeline.arrRef spec0 2)) (i 0) (i 1) :=
  (dat0 V c).arrAt_eq_of_cover 3 (G0 V c) (fun t _ => flushed0 V c t) cover0

end Cert.KernelIdeal.KReg

end
-- ==== Proof.KReg1.lean ====
/-
  The second tiled kernel, from its row blocks to its whole output array, on the extended reals.

  The kernel walks ten row tiles of 5000 nodes. At tile `t` it takes rows `5000 t … 5000 t + 4999` of the aggregate,
  scales row `p` by `d (5000 t + p)`, adds the bias row, applies the leaky rectifier, multiplies the activated rows by
  the whole `64 × 64` weight matrix and scales row `p` of the product by `d (5000 t + p)` again. A node's output row
  depends only on the same node's input rows, so the ten blocks are the restrictions of one function of the whole
  arrays: entry `(n, j)` of the output is `(Σ k, lrelu (agg(n, k) · d(n) + b(k)) · W(k, j)) · d(n)`.
-/
import proofs.«166952_j50646254354931_2_alg».proof.Proof.Gen.KernelIdeal.Frame
import proofs.«166952_j50646254354931_2_alg».proof.Proof.KSpec
import proofs.«166952_j50646254354931_2_alg».proof.Proof.LibDenseBlock
import proofs.«166952_j50646254354931_2_alg».proof.Proof.LibColumn
import Idealize.ShloMosaic.Lib.Pipeline.Value

set_option maxRecDepth 16384

noncomputable section

open scoped BigOperators

namespace Cert.KernelIdeal.KReg

open Cert.KernelIdeal Cert.KernelIdeal.Gen Idealize.ShloMosaic Idealize.ShloMosaic.ValueIdx
open Idealize.ShloMosaic.Pipeline (Dat)
open Idealize.ShloMosaic.TcCoe Idealize.SL.Sem

/-- A `[1, b]` row broadcast to `[a, b]` reads, at `(p, q)`, the row's entry of column `q`. -/
theorem rowBroadcast1_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- Entry `(p, q)` of what the fused kernel stores: the activated row `p` times column `q` of the weight,
    scaled by `d p`. -/
theorem pay1 (x0 : Vec Ideal S5000x64 .f32) (x1 : Vec Ideal S5000x1 .f32) (x2 : Vec Ideal S1x64 .f32)
    (x3 : Vec Ideal S64x64 .f32) (p : Fin 5000) (q : Fin 64) :
    Gen.k1_pay1 (F := Ideal) x0 x1 x2 x3 x1 (ix2 p q) = KSpec.fused x0 x1 x2 x3 p q := by
  have hd : dot_S5000x64_S64x64_S5000x64_1_0_0_1_n_n
      = DenseBlock.mmDims 5000 64 64 dot_S5000x64_S64x64_S5000x64_1_0_0_1_n_n_wf := rfl
  unfold Gen.k1_pay1 KSpec.fused KSpec.act KSpec.lreluGT KSpec.zeroLit KSpec.slopeLit
  simp only [truncf, mulf, Ideal.truncf_def, Ideal.mulf_def, matmul, shapeCast_self]
  rw [hd, DenseBlock.matmul_zero_apply, Column.broadcastTo_a1_ab_apply]
  congr 1
  refine Finset.sum_congr rfl fun n _ => ?_
  simp only [truncf, select, cmpf, mulf, addf, broadcast, Ideal.truncf_def, Ideal.mulf_def, Ideal.addf_def,
    Ideal.cmpf_def, Column.broadcastTo_a1_ab_apply, rowBroadcast1_apply]

variable (V : (c : Dev nD) → (b : Ref sig .tc) → Buf (Elt Ideal) ((c : Thread nD τ).loc b))

theorem hz1 : (![0, 0] : Fin 2 → Nat) = fun _ => 0 := funext fun a => by fin_cases a <;> rfl

/-- Where each window's block sits at grid point `t`: the tiled operands at row block `t`, the bias row and the
    weight whole. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the aggregate's block at point `t` is row `5000 t + p` of the aggregate. -/
theorem blk1_0 (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c (Pipeline.arrRef spec1 0) : S50000x64.Idx → EReal) k := by
  obtain ⟨e0, e1, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- Row `p` of the `d` block at point `t` is row `5000 t + p` of `d`. -/
theorem blk1_1 (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c (Pipeline.arrRef spec1 1) : S50000x1.Idx → EReal) k := by
  obtain ⟨-, -, e0, e1, -⟩ := idx1 t
  unfold iblk1
  rw [View.read_apply]
  show V c (Pipeline.arrRef spec1 1) _ = V c (Pipeline.arrRef spec1 1) _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias block is the bias row. -/
theorem blk1_2 (c : Dev nD) (t : Fin cfg1.N) (x : S1x64.Idx) :
    (iblk1 V c 2 t : Vec Ideal S1x64 .f32) x = (V c (Pipeline.arrRef spec1 2) : S1x64.Idx → EReal) x := by
  obtain ⟨-, -, -, -, e0, e1, -⟩ := idx1 t
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- The weight block is the weight. -/
theorem blk1_3 (c : Dev nD) (t : Fin cfg1.N) (x : S64x64.Idx) :
    (iblk1 V c 3 t : Vec Ideal S64x64 .f32) x = (V c (Pipeline.arrRef spec1 3) : S64x64.Idx → EReal) x := by
  obtain ⟨-, -, -, -, -, -, e0, e1, -⟩ := idx1 t
  unfold iblk1
  rw [View.read_apply]
  show V c (Pipeline.arrRef spec1 3) _ = V c (Pipeline.arrRef spec1 3) _
  congr 1
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

/-- The whole-array function the fused kernel leaves. -/
abbrev G1 (c : Dev nD) : S50000x64.Idx → EReal := fun i =>
  KSpec.fused (N := 50000) (A := 64) (B := 64) (V c (Pipeline.arrRef spec1 0)) (V c (Pipeline.arrRef spec1 1))
    (V c (Pipeline.arrRef spec1 2)) (V c (Pipeline.arrRef spec1 3)) (i 0) (i 1)

/-- The fused kernel's entry `(p, q)` reads row `p` of the aggregate, entry `p` of `d`, the bias row and column `q` of the
    weight: where those agree, the entries agree. -/
theorem fused_rows1 {N N' : ℕ} (x0 : KSpec.Arr2 N 64) (x1 : KSpec.Arr2 N 1) (x2 x2' : KSpec.Arr2 1 64) (x3 x3' : KSpec.Arr2 64 64)
    (A0 : KSpec.Arr2 N' 64) (A1 : KSpec.Arr2 N' 1) (p : Fin N) (r : Fin N') (q s : Fin 64)
    (h0 : ∀ n, x0 (ix2 p n) = A0 (ix2 r n)) (h1 : x1 (ix2 p 0) = A1 (ix2 r 0))
    (h2 : ∀ n, x2 (ix2 0 n) = x2' (ix2 0 n)) (h3 : ∀ n, x3 (ix2 n q) = x3' (ix2 n s)) :
    KSpec.fused x0 x1 x2 x3 p q = KSpec.fused A0 A1 x2' x3' r s := by
  unfold KSpec.fused KSpec.act
  rw [h1]
  simp only [h0, h2, h3]

/-- What grid point `t` writes back is block `t` of `G1`. -/
theorem flushed1 (c : Dev nD) (t : Fin cfg1.N) :
    (cfg1.win 4).cut (grid1.coords t) ((dat1 V c).after 4 t) = ((cfg1.win 4).blk t).view.read (Elt Ideal) (G1 V c) := by
  rw [after1_4]
  unfold out1_4
  rw [View.canon_unit_zero hz1]
  simp only [View.ld_unit_zero (S := S5000x64) hz1, View.ld_unit_zero (S := S5000x1) hz1,
    View.ld_unit_zero (S := S1x64) hz1, View.ld_unit_zero (S := S64x64) hz1]
  obtain ⟨-, -, -, -, -, -, -, -, e0, e1⟩ := idx1 t
  funext j
  obtain ⟨p, q, rfl⟩ : ∃ (p : Fin 5000) (q : Fin 64), j = ix2 p q := ⟨j 0, j 1, eq_ix2 j⟩
  have hp := p.isLt
  have hq := q.isLt
  show k1_pay1 (iblk1 V c 0 t) (iblk1 V c 1 t) (iblk1 V c 2 t) (iblk1 V c 3 t) (iblk1 V c 1 t) (ix2 p q)
    = G1 V c (((cfg1.win 4).blk t).view.emb (ix2 p q))
  rw [pay1]
  have hr0 : ((((cfg1.win 4).blk t).view.emb (ix2 p q)) 0).val = 5000 * t.val + p.val := by
    show win1_4.index t 0 * 5000 + 1 * p.val = _; rw [e0]; omega
  have hr1 : ((((cfg1.win 4).blk t).view.emb (ix2 p q)) 1).val = q.val := by
    show win1_4.index t 1 * 64 + 1 * q.val = _; rw [e1]; omega
  refine fused_rows1 (N := 5000) (N' := 50000) _ _ _ _ _ _ _ _ p _ q _
    (fun n => blk1_0 V c t (ix2 p n) _ hr0 rfl) (blk1_1 V c t (ix2 p 0) _ hr0 rfl)
    (fun n => blk1_2 V c t (ix2 0 n)) (fun n => ?_)
  rw [blk1_3 V c t (ix2 n q)]
  congr 1
  funext a
  apply Fin.ext
  match a with
  | ⟨0, _⟩ => rfl
  | ⟨1, _⟩ => exact hr1.symm

/-- Row `r` of the output lies in the block of point `r / 5000`. -/
theorem cover1 (i : S50000x64.Idx) :
    ∃ t : Fin cfg1.N, (cfg1.win 4).flush t = true ∧ i ∈ ((cfg1.win 4).blk t).view.set := by
  have h0 : (i 0).val < 50000 := (i 0).isLt
  have h1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := idx1 t
  refine ⟨t, flush1_4 t, ?_⟩
  show i ∈ ((View.whole main_v25).slice (win1_4.rect t)).set
  rw [View.set_slice_whole, Rect.mem_set_unit]
  intro a
  match a with
  | ⟨0, _⟩ =>
    show win1_4.index t 0 * 5000 ≤ (i 0).val ∧ (i 0).val < win1_4.index t 0 * 5000 + 5000
    rw [e0, ht]; omega
  | ⟨1, _⟩ =>
    show win1_4.index t 1 * 64 ≤ (i 1).val ∧ (i 1).val < win1_4.index t 1 * 64 + 64
    rw [e1]; omega

/-- After the fused kernel its output array is, at every entry `(n, j)`, the activated row `n` times column `j` of
    the weight, scaled by `d(n)`. -/
theorem arr1 (c : Dev nD) : (Gen.dat1 (F := Ideal) V c).arrAt 4 cfg1.N
    = fun i => KSpec.fused (N := 50000) (A := 64) (B := 64) (V c (Pipeline.arrRef spec1 0)) (V c (Pipeline.arrRef spec1 1))
        (V c (Pipeline.arrRef spec1 2)) (V c (Pipeline.arrRef spec1 3)) (i 0) (i 1) :=
  (dat1 V c).arrAt_eq_of_cover 4 (G1 V c) (fun t _ => flushed1 V c t) cover1

end Cert.KernelIdeal.KReg

end
-- ==== Proof.KReg2.lean ====
/-
  The third tiled kernel, from its row blocks to its whole output array, on the extended reals.

  The kernel walks ten row tiles of 5000 nodes. At tile `t` it takes rows `5000 t … 5000 t + 4999` of the aggregate,
  scales row `p` by `d (5000 t + p)`, adds the bias row, applies the leaky rectifier, multiplies the activated rows by
  the whole `64 × 64` weight matrix and scales row `p` of the product by `d (5000 t + p)` again. A node's output row
  depends only on the same node's input rows, so the ten blocks are the restrictions of one function of the whole
  arrays: entry `(n, j)` of the output is `(Σ k, lrelu (agg(n, k) · d(n) + b(k)) · W(k, j)) · d(n)`.
-/
import proofs.«166952_j50646254354931_2_alg».proof.Proof.Gen.KernelIdeal.Frame
import proofs.«166952_j50646254354931_2_alg».proof.Proof.KSpec
import proofs.«166952_j50646254354931_2_alg».proof.Proof.LibDenseBlock
import proofs.«166952_j50646254354931_2_alg».proof.Proof.LibColumn
import Idealize.ShloMosaic.Lib.Pipeline.Value

set_option maxRecDepth 16384

noncomputable section

open scoped BigOperators

namespace Cert.KernelIdeal.KReg

open Cert.KernelIdeal Cert.KernelIdeal.Gen Idealize.ShloMosaic Idealize.ShloMosaic.ValueIdx
open Idealize.ShloMosaic.Pipeline (Dat)
open Idealize.ShloMosaic.TcCoe Idealize.SL.Sem

/-- A `[1, b]` row broadcast to `[a, b]` reads, at `(p, q)`, the row's entry of column `q`. -/
theorem rowBroadcast2_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- Entry `(p, q)` of what the fused kernel stores: the activated row `p` times column `q` of the weight,
    scaled by `d p`. -/
theorem pay2 (x0 : Vec Ideal S5000x64 .f32) (x1 : Vec Ideal S5000x1 .f32) (x2 : Vec Ideal S1x64 .f32)
    (x3 : Vec Ideal S64x64 .f32) (p : Fin 5000) (q : Fin 64) :
    Gen.k2_pay1 (F := Ideal) x0 x1 x2 x3 x1 (ix2 p q) = KSpec.fused x0 x1 x2 x3 p q := by
  have hd : dot_S5000x64_S64x64_S5000x64_1_0_0_1_n_n
      = DenseBlock.mmDims 5000 64 64 dot_S5000x64_S64x64_S5000x64_1_0_0_1_n_n_wf := rfl
  unfold Gen.k2_pay1 KSpec.fused KSpec.act KSpec.lreluGT KSpec.zeroLit KSpec.slopeLit
  simp only [truncf, mulf, Ideal.truncf_def, Ideal.mulf_def, matmul, shapeCast_self]
  rw [hd, DenseBlock.matmul_zero_apply, Column.broadcastTo_a1_ab_apply]
  congr 1
  refine Finset.sum_congr rfl fun n _ => ?_
  simp only [truncf, select, cmpf, mulf, addf, broadcast, Ideal.truncf_def, Ideal.mulf_def, Ideal.addf_def,
    Ideal.cmpf_def, Column.broadcastTo_a1_ab_apply, rowBroadcast2_apply]

variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at grid point `t`: the tiled operands at row block `t`, the bias row and the
    weight whole. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the aggregate's block at point `t` is row `5000 t + p` of the aggregate. -/
theorem blk2_0 (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c (Pipeline.arrRef spec2 0) : S50000x64.Idx → EReal) k := by
  obtain ⟨e0, e1, -⟩ := idx2 t
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- Row `p` of the `d` block at point `t` is row `5000 t + p` of `d`. -/
theorem blk2_1 (c : Dev nD) (t : Fin cfg2.N) (x : S5000x1.Idx) (k : S50000x1.Idx)
    (hk0 : (k 0).val = 5000 * t.val + (x 0).val) (hk1 : (k 1).val = (x 1).val) :
    (iblk2 V c 1 t : Vec Ideal S5000x1 .f32) x = (V c (Pipeline.arrRef spec2 1) : S50000x1.Idx → EReal) k := by
  obtain ⟨-, -, e0, e1, -⟩ := idx2 t
  unfold iblk2
  rw [View.read_apply]
  show V c (Pipeline.arrRef spec2 1) _ = V c (Pipeline.arrRef spec2 1) _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The bias block is the bias row. -/
theorem blk2_2 (c : Dev nD) (t : Fin cfg2.N) (x : S1x64.Idx) :
    (iblk2 V c 2 t : Vec Ideal S1x64 .f32) x = (V c (Pipeline.arrRef spec2 2) : S1x64.Idx → EReal) x := by
  obtain ⟨-, -, -, -, e0, e1, -⟩ := idx2 t
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- The weight block is the weight. -/
theorem blk2_3 (c : Dev nD) (t : Fin cfg2.N) (x : S64x64.Idx) :
    (iblk2 V c 3 t : Vec Ideal S64x64 .f32) x = (V c (Pipeline.arrRef spec2 3) : S64x64.Idx → EReal) x := by
  obtain ⟨-, -, -, -, -, -, e0, e1, -⟩ := idx2 t
  unfold iblk2
  rw [View.read_apply]
  show V c (Pipeline.arrRef spec2 3) _ = V c (Pipeline.arrRef spec2 3) _
  congr 1
  funext a
  apply Fin.ext
  match a with
  | ⟨0, _⟩ => show win2_3.index t 0 * 64 + 1 * (x 0).val = (x 0).val; rw [e0]; omega
  | ⟨1, _⟩ => show win2_3.index t 1 * 64 + 1 * (x 1).val = (x 1).val; rw [e1]; omega

/-- The whole-array function the fused kernel leaves. -/
abbrev G2 (c : Dev nD) : S50000x64.Idx → EReal := fun i =>
  KSpec.fused (N := 50000) (A := 64) (B := 64) (V c (Pipeline.arrRef spec2 0)) (V c (Pipeline.arrRef spec2 1))
    (V c (Pipeline.arrRef spec2 2)) (V c (Pipeline.arrRef spec2 3)) (i 0) (i 1)

/-- The fused kernel's entry `(p, q)` reads row `p` of the aggregate, entry `p` of `d`, the bias row and column `q` of the
    weight: where those agree, the entries agree. -/
theorem fused_rows2 {N N' : ℕ} (x0 : KSpec.Arr2 N 64) (x1 : KSpec.Arr2 N 1) (x2 x2' : KSpec.Arr2 1 64) (x3 x3' : KSpec.Arr2 64 64)
    (A0 : KSpec.Arr2 N' 64) (A1 : KSpec.Arr2 N' 1) (p : Fin N) (r : Fin N') (q s : Fin 64)
    (h0 : ∀ n, x0 (ix2 p n) = A0 (ix2 r n)) (h1 : x1 (ix2 p 0) = A1 (ix2 r 0))
    (h2 : ∀ n, x2 (ix2 0 n) = x2' (ix2 0 n)) (h3 : ∀ n, x3 (ix2 n q) = x3' (ix2 n s)) :
    KSpec.fused x0 x1 x2 x3 p q = KSpec.fused A0 A1 x2' x3' r s := by
  unfold KSpec.fused KSpec.act
  rw [h1]
  simp only [h0, h2, h3]

/-- What grid point `t` writes back is block `t` of `G2`. -/
theorem flushed2 (c : Dev nD) (t : Fin cfg2.N) :
    (cfg2.win 4).cut (grid2.coords t) ((dat2 V c).after 4 t) = ((cfg2.win 4).blk t).view.read (Elt Ideal) (G2 V c) := by
  rw [after2_4]
  unfold out2_4
  rw [View.canon_unit_zero hz2]
  simp only [View.ld_unit_zero (S := S5000x64) hz2, View.ld_unit_zero (S := S5000x1) hz2,
    View.ld_unit_zero (S := S1x64) hz2, View.ld_unit_zero (S := S64x64) hz2]
  obtain ⟨-, -, -, -, -, -, -, -, e0, e1⟩ := idx2 t
  funext j
  obtain ⟨p, q, rfl⟩ : ∃ (p : Fin 5000) (q : Fin 64), j = ix2 p q := ⟨j 0, j 1, eq_ix2 j⟩
  have hp := p.isLt
  have hq := q.isLt
  show k2_pay1 (iblk2 V c 0 t) (iblk2 V c 1 t) (iblk2 V c 2 t) (iblk2 V c 3 t) (iblk2 V c 1 t) (ix2 p q)
    = G2 V c (((cfg2.win 4).blk t).view.emb (ix2 p q))
  rw [pay2]
  have hr0 : ((((cfg2.win 4).blk t).view.emb (ix2 p q)) 0).val = 5000 * t.val + p.val := by
    show win2_4.index t 0 * 5000 + 1 * p.val = _; rw [e0]; omega
  have hr1 : ((((cfg2.win 4).blk t).view.emb (ix2 p q)) 1).val = q.val := by
    show win2_4.index t 1 * 64 + 1 * q.val = _; rw [e1]; omega
  refine fused_rows2 (N := 5000) (N' := 50000) _ _ _ _ _ _ _ _ p _ q _
    (fun n => blk2_0 V c t (ix2 p n) _ hr0 rfl) (blk2_1 V c t (ix2 p 0) _ hr0 rfl)
    (fun n => blk2_2 V c t (ix2 0 n)) (fun n => ?_)
  rw [blk2_3 V c t (ix2 n q)]
  congr 1
  funext a
  apply Fin.ext
  match a with
  | ⟨0, _⟩ => rfl
  | ⟨1, _⟩ => exact hr1.symm

/-- Row `r` of the output lies in the block of point `r / 5000`. -/
theorem cover2 (i : S50000x64.Idx) :
    ∃ t : Fin cfg2.N, (cfg2.win 4).flush t = true ∧ i ∈ ((cfg2.win 4).blk t).view.set := by
  have h0 : (i 0).val < 50000 := (i 0).isLt
  have h1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := idx2 t
  refine ⟨t, flush2_4 t, ?_⟩
  show i ∈ ((View.whole main_v38).slice (win2_4.rect t)).set
  rw [View.set_slice_whole, Rect.mem_set_unit]
  intro a
  match a with
  | ⟨0, _⟩ =>
    show win2_4.index t 0 * 5000 ≤ (i 0).val ∧ (i 0).val < win2_4.index t 0 * 5000 + 5000
    rw [e0, ht]; omega
  | ⟨1, _⟩ =>
    show win2_4.index t 1 * 64 ≤ (i 1).val ∧ (i 1).val < win2_4.index t 1 * 64 + 64
    rw [e1]; omega

/-- After the fused kernel its output array is, at every entry `(n, j)`, the activated row `n` times column `j` of
    the weight, scaled by `d(n)`. -/
theorem arr2 (c : Dev nD) : (Gen.dat2 (F := Ideal) V c).arrAt 4 cfg2.N
    = fun i => KSpec.fused (N := 50000) (A := 64) (B := 64) (V c (Pipeline.arrRef spec2 0)) (V c (Pipeline.arrRef spec2 1))
        (V c (Pipeline.arrRef spec2 2)) (V c (Pipeline.arrRef spec2 3)) (i 0) (i 1) :=
  (dat2 V c).arrAt_eq_of_cover 4 (G2 V c) (fun t _ => flushed2 V c t) cover2

end Cert.KernelIdeal.KReg

end
-- ==== Proof.KReg3.lean ====
/-
  The fourth tiled kernel, from its row blocks to its whole output array, on the extended reals.

  The kernel walks ten row tiles of 5000 nodes. At tile `t` it takes rows `5000 t … 5000 t + 4999` of the aggregate,
  scales row `p` by `d (5000 t + p)`, adds the bias row, applies the leaky rectifier, multiplies the activated rows by
  the whole `64 × 32` weight matrix and scales row `p` of the product by `d (5000 t + p)` again. A node's output row
  depends only on the same node's input rows, so the ten blocks are the restrictions of one function of the whole
  arrays: entry `(n, j)` of the output is `(Σ k, lrelu (agg(n, k) · d(n) + b(k)) · W(k, j)) · d(n)`.
-/
import proofs.«166952_j50646254354931_2_alg».proof.Proof.Gen.KernelIdeal.Frame
import proofs.«166952_j50646254354931_2_alg».proof.Proof.KSpec
import proofs.«166952_j50646254354931_2_alg».proof.Proof.LibDenseBlock
import proofs.«166952_j50646254354931_2_alg».proof.Proof.LibColumn
import Idealize.ShloMosaic.Lib.Pipeline.Value

set_option maxRecDepth 16384

noncomputable section

open scoped BigOperators

namespace Cert.KernelIdeal.KReg

open Cert.KernelIdeal Cert.KernelIdeal.Gen Idealize.ShloMosaic Idealize.ShloMosaic.ValueIdx
open Idealize.ShloMosaic.Pipeline (Dat)
open Idealize.ShloMosaic.TcCoe Idealize.SL.Sem

/-- A `[1, b]` row broadcast to `[a, b]` reads, at `(p, q)`, the row's entry of column `q`. -/
theorem rowBroadcast3_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- Entry `(p, q)` of what the fused kernel stores: the activated row `p` times column `q` of the weight,
    scaled by `d p`. -/
theorem pay3 (x0 : Vec Ideal S5000x64 .f32) (x1 : Vec Ideal S5000x1 .f32) (x2 : Vec Ideal S1x64 .f32)
    (x3 : Vec Ideal S64x32 .f32) (p : Fin 5000) (q : Fin 32) :
    Gen.k3_pay1 (F := Ideal) x0 x1 x2 x3 x1 (ix2 p q) = KSpec.fused x0 x1 x2 x3 p q := by
  have hd : dot_S5000x64_S64x32_S5000x32_1_0_0_1_n_n
      = DenseBlock.mmDims 5000 64 32 dot_S5000x64_S64x32_S5000x32_1_0_0_1_n_n_wf := rfl
  unfold Gen.k3_pay1 KSpec.fused KSpec.act KSpec.lreluGT KSpec.zeroLit KSpec.slopeLit
  simp only [truncf, mulf, Ideal.truncf_def, Ideal.mulf_def, matmul, shapeCast_self]
  rw [hd, DenseBlock.matmul_zero_apply, Column.broadcastTo_a1_ab_apply]
  congr 1
  refine Finset.sum_congr rfl fun n _ => ?_
  simp only [truncf, select, cmpf, mulf, addf, broadcast, Ideal.truncf_def, Ideal.mulf_def, Ideal.addf_def,
    Ideal.cmpf_def, Column.broadcastTo_a1_ab_apply, rowBroadcast3_apply]

variable (V : (c : Dev nD) → (b : Ref sig .tc) → Buf (Elt Ideal) ((c : Thread nD τ).loc b))

theorem hz3 : (![0, 0] : Fin 2 → Nat) = fun _ => 0 := funext fun a => by fin_cases a <;> rfl

/-- Where each window's block sits at grid point `t`: the tiled operands at row block `t`, the bias row and the
    weight whole. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of the aggregate's block at point `t` is row `5000 t + p` of the aggregate. -/
theorem blk3_0 (c : Dev nD) (t : Fin cfg3.N) (x : S5000x64.Idx) (k : S50000x64.Idx)
    (hk0 : (k 0).val = 5000 * t.val + (x 0).val) (hk1 : (k 1).val = (x 1).val) :
    (iblk3 V c 0 t : Vec Ideal S5000x64 .f32) x = (V c (Pipeline.arrRef spec3 0) : S50000x64.Idx → EReal) k := by
  obtain ⟨e0, e1, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- Row `p` of the `d` block at point `t` is row `5000 t + p` of `d`. -/
theorem blk3_1 (c : Dev nD) (t : Fin cfg3.N) (x : S5000x1.Idx) (k : S50000x1.Idx)
    (hk0 : (k 0).val = 5000 * t.val + (x 0).val) (hk1 : (k 1).val = (x 1).val) :
    (iblk3 V c 1 t : Vec Ideal S5000x1 .f32) x = (V c (Pipeline.arrRef spec3 1) : S50000x1.Idx → EReal) k := by
  obtain ⟨-, -, e0, e1, -⟩ := idx3 t
  unfold iblk3
  rw [View.read_apply]
  show V c (Pipeline.arrRef spec3 1) _ = V c (Pipeline.arrRef spec3 1) _
  congr 1
  funext a
  apply Fin.ext
  match a with
  | ⟨0, _⟩ => show win3_1.index t 0 * 5000 + 1 * (x 0).val = (k 0).val; rw [e0, hk0]; omega
  | ⟨1, _⟩ => show win3_1.index t 1 * 1 + 1 * (x 1).val = (k 1).val; rw [e1, hk1]; omega

/-- The bias block is the bias row. -/
theorem blk3_2 (c : Dev nD) (t : Fin cfg3.N) (x : S1x64.Idx) :
    (iblk3 V c 2 t : Vec Ideal S1x64 .f32) x = (V c (Pipeline.arrRef spec3 2) : S1x64.Idx → EReal) x := by
  obtain ⟨-, -, -, -, e0, e1, -⟩ := idx3 t
  unfold iblk3
  rw [View.read_apply]
  show V c (Pipeline.arrRef spec3 2) _ = V c (Pipeline.arrRef spec3 2) _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The weight block is the weight. -/
theorem blk3_3 (c : Dev nD) (t : Fin cfg3.N) (x : S64x32.Idx) :
    (iblk3 V c 3 t : Vec Ideal S64x32 .f32) x = (V c (Pipeline.arrRef spec3 3) : S64x32.Idx → EReal) x := by
  obtain ⟨-, -, -, -, -, -, e0, e1, -⟩ := idx3 t
  unfold iblk3
  rw [View.read_apply]
  show V c (Pipeline.arrRef spec3 3) _ = V c (Pipeline.arrRef spec3 3) _
  congr 1
  funext a
  apply Fin.ext
  match a with
  | ⟨0, _⟩ => show win3_3.index t 0 * 64 + 1 * (x 0).val = (x 0).val; rw [e0]; omega
  | ⟨1, _⟩ => show win3_3.index t 1 * 32 + 1 * (x 1).val = (x 1).val; rw [e1]; omega

/-- The whole-array function the fused kernel leaves. -/
abbrev G3 (c : Dev nD) : S50000x32.Idx → EReal := fun i =>
  KSpec.fused (N := 50000) (A := 64) (B := 32) (V c (Pipeline.arrRef spec3 0)) (V c (Pipeline.arrRef spec3 1))
    (V c (Pipeline.arrRef spec3 2)) (V c (Pipeline.arrRef spec3 3)) (i 0) (i 1)

/-- The fused kernel's entry `(p, q)` reads row `p` of the aggregate, entry `p` of `d`, the bias row and column `q` of the
    weight: where those agree, the entries agree. -/
theorem fused_rows3 {N N' : ℕ} (x0 : KSpec.Arr2 N 64) (x1 : KSpec.Arr2 N 1) (x2 x2' : KSpec.Arr2 1 64) (x3 x3' : KSpec.Arr2 64 32)
    (A0 : KSpec.Arr2 N' 64) (A1 : KSpec.Arr2 N' 1) (p : Fin N) (r : Fin N') (q s : Fin 32)
    (h0 : ∀ n, x0 (ix2 p n) = A0 (ix2 r n)) (h1 : x1 (ix2 p 0) = A1 (ix2 r 0))
    (h2 : ∀ n, x2 (ix2 0 n) = x2' (ix2 0 n)) (h3 : ∀ n, x3 (ix2 n q) = x3' (ix2 n s)) :
    KSpec.fused x0 x1 x2 x3 p q = KSpec.fused A0 A1 x2' x3' r s := by
  unfold KSpec.fused KSpec.act
  rw [h1]
  simp only [h0, h2, h3]

/-- What grid point `t` writes back is block `t` of `G3`. -/
theorem flushed3 (c : Dev nD) (t : Fin cfg3.N) :
    (cfg3.win 4).cut (grid3.coords t) ((dat3 V c).after 4 t) = ((cfg3.win 4).blk t).view.read (Elt Ideal) (G3 V c) := by
  rw [after3_4]
  unfold out3_4
  rw [View.canon_unit_zero hz3]
  simp only [View.ld_unit_zero (S := S5000x64) hz3, View.ld_unit_zero (S := S5000x1) hz3,
    View.ld_unit_zero (S := S1x64) hz3, View.ld_unit_zero (S := S64x32) hz3]
  obtain ⟨-, -, -, -, -, -, -, -, e0, e1⟩ := idx3 t
  funext j
  obtain ⟨p, q, rfl⟩ : ∃ (p : Fin 5000) (q : Fin 32), j = ix2 p q := ⟨j 0, j 1, eq_ix2 j⟩
  have hp := p.isLt
  have hq := q.isLt
  show k3_pay1 (iblk3 V c 0 t) (iblk3 V c 1 t) (iblk3 V c 2 t) (iblk3 V c 3 t) (iblk3 V c 1 t) (ix2 p q)
    = G3 V c (((cfg3.win 4).blk t).view.emb (ix2 p q))
  rw [pay3]
  have hr0 : ((((cfg3.win 4).blk t).view.emb (ix2 p q)) 0).val = 5000 * t.val + p.val := by
    show win3_4.index t 0 * 5000 + 1 * p.val = _; rw [e0]; omega
  have hr1 : ((((cfg3.win 4).blk t).view.emb (ix2 p q)) 1).val = q.val := by
    show win3_4.index t 1 * 32 + 1 * q.val = _; rw [e1]; omega
  refine fused_rows3 (N := 5000) (N' := 50000) _ _ _ _ _ _ _ _ p _ q _
    (fun n => blk3_0 V c t (ix2 p n) _ hr0 rfl) (blk3_1 V c t (ix2 p 0) _ hr0 rfl)
    (fun n => blk3_2 V c t (ix2 0 n)) (fun n => ?_)
  rw [blk3_3 V c t (ix2 n q)]
  congr 1
  funext a
  apply Fin.ext
  match a with
  | ⟨0, _⟩ => rfl
  | ⟨1, _⟩ => exact hr1.symm

/-- Row `r` of the output lies in the block of point `r / 5000`. -/
theorem cover3 (i : S50000x32.Idx) :
    ∃ t : Fin cfg3.N, (cfg3.win 4).flush t = true ∧ i ∈ ((cfg3.win 4).blk t).view.set := by
  have h0 : (i 0).val < 50000 := (i 0).isLt
  have h1 : (i 1).val < 32 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, e0, e1⟩ := idx3 t
  refine ⟨t, flush3_4 t, ?_⟩
  show i ∈ ((View.whole main_v51).slice (win3_4.rect t)).set
  rw [View.set_slice_whole, Rect.mem_set_unit]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 32 ≤ (i 1).val ∧ (i 1).val < win3_4.index t 1 * 32 + 32
    rw [e1]; omega

/-- After the fused kernel its output array is, at every entry `(n, j)`, the activated row `n` times column `j` of
    the weight, scaled by `d(n)`. -/
theorem arr3 (c : Dev nD) : (Gen.dat3 (F := Ideal) V c).arrAt 4 cfg3.N
    = fun i => KSpec.fused (N := 50000) (A := 64) (B := 32) (V c (Pipeline.arrRef spec3 0)) (V c (Pipeline.arrRef spec3 1))
        (V c (Pipeline.arrRef spec3 2)) (V c (Pipeline.arrRef spec3 3)) (i 0) (i 1) :=
  (dat3 V c).arrAt_eq_of_cover 4 (G3 V c) (fun t _ => flushed3 V c t) cover3

end Cert.KernelIdeal.KReg

end
-- ==== Proof.KRegB4.lean ====
/-
  The bias-and-activation kernel's output array, entry by entry.

  The kernel runs over ten row tiles of 5000 rows.  On a tile it multiplies each aggregated entry by the row's
  inverse-square-root degree, adds the bias of the column and applies the leaky rectifier.  A row of the result
  depends only on the same row of the inputs, so the ten tiles together are one function of the whole arrays.
-/
import proofs.«166952_j50646254354931_2_alg».proof.Proof.Gen.KernelIdeal.Frame
import proofs.«166952_j50646254354931_2_alg».proof.Proof.KSpec
import proofs.«166952_j50646254354931_2_alg».proof.Proof.LibColumn
import Idealize.ShloMosaic.Lib.ValueLayout
import Idealize.ShloMosaic.Lib.Pipeline.Value

set_option maxRecDepth 16384

noncomputable section

namespace Cert.KernelIdeal.KReg

open Cert.KernelIdeal Cert.KernelIdeal.Gen Idealize.ShloMosaic Idealize.ShloMosaic.ValueIdx
open Idealize.ShloMosaic.TcCoe Idealize.SL.Sem
open Idealize.ShloMosaic.Pipeline (Dat)

/-- Entry `(p, q)` of what the body stores from a tile: the rectified, biased, scaled entry of the tile. -/
theorem pay4 (x0 : Vec Ideal S5000x32 .f32) (x1 : Vec Ideal S5000x1 .f32) (x2 : Vec Ideal S1x32 .f32)
    (p : Fin 5000) (q : Fin 32) :
    Gen.k4_pay1 x0 x1 x2 (ix2 p q) = KSpec.act x0 x1 x2 p q := by
  have e1 : broadcastTo S5000x32 (x1 : FVec Ideal S5000x1 .f32) broadcasts_S5000x1_S5000x32 (ix2 p q)
      = x1 (ix2 p (0 : Fin 1)) := Column.broadcastTo_a1_ab_apply x1 broadcasts_S5000x1_S5000x32 p q
  have e2 : broadcastTo S5000x32 (x2 : FVec Ideal S1x32 .f32) broadcasts_S1x32_S5000x32 (ix2 p q)
      = x2 (ix2 (0 : Fin 1) q) := broadcastTo_1b_ab_apply x2 broadcasts_S1x32_S5000x32 p q
  unfold Gen.k4_pay1
  simp only [shapeCast_self, select, cmpf, addf, mulf, broadcast, e1, e2]
  rfl

section
variable (V : (c : Dev nD) → (b : Ref sig .tc) → Buf (Elt Ideal) ((c : Thread nD τ).loc b))

theorem zeroOffsets : (![0, 0] : Fin 2 → Nat) = fun _ => 0 := funext fun a => by fin_cases a <;> rfl

/-- The block index maps over the grid: the three row-tiled windows take the tile `t` of rows and all the columns;
    the bias window always takes the whole row. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The activation of a tile entry is the activation of the array entry it was read from, when the three operands
    agree at the entries it reads. -/
theorem act_congr {N A N' : Nat} (A0 : KSpec.Arr2 N A) (A1 : KSpec.Arr2 N 1) (A2 : KSpec.Arr2 1 A)
    (x0 : KSpec.Arr2 N' A) (x1 : KSpec.Arr2 N' 1) (x2 : KSpec.Arr2 1 A)
    (p : Fin N') (q : Fin A) (n : Fin N) (k : Fin A)
    (h0 : x0 (ix2 p q) = A0 (ix2 n k)) (h1 : x1 (ix2 p (0 : Fin 1)) = A1 (ix2 n (0 : Fin 1)))
    (h2 : x2 (ix2 (0 : Fin 1) q) = A2 (ix2 (0 : Fin 1) k)) :
    KSpec.act x0 x1 x2 p q = KSpec.act A0 A1 A2 n k := by
  unfold KSpec.act; rw [h0, h1, h2]

/-- Entry `(p, q)` of tile `t` of the aggregated array is its entry `(5000 t + p, q)`. -/
theorem read4_0 (c : Dev nD) (t : Fin cfg4.N) (p : Fin 5000) (q : Fin 32) (n : Fin 50000) (k : Fin 32)
    (hn : n.val = t.val * 5000 + p.val) (hk : k.val = q.val) :
    (iblk4 V c 0 t : Vec Ideal S5000x32 .f32) (ix2 p q)
      = (V c (Pipeline.arrRef spec4 0) : KSpec.Arr2 50000 32) (ix2 n k) := by
  obtain ⟨e0, e1, -⟩ := idx4 t
  show V c (Pipeline.arrRef spec4 0) (((cfg4.win 0).blk t).view.emb (ix2 p q)) = _
  refine congrArg (V c (Pipeline.arrRef spec4 0)) (funext fun a => Fin.ext ?_)
  match a with
  | ⟨0, _⟩ => show win4_0.index t (0 : Fin 2) * 5000 + 1 * p.val = n.val; omega
  | ⟨1, _⟩ => show win4_0.index t (1 : Fin 2) * 32 + 1 * q.val = k.val; omega

/-- Entry `p` of tile `t` of the degree column is its entry `5000 t + p`. -/
theorem read4_1 (c : Dev nD) (t : Fin cfg4.N) (p : Fin 5000) (n : Fin 50000)
    (hn : n.val = t.val * 5000 + p.val) :
    (iblk4 V c 1 t : Vec Ideal S5000x1 .f32) (ix2 p (0 : Fin 1))
      = (V c (Pipeline.arrRef spec4 1) : KSpec.Arr2 50000 1) (ix2 n (0 : Fin 1)) := by
  obtain ⟨-, -, e2, e3, -⟩ := idx4 t
  show V c (Pipeline.arrRef spec4 1) (((cfg4.win 1).blk t).view.emb (ix2 p (0 : Fin 1))) = _
  refine congrArg (V c (Pipeline.arrRef spec4 1)) (funext fun a => Fin.ext ?_)
  match a with
  | ⟨0, _⟩ => show win4_1.index t (0 : Fin 2) * 5000 + 1 * p.val = n.val; omega
  | ⟨1, _⟩ => show win4_1.index t (1 : Fin 2) * 1 + 1 * 0 = 0; omega

/-- Every tile reads the whole bias row. -/
theorem read4_2 (c : Dev nD) (t : Fin cfg4.N) (q : Fin 32) (k : Fin 32) (hk : k.val = q.val) :
    (iblk4 V c 2 t : Vec Ideal S1x32 .f32) (ix2 (0 : Fin 1) q)
      = (V c (Pipeline.arrRef spec4 2) : KSpec.Arr2 1 32) (ix2 (0 : Fin 1) k) := by
  obtain ⟨-, -, -, -, e4, e5, -⟩ := idx4 t
  show V c (Pipeline.arrRef spec4 2) (((cfg4.win 2).blk t).view.emb (ix2 (0 : Fin 1) q)) = _
  refine congrArg (V c (Pipeline.arrRef spec4 2)) (funext fun a => Fin.ext ?_)
  match a with
  | ⟨0, _⟩ => show win4_2.index t (0 : Fin 2) * 1 + 1 * 0 = 0; omega
  | ⟨1, _⟩ => show win4_2.index t (1 : Fin 2) * 32 + 1 * q.val = k.val; omega

/-- What grid point `t` writes back is block `t` of the activation of the whole arrays. -/
theorem flushed4 (c : Dev nD) (t : Fin cfg4.N) :
    (cfg4.win 3).cut (grid4.coords t) ((dat4 (F := Ideal) V c).after 3 t)
      = ((cfg4.win 3).blk t).view.read (Elt Ideal) (fun i => KSpec.act (V c (Pipeline.arrRef spec4 0))
          (V c (Pipeline.arrRef spec4 1)) (V c (Pipeline.arrRef spec4 2)) (i 0) (i 1)) := by
  rw [Gen.after4_3]
  unfold Gen.out4_3
  rw [View.canon_unit_zero zeroOffsets]
  simp only [View.ld_unit_zero (S := S5000x32) zeroOffsets, View.ld_unit_zero (S := S5000x1) zeroOffsets,
    View.ld_unit_zero (S := S1x32) zeroOffsets]
  obtain ⟨-, -, -, -, -, -, e6, e7⟩ := idx4 t
  funext j
  obtain ⟨p, q, rfl⟩ : ∃ (p : Fin 5000) (q : Fin 32), j = ix2 p q := ⟨j 0, j 1, eq_ix2 j⟩
  show Gen.k4_pay1 (iblk4 V c 0 t) (iblk4 V c 1 t) (iblk4 V c 2 t) (ix2 p q) = _
  refine (pay4 (iblk4 V c 0 t) (iblk4 V c 1 t) (iblk4 V c 2 t) p q).trans ?_
  rw [View.read_apply]
  have hn : ((((cfg4.win 3).blk t).view.emb (ix2 p q)) 0).val = t.val * 5000 + p.val := by
    show win4_3.index t (0 : Fin 2) * 5000 + 1 * p.val = _; omega
  have hk : ((((cfg4.win 3).blk t).view.emb (ix2 p q)) 1).val = q.val := by
    show win4_3.index t (1 : Fin 2) * 32 + 1 * q.val = _; omega
  exact act_congr (V c (Pipeline.arrRef spec4 0)) (V c (Pipeline.arrRef spec4 1)) (V c (Pipeline.arrRef spec4 2))
    (iblk4 V c 0 t) (iblk4 V c 1 t) (iblk4 V c 2 t) p q _ _
    (read4_0 V c t p q _ _ hn hk) (read4_1 V c t p _ hn) (read4_2 V c t q _ hk)

/-- An index of the array is in point `t`'s block iff each coordinate is in the block's range on its axis. -/
theorem mem_blk4 (t : Fin cfg4.N) (i : S50000x32.Idx) :
    i ∈ ((cfg4.win 3).blk t).view.set ↔ ∀ a : Fin 2, win4_3.index t a * S5000x32.size a ≤ (i a).val
      ∧ (i a).val < win4_3.index t a * S5000x32.size a + S5000x32.size a := by
  show i ∈ ((View.whole main_v64).slice (win4_3.rect t)).set ↔ _
  rw [View.set_slice_whole, Rect.mem_set_unit]
  exact Iff.rfl

/-- Row `r` of the array lies in the tile `r / 5000`, which is written back. -/
theorem cover4 (i : S50000x32.Idx) :
    ∃ t : Fin cfg4.N, (cfg4.win 3).flush t = true ∧ i ∈ ((cfg4.win 3).blk t).view.set := by
  have hi0 : (i 0).val < 50000 := (i 0).isLt
  have hi1 : (i 1).val < 32 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, e6, e7⟩ := idx4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 32 ≤ (i 1).val ∧ (i 1).val < win4_3.index t (1 : Fin 2) * 32 + 32
    omega

/-- THE ARRAY after the kernel: entry `(n, k)` is the rectified, biased, scaled entry `(n, k)` of the aggregated
    array. -/
theorem arr4 (c : Dev nD) :
    (dat4 (F := Ideal) V c).arrAt 3 cfg4.N = fun i => KSpec.act (V c (Pipeline.arrRef spec4 0))
      (V c (Pipeline.arrRef spec4 1)) (V c (Pipeline.arrRef spec4 2)) (i 0) (i 1) :=
  (dat4 (F := Ideal) V c).arrAt_eq_of_cover 3 _ (fun t _ => flushed4 V c t) cover4

end

end Cert.KernelIdeal.KReg

end
-- ==== Proof.KRegB5.lean ====
/-
  The last kernel's two output arrays, entry by entry.

  The kernel runs over ten row tiles of 5000 rows.  On a tile it takes the softmax of every row (the exponentials of
  the row shifted by its maximum, over their sum), divides the softmax row by its own maximum, and stores that; it
  then multiplies the stored rows by the last weight matrix and adds the last bias.  A row of either result depends
  only on the same row of the input, so the ten tiles together are one function of the whole arrays.
-/
import proofs.«166952_j50646254354931_2_alg».proof.Proof.Gen.KernelIdeal.Frame
import proofs.«166952_j50646254354931_2_alg».proof.Proof.KSpec
import proofs.«166952_j50646254354931_2_alg».proof.Proof.LibColumn
import proofs.«166952_j50646254354931_2_alg».proof.Proof.LibDenseBlock
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg

open Cert.KernelIdeal Cert.KernelIdeal.Gen Idealize.ShloMosaic Idealize.ShloMosaic.ValueIdx
open Idealize.ShloMosaic.TcCoe Idealize.SL.Sem
open Idealize.ShloMosaic.Pipeline (Dat)

/-- The index the row reduction reads: row `p`, lane `k`. -/
theorem lift5 (p : Fin 5000) (k : Fin 32) : reduces_S5000x32_S5000.lift (ix1 p) k = ix2 p k :=
  funext fun a => Fin.ext (by
    match a with
    | ⟨0, _⟩ => rfl
    | ⟨1, _⟩ => rfl)

/-- The lane maximum of row `p` of a tile is the maximum of the row's 32 entries, folded from `-inf`. -/
theorem rowMax5 (src : FVec Ideal S5000x32 .f32) (p : Fin 5000) (hφ : FTy.f32 = FTy.f32 ∨ FTy.f32 = FTy.bf16)
    (hacc : @Eq (BitVec FTy.f32.bits) 0xFF800000#32 0xFF800000#32) :
    multiReduction (F := Ideal) .maximumf [1] S5000 src 0xFF800000#32 reduces_S5000x32_S5000 hφ hacc (ix1 p)
      = KSpec.rowMax fun k : Fin 32 => src (ix2 p k) := by
  refine (Ideal.multiReduction_maximumf_single src 0xFF800000#32 reduces_S5000x32_S5000 hφ hacc (ix1 p)).trans ?_
  have e : src ∘ reduces_S5000x32_S5000.lift (ix1 p) = fun k : Fin 32 => src (ix2 p k) :=
    funext fun k => congrArg src (lift5 p k)
  rw [e]
  rfl

/-- The lane sum of row `p` of a tile is the sum of the row's 32 entries. -/
theorem rowSum5 (src : FVec Ideal S5000x32 .f32) (p : Fin 5000) (hφ : FTy.f32 = FTy.f32 ∨ FTy.f32 = FTy.bf16)
    (hacc : @Eq (BitVec FTy.f32.bits) 0x00000000#32 0x00000000#32) :
    multiReduction (F := Ideal) .add [1] S5000 src 0x00000000#32 reduces_S5000x32_S5000 hφ hacc (ix1 p)
      = ∑ k : Fin 32, src (ix2 p k) := by
  refine (Ideal.multiReduction_add_single src 0x00000000#32 reduces_S5000x32_S5000 hφ hacc (ix1 p)).trans ?_
  exact Finset.sum_congr rfl fun k _ => congrArg src (lift5 p k)

/-- A per-row value kept as a column and broadcast back over the row: every entry of row `p` reads the value of row `p`. -/
theorem keep5 (r : FVec Ideal S5000 .f32) (p : Fin 5000) (q : Fin 32) :
    broadcastTo S5000x32 (shapeCast S5000x1 r shapeCasts_S5000_S5000x1) broadcasts_S5000x1_S5000x32 (ix2 p q)
      = r (ix1 p) := by
  rw [Column.broadcastTo_a1_ab_apply _ broadcasts_S5000x1_S5000x32 p q,
    Column.shapeCast_a_a1_apply r shapeCasts_S5000_S5000x1 p (0 : Fin 1)]

/-- A pointwise quotient read at an index. -/
theorem divf_at5 (x y : FVec Ideal S5000x32 .f32) (i : S5000x32.Idx) : divf x y i = Ideal.div (x i) (y i) := rfl

section Tile
variable (hφ : FTy.f32 = FTy.f32 ∨ FTy.f32 = FTy.bf16)
  (h1 : @Eq (BitVec FTy.f32.bits) 0xFF800000#32 0xFF800000#32)
  (h0 : @Eq (BitVec FTy.f32.bits) 0x00000000#32 0x00000000#32)

/-- The rows' maxima of a tile, broadcast back over the rows. -/
def maxBack5 (u : FVec Ideal S5000x32 .f32) : FVec Ideal S5000x32 .f32 :=
  broadcastTo S5000x32
    (shapeCast S5000x1 (multiReduction (F := Ideal) .maximumf [1] S5000 u 0xFF800000#32 reduces_S5000x32_S5000 hφ h1)
      shapeCasts_S5000_S5000x1) broadcasts_S5000x1_S5000x32

/-- The rows' sums of a tile, broadcast back over the rows. -/
def sumBack5 (u : FVec Ideal S5000x32 .f32) : FVec Ideal S5000x32 .f32 :=
  broadcastTo S5000x32
    (shapeCast S5000x1 (multiReduction (F := Ideal) .add [1] S5000 u 0x00000000#32 reduces_S5000x32_S5000 hφ h0)
      shapeCasts_S5000_S5000x1) broadcasts_S5000x1_S5000x32

/-- The exponentials of a tile's rows, each row shifted by its maximum. -/
def expShift5 (x0 : FVec Ideal S5000x32 .f32) : FVec Ideal S5000x32 .f32 :=
  exp (subf x0 (maxBack5 hφ h1 x0))

/-- The softmax of a tile's rows. -/
def smaxTile5 (x0 : FVec Ideal S5000x32 .f32) : FVec Ideal S5000x32 .f32 :=
  divf (expShift5 hφ h1 x0) (sumBack5 hφ h0 (expShift5 hφ h1 x0))

/-- The softmax rows, each divided by its own maximum. -/
def conceptsTile5 (x0 : FVec Ideal S5000x32 .f32) : FVec Ideal S5000x32 .f32 :=
  divf (smaxTile5 hφ h1 h0 x0) (maxBack5 hφ h1 (smaxTile5 hφ h1 h0 x0))

theorem maxBack5_at (u : FVec Ideal S5000x32 .f32) (p : Fin 5000) (q : Fin 32) :
    maxBack5 hφ h1 u (ix2 p q) = KSpec.rowMax fun k : Fin 32 => u (ix2 p k) :=
  (keep5 _ p q).trans (rowMax5 u p hφ h1)

theorem sumBack5_at (u : FVec Ideal S5000x32 .f32) (p : Fin 5000) (q : Fin 32) :
    sumBack5 hφ h0 u (ix2 p q) = ∑ k : Fin 32, u (ix2 p k) :=
  (keep5 _ p q).trans (rowSum5 u p hφ h0)

theorem expShift5_at (x0 : FVec Ideal S5000x32 .f32) (p : Fin 5000) (k : Fin 32) :
    expShift5 hφ h1 x0 (ix2 p k) = Ideal.exp (x0 (ix2 p k) - KSpec.rowMax fun k' : Fin 32 => x0 (ix2 p k')) :=
  congrArg (fun m => Ideal.exp (x0 (ix2 p k) - m)) (maxBack5_at hφ h1 x0 p k)

theorem smaxTile5_at (x0 : FVec Ideal S5000x32 .f32) (p : Fin 5000) (k : Fin 32) :
    smaxTile5 hφ h1 h0 x0 (ix2 p k) = KSpec.smax x0 p k := by
  show Ideal.div (expShift5 hφ h1 x0 (ix2 p k)) (sumBack5 hφ h0 (expShift5 hφ h1 x0) (ix2 p k)) = _
  rw [sumBack5_at hφ h0 (expShift5 hφ h1 x0) p k, expShift5_at hφ h1 x0 p k]
  exact congrArg (Ideal.div _) (Finset.sum_congr rfl fun k' _ => expShift5_at hφ h1 x0 p k')

theorem conceptsTile5_at (x0 : FVec Ideal S5000x32 .f32) (p : Fin 5000) (q : Fin 32) :
    conceptsTile5 hφ h1 h0 x0 (ix2 p q) = KSpec.concepts x0 p q := by
  unfold conceptsTile5
  rw [divf_at5, maxBack5_at hφ h1 (smaxTile5 hφ h1 h0 x0) p q, smaxTile5_at hφ h1 h0 x0 p q]
  exact congrArg (Ideal.div _) (congrArg KSpec.rowMax (funext fun k => smaxTile5_at hφ h1 h0 x0 p k))

end Tile

/-- Entry `(p, q)` of the first stored tile: the softmax of row `p` at `q`, over the maximum of that softmax row. -/
theorem pay5c (x0 : Vec Ideal S5000x32 .f32) (p : Fin 5000) (q : Fin 32) :
    Gen.k5_pay1 x0 (ix2 p q) = KSpec.concepts x0 p q := by
  unfold Gen.k5_pay1
  simp only [shapeCast_self]
  exact conceptsTile5_at _ _ _ x0 p q

section
variable (V : (c : Dev nD) → (b : Ref sig .tc) → Buf (Elt Ideal) ((c : Thread nD τ).loc b))

theorem zeroOffsets5 : (![0, 0] : Fin 2 → Nat) = fun _ => 0 := funext fun a => by fin_cases a <;> rfl

/-- The block index maps over the grid: the input and the first output take the tile `t` of rows and all the columns. -/
theorem idx5 : ∀ t : Fin cfg5.N,
    win5_0.index t (0 : Fin 2) = t.val ∧ win5_0.index t (1 : Fin 2) = 0
    ∧ win5_3.index t (0 : Fin 2) = t.val ∧ win5_3.index t (1 : Fin 2) = 0 :=
  (by decide +kernel : ∀ t : Fin grid5.N, _)

/-- The normalized softmax of a row depends only on the row: two matrices that agree on a row give the same value. -/
theorem concepts_congr5 {N N' C : Nat} (A0 : KSpec.Arr2 N C) (x0 : KSpec.Arr2 N' C) (p : Fin N') (q : Fin C)
    (n : Fin N) (k : Fin C) (h : ∀ j : Fin C, x0 (ix2 p j) = A0 (ix2 n j)) (hk : k = q) :
    KSpec.concepts x0 p q = KSpec.concepts A0 n k := by
  subst hk
  unfold KSpec.concepts KSpec.smax
  simp only [h]

/-- Entry `(p, q)` of tile `t` of the input is its entry `(5000 t + p, q)`. -/
theorem read5_0 (c : Dev nD) (t : Fin cfg5.N) (p : Fin 5000) (q : Fin 32) (n : Fin 50000)
    (hn : n.val = t.val * 5000 + p.val) :
    (iblk5 V c 0 t : Vec Ideal S5000x32 .f32) (ix2 p q)
      = (V c (Pipeline.arrRef spec5 0) : KSpec.Arr2 50000 32) (ix2 n q) := by
  obtain ⟨e0, e1, -⟩ := idx5 t
  show V c (Pipeline.arrRef spec5 0) (((cfg5.win 0).blk t).view.emb (ix2 p q)) = _
  refine congrArg (V c (Pipeline.arrRef spec5 0)) (funext fun a => Fin.ext ?_)
  match a with
  | ⟨0, _⟩ => show win5_0.index t (0 : Fin 2) * 5000 + 1 * p.val = n.val; omega
  | ⟨1, _⟩ => show win5_0.index t (1 : Fin 2) * 32 + 1 * q.val = q.val; omega

/-- What grid point `t` writes back to the first output is block `t` of the normalized softmax of the whole input. -/
theorem flushed5c (c : Dev nD) (t : Fin cfg5.N) :
    (cfg5.win 3).cut (grid5.coords t) ((dat5 (F := Ideal) V c).after 3 t)
      = ((cfg5.win 3).blk t).view.read (Elt Ideal)
          (fun i => KSpec.concepts (V c (Pipeline.arrRef spec5 0)) (i 0) (i 1)) := by
  rw [Gen.after5_3]
  unfold Gen.out5_3
  rw [View.canon_unit_zero zeroOffsets5]
  simp only [View.ld_unit_zero (S := S5000x32) zeroOffsets5]
  obtain ⟨-, -, e2, e3⟩ := idx5 t
  funext j
  obtain ⟨p, q, rfl⟩ : ∃ (p : Fin 5000) (q : Fin 32), j = ix2 p q := ⟨j 0, j 1, eq_ix2 j⟩
  show Gen.k5_pay1 (iblk5 V c 0 t) (ix2 p q) = _
  refine (pay5c (iblk5 V c 0 t) p q).trans ?_
  rw [View.read_apply]
  have hn : ((((cfg5.win 3).blk t).view.emb (ix2 p q)) 0).val = t.val * 5000 + p.val := by
    show win5_3.index t (0 : Fin 2) * 5000 + 1 * p.val = _; omega
  have hk : ((((cfg5.win 3).blk t).view.emb (ix2 p q)) 1).val = q.val := by
    show win5_3.index t (1 : Fin 2) * 32 + 1 * q.val = _; omega
  exact concepts_congr5 (V c (Pipeline.arrRef spec5 0)) (iblk5 V c 0 t) p q _ _
    (fun j => read5_0 V c t p j _ hn) (Fin.ext hk)

/-- An index of the array is in point `t`'s block iff each coordinate is in the block's range on its axis. -/
theorem mem_blk5c (t : Fin cfg5.N) (i : S50000x32.Idx) :
    i ∈ ((cfg5.win 3).blk t).view.set ↔ ∀ a : Fin 2, win5_3.index t a * S5000x32.size a ≤ (i a).val
      ∧ (i a).val < win5_3.index t a * S5000x32.size a + S5000x32.size a := by
  show i ∈ ((View.whole main_v66_0).slice (win5_3.rect t)).set ↔ _
  rw [View.set_slice_whole, Rect.mem_set_unit]
  exact Iff.rfl

/-- Row `r` of the array lies in the tile `r / 5000`, which is written back. -/
theorem cover5c (i : S50000x32.Idx) :
    ∃ t : Fin cfg5.N, (cfg5.win 3).flush t = true ∧ i ∈ ((cfg5.win 3).blk t).view.set := by
  have hi0 : (i 0).val < 50000 := (i 0).isLt
  have hi1 : (i 1).val < 32 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, e2, e3⟩ := idx5 t
  refine ⟨t, flush5_3 t, ?_⟩
  rw [mem_blk5c]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 32 ≤ (i 1).val ∧ (i 1).val < win5_3.index t (1 : Fin 2) * 32 + 32
    omega

/-- THE FIRST OUTPUT ARRAY after the kernel: entry `(n, j)` is the softmax of row `n` of the input at `j`, over
    the maximum of that softmax row. -/
theorem arr5c (c : Dev nD) :
    (dat5 (F := Ideal) V c).arrAt 3 cfg5.N = fun i => KSpec.concepts (V c (Pipeline.arrRef spec5 0)) (i 0) (i 1) :=
  (dat5 (F := Ideal) V c).arrAt_eq_of_cover 3 _ (fun t _ => flushed5c V c t) cover5c

end

end Cert.KernelIdeal.KReg

end
-- ==== Proof.KRegB5l.lean ====
/-
  The last tiled kernel's second result, from its row blocks to the whole array, on the extended reals.

  The kernel walks ten row tiles of 5000 nodes. At tile `t` it normalizes rows `5000 t … 5000 t + 4999` of the
  activations (the softmax of a row, divided by the softmax row's own maximum), multiplies the normalized rows by the
  whole `32 × 4` weight matrix and adds the bias row. A node's output row depends only on the same node's input row,
  so the ten blocks are the restrictions of one function of the whole arrays: entry `(n, q)` of the second result is
  `(Σ j, concepts(h)(n, j) · Wl(j, q)) + bl(q)`.
-/
import proofs.«166952_j50646254354931_2_alg».proof.Proof.Gen.KernelIdeal.Frame
import proofs.«166952_j50646254354931_2_alg».proof.Proof.KSpec
import proofs.«166952_j50646254354931_2_alg».proof.Proof.LibDenseBlock
import proofs.«166952_j50646254354931_2_alg».proof.Proof.LibColumn
import proofs.«166952_j50646254354931_2_alg».proof.Proof.KRegB5
import Idealize.ShloMosaic.Lib.Pipeline.Value

set_option maxRecDepth 16384

noncomputable section

open scoped BigOperators

namespace Cert.KernelIdeal.KReg

open Cert.KernelIdeal Cert.KernelIdeal.Gen Idealize.ShloMosaic Idealize.ShloMosaic.ValueIdx
open Idealize.ShloMosaic.Pipeline (Dat)
open Idealize.ShloMosaic.TcCoe Idealize.SL.Sem

/-- A `[1, b]` row broadcast to `[a, b]` reads, at `(p, q)`, the row's entry of column `q`. -/
theorem rowBroadcast5l_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- Entry `(p, q)` of the second stored tile: the normalized softmax row `p` times column `q` of the last weight,
    plus the last bias at `q`. -/
theorem pay5l (x0 : Vec Ideal S5000x32 .f32) (x1 : Vec Ideal S32x4 .f32) (x2 : Vec Ideal S1x4 .f32)
    (p : Fin 5000) (q : Fin 4) :
    Gen.k5_pay2 (F := Ideal) x0 x1 x2 (ix2 p q) = KSpec.logits x0 x1 x2 p q := by
  have hd : dot_S5000x32_S32x4_S5000x4_1_0_0_1_n_n
      = DenseBlock.mmDims 5000 32 4 dot_S5000x32_S32x4_S5000x4_1_0_0_1_n_n_wf := rfl
  unfold Gen.k5_pay2 KSpec.logits
  simp only [addf, Ideal.addf_def, matmul, shapeCast_self]
  rw [hd, DenseBlock.matmul_zero_apply, rowBroadcast5l_apply]
  refine congrArg (fun s => s + x2 (ix2 (0 : Fin 1) q)) (Finset.sum_congr rfl fun n _ => ?_)
  simp only [truncf, Ideal.truncf_def, pay5c]

/-- The last layer's entry `(p, q)` reads row `p` of the activations, column `q` of the weight and entry `q` of the
    bias row: where those agree, the entries agree. -/
theorem logits_rows5l {N N' : ℕ} (x0 : KSpec.Arr2 N 32) (A0 : KSpec.Arr2 N' 32) (x1 x1' : KSpec.Arr2 32 4)
    (x2 x2' : KSpec.Arr2 1 4) (p : Fin N) (r : Fin N') (q s : Fin 4)
    (h0 : ∀ k, x0 (ix2 p k) = A0 (ix2 r k)) (h1 : ∀ j, x1 (ix2 j q) = x1' (ix2 j s))
    (h2 : x2 (ix2 0 q) = x2' (ix2 0 s)) :
    KSpec.logits x0 x1 x2 p q = KSpec.logits A0 x1' x2' r s := by
  unfold KSpec.logits KSpec.concepts KSpec.smax
  rw [h2]
  simp only [h0, h1]

variable (V : (c : Dev nD) → (b : Ref sig .tc) → Buf (Elt Ideal) ((c : Thread nD τ).loc b))

theorem hz5l : (![0, 0] : Fin 2 → Nat) = fun _ => 0 := funext fun a => by fin_cases a <;> rfl

/-- Where the blocks the second store reads and writes sit at grid point `t`: the activations and the result at row
    block `t`, the weight and the bias row whole. -/
theorem idx5l : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_4.index t (0 : Fin 2) = t.val ∧ win5_4.index t (1 : Fin 2) = 0 :=
  (by decide +kernel : ∀ t : Fin grid5.N, _)

/-- Row `p` of the activations' block at point `t` is row `5000 t + p` of the activations. -/
theorem blk5l_0 (c : Dev nD) (t : Fin cfg5.N) (x : S5000x32.Idx) (k : S50000x32.Idx)
    (hk0 : (k 0).val = 5000 * t.val + (x 0).val) (hk1 : (k 1).val = (x 1).val) :
    (iblk5 V c 0 t : Vec Ideal S5000x32 .f32) x = (V c (Pipeline.arrRef spec5 0) : S50000x32.Idx → EReal) k := by
  obtain ⟨e0, e1, -⟩ := idx5l t
  unfold iblk5
  rw [View.read_apply]
  show V c (Pipeline.arrRef spec5 0) _ = V c (Pipeline.arrRef spec5 0) _
  congr 1
  funext a
  apply Fin.ext
  match a with
  | ⟨0, _⟩ => show win5_0.index t 0 * 5000 + 1 * (x 0).val = (k 0).val; rw [e0, hk0]; omega
  | ⟨1, _⟩ => show win5_0.index t 1 * 32 + 1 * (x 1).val = (k 1).val; rw [e1, hk1]; omega

/-- The weight block is the weight. -/
theorem blk5l_1 (c : Dev nD) (t : Fin cfg5.N) (x : S32x4.Idx) :
    (iblk5 V c 1 t : Vec Ideal S32x4 .f32) x = (V c (Pipeline.arrRef spec5 1) : S32x4.Idx → EReal) x := by
  obtain ⟨-, -, e0, e1, -⟩ := idx5l t
  unfold iblk5
  rw [View.read_apply]
  show V c (Pipeline.arrRef spec5 1) _ = V c (Pipeline.arrRef spec5 1) _
  congr 1
  funext a
  apply Fin.ext
  match a with
  | ⟨0, _⟩ => show win5_1.index t 0 * 32 + 1 * (x 0).val = (x 0).val; rw [e0]; omega
  | ⟨1, _⟩ => show win5_1.index t 1 * 4 + 1 * (x 1).val = (x 1).val; rw [e1]; omega

/-- The bias block is the bias row. -/
theorem blk5l_2 (c : Dev nD) (t : Fin cfg5.N) (x : S1x4.Idx) :
    (iblk5 V c 2 t : Vec Ideal S1x4 .f32) x = (V c (Pipeline.arrRef spec5 2) : S1x4.Idx → EReal) x := by
  obtain ⟨-, -, -, -, e0, e1, -⟩ := idx5l t
  unfold iblk5
  rw [View.read_apply]
  show V c (Pipeline.arrRef spec5 2) _ = V c (Pipeline.arrRef spec5 2) _
  congr 1
  funext a
  apply Fin.ext
  match a with
  | ⟨0, _⟩ => show win5_2.index t 0 * 1 + 1 * (x 0).val = (x 0).val; rw [e0]; omega
  | ⟨1, _⟩ => show win5_2.index t 1 * 4 + 1 * (x 1).val = (x 1).val; rw [e1]; omega

/-- The whole-array function the last kernel leaves in its second result. -/
abbrev G5l (c : Dev nD) : S50000x4.Idx → EReal := fun i =>
  KSpec.logits (N := 50000) (C := 32) (K := 4) (V c (Pipeline.arrRef spec5 0)) (V c (Pipeline.arrRef spec5 1))
    (V c (Pipeline.arrRef spec5 2)) (i 0) (i 1)

/-- What grid point `t` writes back to the second result is block `t` of `G5l`. -/
theorem flushed5l (c : Dev nD) (t : Fin cfg5.N) :
    (cfg5.win 4).cut (grid5.coords t) ((dat5 V c).after 4 t) = ((cfg5.win 4).blk t).view.read (Elt Ideal) (G5l V c) := by
  rw [after5_4]
  unfold out5_4
  rw [View.canon_unit_zero hz5l]
  simp only [View.ld_unit_zero (S := S5000x32) hz5l, View.ld_unit_zero (S := S32x4) hz5l,
    View.ld_unit_zero (S := S1x4) hz5l]
  obtain ⟨-, -, -, -, -, -, e0, e1⟩ := idx5l t
  funext j
  obtain ⟨p, q, rfl⟩ : ∃ (p : Fin 5000) (q : Fin 4), j = ix2 p q := ⟨j 0, j 1, eq_ix2 j⟩
  have hp := p.isLt
  have hq := q.isLt
  show k5_pay2 (iblk5 V c 0 t) (iblk5 V c 1 t) (iblk5 V c 2 t) (ix2 p q)
    = G5l V c (((cfg5.win 4).blk t).view.emb (ix2 p q))
  rw [pay5l]
  have hr0 : ((((cfg5.win 4).blk t).view.emb (ix2 p q)) 0).val = 5000 * t.val + p.val := by
    show win5_4.index t 0 * 5000 + 1 * p.val = _; rw [e0]; omega
  have hr1 : ((((cfg5.win 4).blk t).view.emb (ix2 p q)) 1).val = q.val := by
    show win5_4.index t 1 * 4 + 1 * q.val = _; rw [e1]; omega
  have hs : ∀ (n : Fin 32), (ix2 n q : S32x4.Idx) = ix2 n ((((cfg5.win 4).blk t).view.emb (ix2 p q)) 1) := fun n => by
    funext a; apply Fin.ext
    match a with
    | ⟨0, _⟩ => rfl
    | ⟨1, _⟩ => exact hr1.symm
  have hs0 : (ix2 (0 : Fin 1) q : S1x4.Idx) = ix2 (0 : Fin 1) ((((cfg5.win 4).blk t).view.emb (ix2 p q)) 1) := by
    funext a; apply Fin.ext
    match a with
    | ⟨0, _⟩ => rfl
    | ⟨1, _⟩ => exact hr1.symm
  refine logits_rows5l (N := 5000) (N' := 50000) _ _ _ _ _ _ p _ q _
    (fun k => blk5l_0 V c t (ix2 p k) _ hr0 rfl)
    (fun n => (blk5l_1 V c t (ix2 n q)).trans (congrArg _ (hs n)))
    ((blk5l_2 V c t (ix2 0 q)).trans (congrArg _ hs0))

/-- Row `r` of the second result lies in the block of point `r / 5000`. -/
theorem cover5l (i : S50000x4.Idx) :
    ∃ t : Fin cfg5.N, (cfg5.win 4).flush t = true ∧ i ∈ ((cfg5.win 4).blk t).view.set := by
  have h0 : (i 0).val < 50000 := (i 0).isLt
  have h1 : (i 1).val < 4 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, e0, e1⟩ := idx5l t
  refine ⟨t, flush5_4 t, ?_⟩
  show i ∈ ((View.whole main_v66_1).slice (win5_4.rect t)).set
  rw [View.set_slice_whole, Rect.mem_set_unit]
  intro a
  match a with
  | ⟨0, _⟩ =>
    show win5_4.index t 0 * 5000 ≤ (i 0).val ∧ (i 0).val < win5_4.index t 0 * 5000 + 5000
    rw [e0, ht]; omega
  | ⟨1, _⟩ =>
    show win5_4.index t 1 * 4 ≤ (i 1).val ∧ (i 1).val < win5_4.index t 1 * 4 + 4
    rw [e1]; omega

/-- After the last kernel its second result is, at every entry `(n, q)`, the normalized softmax of row `n` of the
    activations times column `q` of the last weight, plus the last bias at `q`. -/
theorem arr5l (c : Dev nD) : (Gen.dat5 (F := Ideal) V c).arrAt 4 cfg5.N
    = fun i => KSpec.logits (N := 50000) (C := 32) (K := 4) (V c (Pipeline.arrRef spec5 0)) (V c (Pipeline.arrRef spec5 1))
        (V c (Pipeline.arrRef spec5 2)) (i 0) (i 1) :=
  (dat5 V c).arrAt_eq_of_cover 4 (G5l V c) (fun t _ => flushed5l V c t) cover5l

end Cert.KernelIdeal.KReg

end
-- ==== Proof.KValue.lean ====
/-
  The kernel program's run, in closed form.

  The program alternates six tiled kernels with stretches of whole-array operations (the neighbourhood sums, the
  scaling column, the bias rows). Each tiled kernel leaves in its output array one function of its input arrays, entry
  by entry; each stretch hands the next kernel the arrays it reads as terms of the previous kernel's output and of the
  arguments. Walking from the first kernel to the last, every array along the way is a term of the thirteen arguments,
  and the two results are `KNet.out0` and `KNet.out1` of them.
-/
import proofs.«166952_j50646254354931_2_alg».proof.Proof.KRun
import proofs.«166952_j50646254354931_2_alg».proof.Proof.KChain
import proofs.«166952_j50646254354931_2_alg».proof.Proof.KNet
import proofs.«166952_j50646254354931_2_alg».proof.Proof.KReg0
import proofs.«166952_j50646254354931_2_alg».proof.Proof.KReg1
import proofs.«166952_j50646254354931_2_alg».proof.Proof.KReg2
import proofs.«166952_j50646254354931_2_alg».proof.Proof.KReg3
import proofs.«166952_j50646254354931_2_alg».proof.Proof.KRegB4
import proofs.«166952_j50646254354931_2_alg».proof.Proof.KRegB5
import proofs.«166952_j50646254354931_2_alg».proof.Proof.KRegB5l

set_option maxRecDepth 16384

noncomputable section

namespace Cert.KernelIdeal.KValue

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- After the first kernel: `(x · W0)` with row `n` scaled by `d n`, of the arguments. -/
theorem step0 : Gen.V4 m ρ c (Pipeline.arrRef spec0 3) = KNet.raw0 (m ((c : Thread nD τ).loc main_arg0)) (m ((c : Thread nD τ).loc main_arg2)) (m ((c : Thread nD τ).loc main_arg3)) := by
  rw [KChain.reg0_out, KReg.arr0 (Gen.V3 m ρ) c, KChain.in0_0, KChain.in0_1, KChain.in0_2]
  rfl

/-- After the second kernel. -/
theorem step1 : Gen.V6 m ρ c (Pipeline.arrRef spec1 4) = KNet.raw1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [KChain.reg1_out, KReg.arr1 (Gen.V5 m ρ) c, KChain.in1_0, KChain.in1_1, KChain.in1_2, KChain.in1_3, step0]
  rfl

/-- After the third kernel. -/
theorem step2 : Gen.V8 m ρ c (Pipeline.arrRef spec2 4) = KNet.raw2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [KChain.reg2_out, KReg.arr2 (Gen.V7 m ρ) c, KChain.in2_0, KChain.in2_1, KChain.in2_2, KChain.in2_3, step1]
  rfl

/-- After the fourth kernel. -/
theorem step3 : Gen.V10 m ρ c (Pipeline.arrRef spec3 4) = KNet.raw3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [KChain.reg3_out, KReg.arr3 (Gen.V9 m ρ) c, KChain.in3_0, KChain.in3_1, KChain.in3_2, KChain.in3_3, step2]
  rfl

/-- After the fifth kernel: the last layer's activations. -/
theorem step4 : Gen.V12 m ρ c (Pipeline.arrRef spec4 3) = KNet.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [KChain.reg4_out, KReg.arr4 (Gen.V11 m ρ) c, KChain.in4_0, KChain.in4_1, KChain.in4_2, step3]
  rfl

/-- The first result: each row of the activations through the softmax, divided by its own maximum. -/
theorem res0 : Gen.W14 (F := Ideal) m ρ c (Proc.devRef .tc main_v66_0) = KNet.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [KChain.out0, KReg.arr5c (Gen.V13 m ρ) c, KChain.in5_0, step4]
  rfl

/-- The second result: the last linear layer on the first result, plus its bias. -/
theorem res1 : Gen.W14 (F := Ideal) m ρ c (Proc.devRef .tc main_v66_1) = KNet.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [KChain.out1, KReg.arr5l (Gen.V13 m ρ) c, KChain.in5_0, KChain.in5_1, KChain.in5_2, step4]
  rfl

/-- The kernel program's run in closed form: from any launch memory with zero counters every weakly fair execution
    terminates without a fault, the two result arrays hold the network's two outputs as terms of the thirteen
    argument arrays, and the arguments are as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v66_0) = KNet.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v66_1) = KNet.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (res0 m ρ c), (h c).2.1.trans (res1 m ρ c), (h c).2.2⟩) (KRun.run m ρ)

end Cert.KernelIdeal.KValue

end
-- ==== Proof.RefTerm.lean ====
/-
  The reference network as layered pure functions on the extended reals.

  The reference is a four-layer graph convolution network on 50000 nodes and 800000 directed edges
  `src(e) → dst(e)`.  Every layer first appends one self-loop per node to the edge list (`cat`), counts
  the in-degree `deg(n) = #{e : dst(e) = n}` over the extended list, takes `dinv = deg^(-1/2)` where the
  degree is positive (zero elsewhere), weights edge `e` by `norm(e) = dinv(src(e)) · dinv(dst(e))`, and
  sends `h ↦ lrelu (Σ_{e → n} norm(e) · (h · W)(src(e), ·) + b)`.  The index and degree arrays depend on the edge
  list only, so all four layers share `cat`, `rawIdx`, `normIdx`, `dinv`, `norm`; layers one to three are 64
  columns wide (`conv64`, `lrelu64`; layer one's product has 128 input columns), layer four 32 (`conv32`,
  `lrelu32`).  The tail is a row softmax, the division of each row by its own maximum (`concepts`), and a last
  affine map (`logits`).

  Each definition lists the operations in the order the reference performs them; a `have` line is one
  operation, so each function is, by unfolding, the composition of those operations.
-/
import proofs.«166952_j50646254354931_2_alg».proof.ReferenceIdeal
import Idealize.ShloMosaic.PureOps.Ideal

noncomputable section

namespace Cert.ReferenceIdeal.RefTerm

open Idealize.ShloMosaic Cert.ReferenceIdeal
open Facts₀ Facts

variable [Facts]

/-! ## Indices and degrees (shared by the four layers) -/

/-- An endpoint array followed by one self-loop per node: `e ++ [0, 1, …, 49999]`. -/
def cat (e : IVec S800000 32) : IVec S850000 32 :=
  have nodes : IVec S50000 32 := iotaInDim S50000 32 0
  concatenate S850000 0 [⟨S800000, e⟩, ⟨S50000, nodes⟩] concatenates_S800000_S50000_S850000_d0

/-- An index array as a column of one-entry index vectors, as a scatter reads it. -/
def rawIdx (v : IVec S850000 32) : IVec S850000x1 32 :=
  broadcastInDim S850000x1 ![0] bcast_S850000_S850000x1_0 v

/-- An index array with negative entries wrapped once (`v + 50000` where `v < 0`), as a column of one-entry
    index vectors, as a gather reads it. -/
def normIdx (v : IVec S850000 32) : IVec S850000x1 32 :=
  have zero : IVec S_ 32 := constantI S_ 32 0#32
  have zeros : IVec S850000 32 := broadcastInDim S850000 ![] bcast_S_S850000 zero
  have neg : IVec S850000 1 := cmpi .slt v zeros
  have n : IVec S_ 32 := constantI S_ 32 50000#32
  have ns : IVec S850000 32 := broadcastInDim S850000 ![] bcast_S_S850000 n
  have wrapped : IVec S850000 32 := addi v ns
  have w : IVec S850000 32 := select neg wrapped v
  broadcastInDim S850000x1 ![0] bcast_S850000_S850000x1_0 w

/-- `deg(n)^(-1/2)` where `deg(n) > 0` and `0` elsewhere, `deg` the in-degree over the edge list with self-loops:
    a one per extended edge scatter-added at its destination. -/
def dinv (dst : IVec S800000 32) : FVec Ideal S50000 .f32 :=
  have one : FVec Ideal S_ .f32 := constant S_ .f32 0x3F800000#32
  have ones : FVec Ideal S850000 .f32 := broadcastInDim S850000 ![] bcast_S_S850000 one
  have zero : FVec Ideal S_ .f32 := constant S_ .f32 0x00000000#32
  have zeros : FVec Ideal S50000 .f32 := broadcastInDim S50000 ![] bcast_S_S50000 zero
  have deg : FVec Ideal S50000 .f32 :=
    Host.scatterAdd scatter_S50000_S850000x1_S850000_n_0_0_1 zeros (rawIdx (cat dst)) ones
  have zero' : FVec Ideal S_ .f32 := constant S_ .f32 0x00000000#32
  have zeros' : FVec Ideal S50000 .f32 := broadcastInDim S50000 ![] bcast_S_S50000 zero'
  have pos : IVec S50000 1 := cmpf .ogt deg zeros'
  have rs : FVec Ideal S50000 .f32 := Host.rsqrt deg
  have other : FVec Ideal S_ .f32 := constant S_ .f32 0x00000000#32
  have other' : FVec Ideal S_ .f32 := id other
  have others : FVec Ideal S50000 .f32 := broadcastInDim S50000 ![] bcast_S_S50000 other'
  select pos rs others

/-- The weight of each extended edge: `dinv(src(e)) · dinv(dst(e))`. -/
def norm (src dst : IVec S800000 32) : FVec Ideal S850000 .f32 :=
  have atSrc : FVec Ideal S850000 .f32 :=
    Host.gather gather_S50000_S850000x1_S850000_n_0_n_n_0_1_1 (dinv dst) (normIdx (cat src))
  have atDst : FVec Ideal S850000 .f32 :=
    Host.gather gather_S50000_S850000x1_S850000_n_0_n_n_0_1_1 (dinv dst) (normIdx (cat dst))
  mulf atSrc atDst

/-! ## One convolution and one activation, at 64 and at 32 columns -/

/-- One graph convolution at 64 columns, given the dense product `h`:
    `out(n, ·) = Σ_{edges e with dst(e) = n} norm(e) · h(src(e), ·) + b`, self-loops included. -/
def conv64 (h : FVec Ideal S50000x64 .f32) (b : FVec Ideal S64 .f32) (src dst : IVec S800000 32) :
    FVec Ideal S50000x64 .f32 :=
  have rows : FVec Ideal S850000x64 .f32 :=
    Host.gather gather_S50000x64_S850000x1_S850000x64_1_0_n_n_0_1_164 h (normIdx (cat src))
  have nrm1 : FVec Ideal S850000x1 .f32 := broadcastInDim S850000x1 ![0] bcast_S850000_S850000x1_0 (norm src dst)
  have nrmW : FVec Ideal S850000x64 .f32 := broadcastInDim S850000x64 ![0, 1] bcast_S850000x1_S850000x64_0_1 nrm1
  have msgs : FVec Ideal S850000x64 .f32 := mulf rows nrmW
  have zero : FVec Ideal S_ .f32 := constant S_ .f32 0x00000000#32
  have zeros : FVec Ideal S50000x64 .f32 := broadcastInDim S50000x64 ![] bcast_S_S50000x64 zero
  have agg : FVec Ideal S50000x64 .f32 :=
    Host.scatterAdd scatter_S50000x64_S850000x1_S850000x64_1_0_0_1 zeros (rawIdx (cat dst)) msgs
  have b1 : FVec Ideal S1x64 .f32 := broadcastInDim S1x64 ![1] bcast_S64_S1x64_1 b
  have bW : FVec Ideal S50000x64 .f32 := broadcastInDim S50000x64 ![0, 1] bcast_S1x64_S50000x64_0_1 b1
  addf agg bW

/-- The leaky rectifier at 64 columns as the reference prints it: `x` where `x ≥ 0`, `slope · x` elsewhere. -/
def lrelu64 (x : FVec Ideal S50000x64 .f32) : FVec Ideal S50000x64 .f32 :=
  have slope : FVec Ideal S_ .f32 := constant S_ .f32 0x3C23D70A#32
  have zero : FVec Ideal S_ .f32 := constant S_ .f32 0x00000000#32
  have zeros : FVec Ideal S50000x64 .f32 := broadcastInDim S50000x64 ![] bcast_S_S50000x64 zero
  have ge : IVec S50000x64 1 := cmpf .oge x zeros
  have slope' : FVec Ideal S_ .f32 := id slope
  have slopes : FVec Ideal S50000x64 .f32 := broadcastInDim S50000x64 ![] bcast_S_S50000x64 slope'
  have scaled : FVec Ideal S50000x64 .f32 := mulf slopes x
  select ge x scaled

/-- One graph convolution at 32 columns, given the dense product `h`:
    `out(n, ·) = Σ_{edges e with dst(e) = n} norm(e) · h(src(e), ·) + b`, self-loops included. -/
def conv32 (h : FVec Ideal S50000x32 .f32) (b : FVec Ideal S32 .f32) (src dst : IVec S800000 32) :
    FVec Ideal S50000x32 .f32 :=
  have rows : FVec Ideal S850000x32 .f32 :=
    Host.gather gather_S50000x32_S850000x1_S850000x32_1_0_n_n_0_1_132 h (normIdx (cat src))
  have nrm1 : FVec Ideal S850000x1 .f32 := broadcastInDim S850000x1 ![0] bcast_S850000_S850000x1_0 (norm src dst)
  have nrmW : FVec Ideal S850000x32 .f32 := broadcastInDim S850000x32 ![0, 1] bcast_S850000x1_S850000x32_0_1 nrm1
  have msgs : FVec Ideal S850000x32 .f32 := mulf rows nrmW
  have zero : FVec Ideal S_ .f32 := constant S_ .f32 0x00000000#32
  have zeros : FVec Ideal S50000x32 .f32 := broadcastInDim S50000x32 ![] bcast_S_S50000x32 zero
  have agg : FVec Ideal S50000x32 .f32 :=
    Host.scatterAdd scatter_S50000x32_S850000x1_S850000x32_1_0_0_1 zeros (rawIdx (cat dst)) msgs
  have b1 : FVec Ideal S1x32 .f32 := broadcastInDim S1x32 ![1] bcast_S32_S1x32_1 b
  have bW : FVec Ideal S50000x32 .f32 := broadcastInDim S50000x32 ![0, 1] bcast_S1x32_S50000x32_0_1 b1
  addf agg bW

/-- The leaky rectifier at 32 columns as the reference prints it: `x` where `x ≥ 0`, `slope · x` elsewhere. -/
def lrelu32 (x : FVec Ideal S50000x32 .f32) : FVec Ideal S50000x32 .f32 :=
  have slope : FVec Ideal S_ .f32 := constant S_ .f32 0x3C23D70A#32
  have zero : FVec Ideal S_ .f32 := constant S_ .f32 0x00000000#32
  have zeros : FVec Ideal S50000x32 .f32 := broadcastInDim S50000x32 ![] bcast_S_S50000x32 zero
  have ge : IVec S50000x32 1 := cmpf .oge x zeros
  have slope' : FVec Ideal S_ .f32 := id slope
  have slopes : FVec Ideal S50000x32 .f32 := broadcastInDim S50000x32 ![] bcast_S_S50000x32 slope'
  have scaled : FVec Ideal S50000x32 .f32 := mulf slopes x
  select ge x scaled

/-! ## The four layers -/

/-- Layer one: 128 input columns. -/
def layer1 (x : FVec Ideal S50000x128 .f32) (W : FVec Ideal S128x64 .f32) (b : FVec Ideal S64 .f32)
    (src dst : IVec S800000 32) : FVec Ideal S50000x64 .f32 :=
  lrelu64 (conv64 (Host.dotGeneral dot_S50000x128_S128x64_S50000x64_1_0_0_1_n_n none x W) b src dst)

/-- Layers two and three: 64 columns in, 64 out. -/
def layer64 (h : FVec Ideal S50000x64 .f32) (W : FVec Ideal S64x64 .f32) (b : FVec Ideal S64 .f32)
    (src dst : IVec S800000 32) : FVec Ideal S50000x64 .f32 :=
  lrelu64 (conv64 (Host.dotGeneral dot_S50000x64_S64x64_S50000x64_1_0_0_1_n_n none h W) b src dst)

/-- Layer four: 64 columns in, 32 out. -/
def layer32 (h : FVec Ideal S50000x64 .f32) (W : FVec Ideal S64x32 .f32) (b : FVec Ideal S32 .f32)
    (src dst : IVec S800000 32) : FVec Ideal S50000x32 .f32 :=
  lrelu32 (conv32 (Host.dotGeneral dot_S50000x64_S64x32_S50000x32_1_0_0_1_n_n none h W) b src dst)

/-- The output of layer one, of the reference's arguments in their order. -/
def h1 (a0 : FVec Ideal S50000x128 .f32) (a1 a2 : IVec S800000 32) (a3 : FVec Ideal S128x64 .f32)
    (a4 : FVec Ideal S64 .f32) : FVec Ideal S50000x64 .f32 :=
  layer1 a0 a3 a4 a1 a2

/-- The output of layer two. -/
def h2 (a0 : FVec Ideal S50000x128 .f32) (a1 a2 : IVec S800000 32) (a3 : FVec Ideal S128x64 .f32)
    (a4 : FVec Ideal S64 .f32) (a5 : FVec Ideal S64x64 .f32) (a6 : FVec Ideal S64 .f32) : FVec Ideal S50000x64 .f32 :=
  layer64 (h1 a0 a1 a2 a3 a4) a5 a6 a1 a2

/-- The output of layer three. -/
def h3 (a0 : FVec Ideal S50000x128 .f32) (a1 a2 : IVec S800000 32) (a3 : FVec Ideal S128x64 .f32)
    (a4 : FVec Ideal S64 .f32) (a5 : FVec Ideal S64x64 .f32) (a6 : FVec Ideal S64 .f32)
    (a7 : FVec Ideal S64x64 .f32) (a8 : FVec Ideal S64 .f32) : FVec Ideal S50000x64 .f32 :=
  layer64 (h2 a0 a1 a2 a3 a4 a5 a6) a7 a8 a1 a2

/-- The output of layer four. -/
def h4 (a0 : FVec Ideal S50000x128 .f32) (a1 a2 : IVec S800000 32) (a3 : FVec Ideal S128x64 .f32)
    (a4 : FVec Ideal S64 .f32) (a5 : FVec Ideal S64x64 .f32) (a6 : FVec Ideal S64 .f32)
    (a7 : FVec Ideal S64x64 .f32) (a8 : FVec Ideal S64 .f32) (a9 : FVec Ideal S64x32 .f32)
    (a10 : FVec Ideal S32 .f32) : FVec Ideal S50000x32 .f32 :=
  layer32 (h3 a0 a1 a2 a3 a4 a5 a6 a7 a8) a9 a10 a1 a2

/-! ## The tail -/

/-- The row softmax: `exp (h − max) / Σ exp (h − max)`, the row maximum folded from `-inf` and then joined
    once more with `-inf`. -/
def softmax (h : FVec Ideal S50000x32 .f32) : FVec Ideal S50000x32 .f32 :=
  have ninf : FVec Ideal S_ .f32 := constant S_ .f32 0xFF800000#32
  have mx : FVec Ideal S50000 .f32 := Host.reduce FloatOps.maximumf h ninf reducesTo_S50000x32_S50000_d1 h_S_
  have ninf' : FVec Ideal S_ .f32 := constant S_ .f32 0xFF800000#32
  have ninfs : FVec Ideal S50000 .f32 := broadcastInDim S50000 ![] bcast_S_S50000 ninf'
  have mx' : FVec Ideal S50000 .f32 := maximumf ninfs mx
  have mx1 : FVec Ideal S50000x1 .f32 := broadcastInDim S50000x1 ![0] bcast_S50000_S50000x1_0 mx'
  have mxW : FVec Ideal S50000x32 .f32 := broadcastInDim S50000x32 ![0, 1] bcast_S50000x1_S50000x32_0_1 mx1
  have sh : FVec Ideal S50000x32 .f32 := subf h mxW
  have ex : FVec Ideal S50000x32 .f32 := Host.exp sh
  have zero : FVec Ideal S_ .f32 := constant S_ .f32 0x00000000#32
  have sm : FVec Ideal S50000 .f32 := Host.reduceAdd ex zero reducesTo_S50000x32_S50000_d1 h_S_
  have sm1 : FVec Ideal S50000x1 .f32 := broadcastInDim S50000x1 ![0] bcast_S50000_S50000x1_0 sm
  have smW : FVec Ideal S50000x32 .f32 := broadcastInDim S50000x32 ![0, 1] bcast_S50000x1_S50000x32_0_1 sm1
  Host.divf ex smW

/-- The first result: each softmax row divided by its own maximum. -/
def concepts (h : FVec Ideal S50000x32 .f32) : FVec Ideal S50000x32 .f32 :=
  have p : FVec Ideal S50000x32 .f32 := softmax h
  have ninf : FVec Ideal S_ .f32 := constant S_ .f32 0xFF800000#32
  have mx : FVec Ideal S50000 .f32 := Host.reduce FloatOps.maximumf p ninf reducesTo_S50000x32_S50000_d1 h_S_
  have mx1 : FVec Ideal S50000x1 .f32 := broadcastInDim S50000x1 ![0] bcast_S50000_S50000x1_0 mx
  have mxW : FVec Ideal S50000x32 .f32 := broadcastInDim S50000x32 ![0, 1] bcast_S50000x1_S50000x32_0_1 mx1
  Host.divf p mxW

/-- The second result: the last affine map on the first result. -/
def logits (h : FVec Ideal S50000x32 .f32) (Wl : FVec Ideal S32x4 .f32) (bl : FVec Ideal S4 .f32) :
    FVec Ideal S50000x4 .f32 :=
  have c : FVec Ideal S50000x32 .f32 := concepts h
  have prod : FVec Ideal S50000x4 .f32 := Host.dotGeneral dot_S50000x32_S32x4_S50000x4_1_0_0_1_n_n none c Wl
  have b1 : FVec Ideal S1x4 .f32 := broadcastInDim S1x4 ![1] bcast_S4_S1x4_1 bl
  have bW : FVec Ideal S50000x4 .f32 := broadcastInDim S50000x4 ![0, 1] bcast_S1x4_S50000x4_0_1 b1
  addf prod bW

end Cert.ReferenceIdeal.RefTerm

end
-- ==== Proof.RefRun.lean ====
/-
  The run of the reference network, read back.

  The reference is a straight line of 279 tensor operations once the eight calls of its outlined functions (the
  selections `@_where`, `@_where_0`, `@_where_2` and the rectifiers `@leaky_relu`, `@leaky_relu_1`) are replaced by their
  bodies.  The line is cut here into thirty pieces by meaning — per layer: the dense product, the edge arrays with the
  self-loops appended, the inverse square roots of the in-degrees, the edge weights, the convolution, the rectifier; then
  the softmax, the division by the row maximum, the last affine map — no piece crossing one of the five windows in which
  the reference's @main is written.

  For each piece three facts: it touches TensorCore buffers only and determines everything it writes; a buffer it does not
  write keeps its contents through it; and, from ANY contents `V` of the device's buffers, the buffer it is there to compute
  ends at the corresponding function of `RefTerm` applied to `V` at the piece's inputs.  @main is the pieces in a row
  (window by window, the outlined functions unfolded), so the contents after @main are the pieces' results composed, and
  the composition of the thirty functions is `RefTerm.concepts ∘ RefTerm.h4` for the first result and
  `RefTerm.logits (RefTerm.h4 …)` for the second; the arguments are written by no piece.
-/
import proofs.«166952_j50646254354931_2_alg».proof.Proof.Gen.ReferenceIdeal
import proofs.«166952_j50646254354931_2_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The thirty pieces -/

/-- Two index arrays end to end: the reference's two-operand concatenation as a function of its two operands. -/
def catFn (a : IVec S800000 32) (b : IVec S50000 32) : IVec S850000 32 :=
  concatenate S850000 0 [⟨S800000, a⟩, ⟨S50000, b⟩] concatenates_S800000_S50000_S850000_d0

/-- Layer 1: the dense product. -/
def l1_dot : List (HloOp τ sig (Elt F)) :=
  [
    binary main_arg0 main_arg3 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

theorem l1_dot_sub : (l1_dot : List (HloOp τ sig (Elt F))).Forall fun op => op.bufs ⊆ tcRefs τ sig := by
  unfold l1_dot; exact binary_bufs_sub ..

theorem l1_dot_fresh : ∀ op ∈ (l1_dot : List (HloOp τ sig (Elt F))), op.fresh = ∅ := by
  unfold l1_dot; intro op h; (repeat (cases h with | head => rfl | tail _ h => ?_)); exact nomatch h

/-- The buffers `l1_dot` writes. -/
abbrev l1_dot_W : List (Ref sig .tc) := [main_v0]

theorem l1_dot_writes : (l1_dot : List (HloOp τ sig (Elt F))).Forall fun op => op.writes ⊆ (l1_dot_W.map (Proc.devRef (τ := τ) .tc)).toFinset := by
  unfold l1_dot; simp only [List.Forall]
  exact (by simp only [nullary_writes, unary_writes, binary_writes, ternary_writes, Finset.singleton_subset_iff, List.mem_toFinset]; exact List.mem_map_of_mem (by decide))

/-- A buffer `l1_dot` does not write keeps its contents through it. -/
theorem l1_dot_keep (V : Valuation τ sig (Elt F)) (r : Ref sig .tc) (h : r ∉ l1_dot_W) :
    after l1_dot V (no_index (Proc.devRef .tc r)) = V (Proc.devRef .tc r) :=
  after_of_writes_sub l1_dot V l1_dot_writes h

/-- Layer 1: the node numbers and the two edge arrays with self-loops appended. -/
def l1_cats : List (HloOp τ sig (Elt F)) :=
  [
    nullary main_v1 (iotaInDim S50000 32 0),
    binary main_arg1 main_v1 main_v2 (catFn : (⟨S800000, .i32⟩ : BufTy).Contents (Elt F) → (⟨S50000, .i32⟩ : BufTy).Contents (Elt F) → (⟨S850000, .i32⟩ : BufTy).Contents (Elt F)),
    binary main_arg2 main_v1 main_v3 (catFn : (⟨S800000, .i32⟩ : BufTy).Contents (Elt F) → (⟨S50000, .i32⟩ : BufTy).Contents (Elt F) → (⟨S850000, .i32⟩ : BufTy).Contents (Elt F)) ]

theorem l1_cats_sub : (l1_cats : List (HloOp τ sig (Elt F))).Forall fun op => op.bufs ⊆ tcRefs τ sig := by
  unfold l1_cats; exact ⟨nullary_bufs_sub .., binary_bufs_sub .., binary_bufs_sub ..⟩

theorem l1_cats_fresh : ∀ op ∈ (l1_cats : List (HloOp τ sig (Elt F))), op.fresh = ∅ := by
  unfold l1_cats; intro op h; (repeat (cases h with | head => rfl | tail _ h => ?_)); exact nomatch h

/-- The buffers `l1_cats` writes. -/
abbrev l1_cats_W : List (Ref sig .tc) := [main_v1, main_v2, main_v3]

theorem l1_cats_writes : (l1_cats : List (HloOp τ sig (Elt F))).Forall fun op => op.writes ⊆ (l1_cats_W.map (Proc.devRef (τ := τ) .tc)).toFinset := by
  unfold l1_cats; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l1_cats` does not write keeps its contents through it. -/
theorem l1_cats_keep (V : Valuation τ sig (Elt F)) (r : Ref sig .tc) (h : r ∉ l1_cats_W) :
    after l1_cats V (no_index (Proc.devRef .tc r)) = V (Proc.devRef .tc r) :=
  after_of_writes_sub l1_cats V l1_cats_writes h

/-- Layer 1: the in-degrees and their inverse square roots. -/
def l1_dinv : List (HloOp τ sig (Elt F)) :=
  [
    nullary main_cst (constant S_ .f32 0x3F800000#32),
    unary main_cst main_v4 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S850000x1 ![0] bcast_S850000_S850000x1_0 : (⟨S850000, .i32⟩ : BufTy).Contents (Elt F) → (⟨S850000x1, .i32⟩ : BufTy).Contents (Elt F)),
    ternary main_v5 main_v6 main_v4 main_v7 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    unary main_v7 main_v10 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v9 main_v10 main_call0_v1 main_v11 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

theorem l1_dinv_sub : (l1_dinv : List (HloOp τ sig (Elt F))).Forall fun op => op.bufs ⊆ tcRefs τ sig := by
  unfold l1_dinv; exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

theorem l1_dinv_fresh : ∀ op ∈ (l1_dinv : List (HloOp τ sig (Elt F))), op.fresh = ∅ := by
  unfold l1_dinv; intro op h; (repeat (cases h with | head => rfl | tail _ h => ?_)); exact nomatch h

/-- The buffers `l1_dinv` writes. -/
abbrev l1_dinv_W : List (Ref sig .tc) := [main_cst, main_v4, main_cst_0, main_v5, main_v6, main_v7, main_cst_1, main_v8, main_v9, main_v10, main_cst_2, main_call0_v0, main_call0_v1, main_v11]

theorem l1_dinv_writes : (l1_dinv : List (HloOp τ sig (Elt F))).Forall fun op => op.writes ⊆ (l1_dinv_W.map (Proc.devRef (τ := τ) .tc)).toFinset := by
  unfold l1_dinv; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l1_dinv` does not write keeps its contents through it. -/
theorem l1_dinv_keep (V : Valuation τ sig (Elt F)) (r : Ref sig .tc) (h : r ∉ l1_dinv_W) :
    after l1_dinv V (no_index (Proc.devRef .tc r)) = V (Proc.devRef .tc r) :=
  after_of_writes_sub l1_dinv V l1_dinv_writes h

/-- Layer 1: the two wrapped index columns and the edge weights. -/
def l1_norm : List (HloOp τ sig (Elt F)) :=
  [
    nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v2 main_v12 main_v13 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v14 (broadcastInDim S850000 ![] bcast_S_S850000 : (⟨S_, .i32⟩ : BufTy).Contents (Elt F) → (⟨S850000, .i32⟩ : BufTy).Contents (Elt F)),
    binary main_v2 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v2 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v21 (broadcastInDim S850000 ![] bcast_S_S850000 : (⟨S_, .i32⟩ : BufTy).Contents (Elt F) → (⟨S850000, .i32⟩ : BufTy).Contents (Elt F)),
    binary main_v3 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v3 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v18 main_v25 main_v26 (mulf : (⟨S850000, .f32⟩ : BufTy).Contents (Elt F) → (⟨S850000, .f32⟩ : BufTy).Contents (Elt F) → (⟨S850000, .f32⟩ : BufTy).Contents (Elt F)) ]

theorem l1_norm_sub : (l1_norm : List (HloOp τ sig (Elt F))).Forall fun op => op.bufs ⊆ tcRefs τ sig := by
  unfold l1_norm; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem l1_norm_fresh : ∀ op ∈ (l1_norm : List (HloOp τ sig (Elt F))), op.fresh = ∅ := by
  unfold l1_norm; intro op h; (repeat (cases h with | head => rfl | tail _ h => ?_)); exact nomatch h

/-- The buffers `l1_norm` writes. -/
abbrev l1_norm_W : List (Ref sig .tc) := [main_c, main_v12, main_v13, main_c_3, main_v14, main_v15, main_v16, main_v17, main_v18, main_c_4, main_v19, main_v20, main_c_5, main_v21, main_v22, main_v23, main_v24, main_v25, main_v26]

theorem l1_norm_writes : (l1_norm : List (HloOp τ sig (Elt F))).Forall fun op => op.writes ⊆ (l1_norm_W.map (Proc.devRef (τ := τ) .tc)).toFinset := by
  unfold l1_norm; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l1_norm` does not write keeps its contents through it. -/
theorem l1_norm_keep (V : Valuation τ sig (Elt F)) (r : Ref sig .tc) (h : r ∉ l1_norm_W) :
    after l1_norm V (no_index (Proc.devRef .tc r)) = V (Proc.devRef .tc r) :=
  after_of_writes_sub l1_norm V l1_norm_writes h

/-- Layer 1: the gathered rows scaled by the edge weights, summed at the destinations, plus the bias. -/
def l1_conv : List (HloOp τ sig (Elt F)) :=
  [
    nullary main_c_6 (constantI S_ 32 0#32),
    unary main_c_6 main_v27 (broadcastInDim S850000 ![] bcast_S_S850000 : (⟨S_, .i32⟩ : BufTy).Contents (Elt F) → (⟨S850000, .i32⟩ : BufTy).Contents (Elt F)),
    binary main_v2 main_v27 main_v28 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v29 (broadcastInDim S850000 ![] bcast_S_S850000 : (⟨S_, .i32⟩ : BufTy).Contents (Elt F) → (⟨S850000, .i32⟩ : BufTy).Contents (Elt F)),
    binary main_v2 main_v29 main_v30 (addi : (⟨S850000, .i32⟩ : BufTy).Contents (Elt F) → (⟨S850000, .i32⟩ : BufTy).Contents (Elt F) → (⟨S850000, .i32⟩ : BufTy).Contents (Elt F)),
    ternary main_v28 main_v30 main_v2 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v31 main_v32 (broadcastInDim S850000x1 ![0] bcast_S850000_S850000x1_0 : (⟨S850000, .i32⟩ : BufTy).Contents (Elt F) → (⟨S850000x1, .i32⟩ : BufTy).Contents (Elt F)),
    binary main_v0 main_v32 main_v33 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v26 main_v34 (broadcastInDim S850000x1 ![0] bcast_S850000_S850000x1_0 : (⟨S850000, .f32⟩ : BufTy).Contents (Elt F) → (⟨S850000x1, .f32⟩ : BufTy).Contents (Elt F)),
    unary main_v34 main_v35 (broadcastInDim S850000x64 ![0, 1] bcast_S850000x1_S850000x64_0_1 : (⟨S850000x1, .f32⟩ : BufTy).Contents (Elt F) → (⟨S850000x64, .f32⟩ : BufTy).Contents (Elt F)),
    binary main_v33 main_v35 main_v36 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v37 (broadcastInDim S50000x64 ![] bcast_S_S50000x64 : (⟨S_, .f32⟩ : BufTy).Contents (Elt F) → (⟨S50000x64, .f32⟩ : BufTy).Contents (Elt F)),
    unary main_v3 main_v38 (broadcastInDim S850000x1 ![0] bcast_S850000_S850000x1_0 : (⟨S850000, .i32⟩ : BufTy).Contents (Elt F) → (⟨S850000x1, .i32⟩ : BufTy).Contents (Elt F)),
    ternary main_v37 main_v38 main_v36 main_v39 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v39 main_v41 main_v42 (addf : (⟨S50000x64, .f32⟩ : BufTy).Contents (Elt F) → (⟨S50000x64, .f32⟩ : BufTy).Contents (Elt F) → (⟨S50000x64, .f32⟩ : BufTy).Contents (Elt F)) ]

theorem l1_conv_sub : (l1_conv : List (HloOp τ sig (Elt F))).Forall fun op => op.bufs ⊆ tcRefs τ sig := by
  unfold l1_conv; exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem l1_conv_fresh : ∀ op ∈ (l1_conv : List (HloOp τ sig (Elt F))), op.fresh = ∅ := by
  unfold l1_conv; intro op h; (repeat (cases h with | head => rfl | tail _ h => ?_)); exact nomatch h

/-- The buffers `l1_conv` writes. -/
abbrev l1_conv_W : List (Ref sig .tc) := [main_c_6, main_v27, main_v28, main_c_7, main_v29, main_v30, main_v31, main_v32, main_v33, main_v34, main_v35, main_v36, main_cst_8, main_v37, main_v38, main_v39, main_v40, main_v41, main_v42]

theorem l1_conv_writes : (l1_conv : List (HloOp τ sig (Elt F))).Forall fun op => op.writes ⊆ (l1_conv_W.map (Proc.devRef (τ := τ) .tc)).toFinset := by
  unfold l1_conv; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l1_conv` does not write keeps its contents through it. -/
theorem l1_conv_keep (V : Valuation τ sig (Elt F)) (r : Ref sig .tc) (h : r ∉ l1_conv_W) :
    after l1_conv V (no_index (Proc.devRef .tc r)) = V (Proc.devRef .tc r) :=
  after_of_writes_sub l1_conv V l1_conv_writes h

/-- Layer 1: the leaky rectifier. -/
def l1_lrelu : List (HloOp τ sig (Elt F)) :=
  [
    nullary main_cst_9 (constant S_ .f32 0x3C23D70A#32),
    nullary main_call1_cst (constant S_ .f32 0x00000000#32 : (⟨S_, .f32⟩ : BufTy).Contents (Elt F)),
    unary main_call1_cst main_call1_v0 (broadcastInDim S50000x64 ![] bcast_S_S50000x64 : (⟨S_, .f32⟩ : BufTy).Contents (Elt F) → (⟨S50000x64, .f32⟩ : BufTy).Contents (Elt F)),
    binary main_v42 main_call1_v0 main_call1_v1 (cmpf .oge : (⟨S50000x64, .f32⟩ : BufTy).Contents (Elt F) → (⟨S50000x64, .f32⟩ : BufTy).Contents (Elt F) → (⟨S50000x64, .i1⟩ : BufTy).Contents (Elt F)),
    unary main_cst_9 main_call1_v2 (id : (⟨S_, .f32⟩ : BufTy).Contents (Elt F) → (⟨S_, .f32⟩ : BufTy).Contents (Elt F)),
    unary main_call1_v2 main_call1_v3 (broadcastInDim S50000x64 ![] bcast_S_S50000x64 : (⟨S_, .f32⟩ : BufTy).Contents (Elt F) → (⟨S50000x64, .f32⟩ : BufTy).Contents (Elt F)),
    binary main_call1_v3 main_v42 main_call1_v4 (mulf : (⟨S50000x64, .f32⟩ : BufTy).Contents (Elt F) → (⟨S50000x64, .f32⟩ : BufTy).Contents (Elt F) → (⟨S50000x64, .f32⟩ : BufTy).Contents (Elt F)),
    ternary main_call1_v1 main_v42 main_call1_v4 main_v43 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

theorem l1_lrelu_sub : (l1_lrelu : List (HloOp τ sig (Elt F))).Forall fun op => op.bufs ⊆ tcRefs τ sig := by
  unfold l1_lrelu; exact ⟨nullary_bufs_sub .., nullary_bufs_sub .., unary_bufs_sub .., binary_bufs_sub .., unary_bufs_sub .., unary_bufs_sub .., binary_bufs_sub .., ternary_bufs_sub ..⟩

theorem l1_lrelu_fresh : ∀ op ∈ (l1_lrelu : List (HloOp τ sig (Elt F))), op.fresh = ∅ := by
  unfold l1_lrelu; intro op h; (repeat (cases h with | head => rfl | tail _ h => ?_)); exact nomatch h

/-- The buffers `l1_lrelu` writes. -/
abbrev l1_lrelu_W : List (Ref sig .tc) := [main_cst_9, main_call1_cst, main_call1_v0, main_call1_v1, main_call1_v2, main_call1_v3, main_call1_v4, main_v43]

theorem l1_lrelu_writes : (l1_lrelu : List (HloOp τ sig (Elt F))).Forall fun op => op.writes ⊆ (l1_lrelu_W.map (Proc.devRef (τ := τ) .tc)).toFinset := by
  unfold l1_lrelu; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l1_lrelu` does not write keeps its contents through it. -/
theorem l1_lrelu_keep (V : Valuation τ sig (Elt F)) (r : Ref sig .tc) (h : r ∉ l1_lrelu_W) :
    after l1_lrelu V (no_index (Proc.devRef .tc r)) = V (Proc.devRef .tc r) :=
  after_of_writes_sub l1_lrelu V l1_lrelu_writes h

/-- Layer 2: the dense product. -/
def l2_dot : List (HloOp τ sig (Elt F)) :=
  [
    binary main_v43 main_arg5 main_v44 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

theorem l2_dot_sub : (l2_dot : List (HloOp τ sig (Elt F))).Forall fun op => op.bufs ⊆ tcRefs τ sig := by
  unfold l2_dot; exact binary_bufs_sub ..

theorem l2_dot_fresh : ∀ op ∈ (l2_dot : List (HloOp τ sig (Elt F))), op.fresh = ∅ := by
  unfold l2_dot; intro op h; (repeat (cases h with | head => rfl | tail _ h => ?_)); exact nomatch h

/-- The buffers `l2_dot` writes. -/
abbrev l2_dot_W : List (Ref sig .tc) := [main_v44]

theorem l2_dot_writes : (l2_dot : List (HloOp τ sig (Elt F))).Forall fun op => op.writes ⊆ (l2_dot_W.map (Proc.devRef (τ := τ) .tc)).toFinset := by
  unfold l2_dot; simp only [List.Forall]
  exact (by simp only [nullary_writes, unary_writes, binary_writes, ternary_writes, Finset.singleton_subset_iff, List.mem_toFinset]; exact List.mem_map_of_mem (by decide))

/-- A buffer `l2_dot` does not write keeps its contents through it. -/
theorem l2_dot_keep (V : Valuation τ sig (Elt F)) (r : Ref sig .tc) (h : r ∉ l2_dot_W) :
    after l2_dot V (no_index (Proc.devRef .tc r)) = V (Proc.devRef .tc r) :=
  after_of_writes_sub l2_dot V l2_dot_writes h

/-- Layer 2: the node numbers and the two edge arrays with self-loops appended. -/
def l2_cats : List (HloOp τ sig (Elt F)) :=
  [
    nullary main_v45 (iotaInDim S50000 32 0),
    binary main_arg1 main_v45 main_v46 (catFn : (⟨S800000, .i32⟩ : BufTy).Contents (Elt F) → (⟨S50000, .i32⟩ : BufTy).Contents (Elt F) → (⟨S850000, .i32⟩ : BufTy).Contents (Elt F)),
    binary main_arg2 main_v45 main_v47 (catFn : (⟨S800000, .i32⟩ : BufTy).Contents (Elt F) → (⟨S50000, .i32⟩ : BufTy).Contents (Elt F) → (⟨S850000, .i32⟩ : BufTy).Contents (Elt F)) ]

theorem l2_cats_sub : (l2_cats : List (HloOp τ sig (Elt F))).Forall fun op => op.bufs ⊆ tcRefs τ sig := by
  unfold l2_cats; exact ⟨nullary_bufs_sub .., binary_bufs_sub .., binary_bufs_sub ..⟩

theorem l2_cats_fresh : ∀ op ∈ (l2_cats : List (HloOp τ sig (Elt F))), op.fresh = ∅ := by
  unfold l2_cats; intro op h; (repeat (cases h with | head => rfl | tail _ h => ?_)); exact nomatch h

/-- The buffers `l2_cats` writes. -/
abbrev l2_cats_W : List (Ref sig .tc) := [main_v45, main_v46, main_v47]

theorem l2_cats_writes : (l2_cats : List (HloOp τ sig (Elt F))).Forall fun op => op.writes ⊆ (l2_cats_W.map (Proc.devRef (τ := τ) .tc)).toFinset := by
  unfold l2_cats; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l2_cats` does not write keeps its contents through it. -/
theorem l2_cats_keep (V : Valuation τ sig (Elt F)) (r : Ref sig .tc) (h : r ∉ l2_cats_W) :
    after l2_cats V (no_index (Proc.devRef .tc r)) = V (Proc.devRef .tc r) :=
  after_of_writes_sub l2_cats V l2_cats_writes h

/-- Layer 2: the in-degrees and their inverse square roots. -/
def l2_dinv : List (HloOp τ sig (Elt F)) :=
  [
    nullary main_cst_10 (constant S_ .f32 0x3F800000#32),
    unary main_cst_10 main_v48 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v49 (broadcastInDim S50000 ![] bcast_S_S50000 : (⟨S_, .f32⟩ : BufTy).Contents (Elt F) → (⟨S50000, .f32⟩ : BufTy).Contents (Elt F)),
    unary main_v47 main_v50 (broadcastInDim S850000x1 ![0] bcast_S850000_S850000x1_0 : (⟨S850000, .i32⟩ : BufTy).Contents (Elt F) → (⟨S850000x1, .i32⟩ : BufTy).Contents (Elt F)),
    ternary main_v49 main_v50 main_v48 main_v51 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v52 (broadcastInDim S50000 ![] bcast_S_S50000 : (⟨S_, .f32⟩ : BufTy).Contents (Elt F) → (⟨S50000, .f32⟩ : BufTy).Contents (Elt F)),
    binary main_v51 main_v52 main_v53 (cmpf .ogt : (⟨S50000, .f32⟩ : BufTy).Contents (Elt F) → (⟨S50000, .f32⟩ : BufTy).Contents (Elt F) → (⟨S50000, .i1⟩ : BufTy).Contents (Elt F)),
    unary main_v51 main_v54 (Host.rsqrt : (⟨S50000, .f32⟩ : BufTy).Contents (Elt F) → (⟨S50000, .f32⟩ : BufTy).Contents (Elt F)),
    nullary main_cst_13 (constant S_ .f32 0x00000000#32),
    unary main_cst_13 main_call2_v0 (id : (⟨S_, .f32⟩ : BufTy).Contents (Elt F) → (⟨S_, .f32⟩ : BufTy).Contents (Elt F)),
    unary main_call2_v0 main_call2_v1 (broadcastInDim S50000 ![] bcast_S_S50000 : (⟨S_, .f32⟩ : BufTy).Contents (Elt F) → (⟨S50000, .f32⟩ : BufTy).Contents (Elt F)),
    ternary main_v53 main_v54 main_call2_v1 main_v55 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

theorem l2_dinv_sub : (l2_dinv : List (HloOp τ sig (Elt F))).Forall fun op => op.bufs ⊆ tcRefs τ sig := by
  unfold l2_dinv; exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

theorem l2_dinv_fresh : ∀ op ∈ (l2_dinv : List (HloOp τ sig (Elt F))), op.fresh = ∅ := by
  unfold l2_dinv; intro op h; (repeat (cases h with | head => rfl | tail _ h => ?_)); exact nomatch h

/-- The buffers `l2_dinv` writes. -/
abbrev l2_dinv_W : List (Ref sig .tc) := [main_cst_10, main_v48, main_cst_11, main_v49, main_v50, main_v51, main_cst_12, main_v52, main_v53, main_v54, main_cst_13, main_call2_v0, main_call2_v1, main_v55]

theorem l2_dinv_writes : (l2_dinv : List (HloOp τ sig (Elt F))).Forall fun op => op.writes ⊆ (l2_dinv_W.map (Proc.devRef (τ := τ) .tc)).toFinset := by
  unfold l2_dinv; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l2_dinv` does not write keeps its contents through it. -/
theorem l2_dinv_keep (V : Valuation τ sig (Elt F)) (r : Ref sig .tc) (h : r ∉ l2_dinv_W) :
    after l2_dinv V (no_index (Proc.devRef .tc r)) = V (Proc.devRef .tc r) :=
  after_of_writes_sub l2_dinv V l2_dinv_writes h

/-- Layer 2: the two wrapped index columns and the edge weights. -/
def l2_norm : List (HloOp τ sig (Elt F)) :=
  [
    nullary main_c_14 (constantI S_ 32 0#32),
    unary main_c_14 main_v56 (broadcastInDim S850000 ![] bcast_S_S850000 : (⟨S_, .i32⟩ : BufTy).Contents (Elt F) → (⟨S850000, .i32⟩ : BufTy).Contents (Elt F)),
    binary main_v46 main_v56 main_v57 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v58 (broadcastInDim S850000 ![] bcast_S_S850000 : (⟨S_, .i32⟩ : BufTy).Contents (Elt F) → (⟨S850000, .i32⟩ : BufTy).Contents (Elt F)),
    binary main_v46 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v46 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v55 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_16 (constantI S_ 32 0#32),
    unary main_c_16 main_v63 (broadcastInDim S850000 ![] bcast_S_S850000 : (⟨S_, .i32⟩ : BufTy).Contents (Elt F) → (⟨S850000, .i32⟩ : BufTy).Contents (Elt F)),
    binary main_v47 main_v63 main_v64 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v65 (broadcastInDim S850000 ![] bcast_S_S850000 : (⟨S_, .i32⟩ : BufTy).Contents (Elt F) → (⟨S850000, .i32⟩ : BufTy).Contents (Elt F)),
    binary main_v47 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v47 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v55 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v62 main_v69 main_v70 (mulf : (⟨S850000, .f32⟩ : BufTy).Contents (Elt F) → (⟨S850000, .f32⟩ : BufTy).Contents (Elt F) → (⟨S850000, .f32⟩ : BufTy).Contents (Elt F)) ]

theorem l2_norm_sub : (l2_norm : List (HloOp τ sig (Elt F))).Forall fun op => op.bufs ⊆ tcRefs τ sig := by
  unfold l2_norm; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem l2_norm_fresh : ∀ op ∈ (l2_norm : List (HloOp τ sig (Elt F))), op.fresh = ∅ := by
  unfold l2_norm; intro op h; (repeat (cases h with | head => rfl | tail _ h => ?_)); exact nomatch h

/-- The buffers `l2_norm` writes. -/
abbrev l2_norm_W : List (Ref sig .tc) := [main_c_14, main_v56, main_v57, main_c_15, main_v58, main_v59, main_v60, main_v61, main_v62, main_c_16, main_v63, main_v64, main_c_17, main_v65, main_v66, main_v67, main_v68, main_v69, main_v70]

theorem l2_norm_writes : (l2_norm : List (HloOp τ sig (Elt F))).Forall fun op => op.writes ⊆ (l2_norm_W.map (Proc.devRef (τ := τ) .tc)).toFinset := by
  unfold l2_norm; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l2_norm` does not write keeps its contents through it. -/
theorem l2_norm_keep (V : Valuation τ sig (Elt F)) (r : Ref sig .tc) (h : r ∉ l2_norm_W) :
    after l2_norm V (no_index (Proc.devRef .tc r)) = V (Proc.devRef .tc r) :=
  after_of_writes_sub l2_norm V l2_norm_writes h

/-- Layer 2: the gathered rows scaled by the edge weights, summed at the destinations, plus the bias. -/
def l2_conv : List (HloOp τ sig (Elt F)) :=
  [
    nullary main_c_18 (constantI S_ 32 0#32),
    unary main_c_18 main_v71 (broadcastInDim S850000 ![] bcast_S_S850000 : (⟨S_, .i32⟩ : BufTy).Contents (Elt F) → (⟨S850000, .i32⟩ : BufTy).Contents (Elt F)),
    binary main_v46 main_v71 main_v72 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v73 (broadcastInDim S850000 ![] bcast_S_S850000 : (⟨S_, .i32⟩ : BufTy).Contents (Elt F) → (⟨S850000, .i32⟩ : BufTy).Contents (Elt F)),
    binary main_v46 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v46 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v44 main_v76 main_v77 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v70 main_v78 (broadcastInDim S850000x1 ![0] bcast_S850000_S850000x1_0 : (⟨S850000, .f32⟩ : BufTy).Contents (Elt F) → (⟨S850000x1, .f32⟩ : BufTy).Contents (Elt F)),
    unary main_v78 main_v79 (broadcastInDim S850000x64 ![0, 1] bcast_S850000x1_S850000x64_0_1 : (⟨S850000x1, .f32⟩ : BufTy).Contents (Elt F) → (⟨S850000x64, .f32⟩ : BufTy).Contents (Elt F)),
    binary main_v77 main_v79 main_v80 (mulf : (⟨S850000x64, .f32⟩ : BufTy).Contents (Elt F) → (⟨S850000x64, .f32⟩ : BufTy).Contents (Elt F) → (⟨S850000x64, .f32⟩ : BufTy).Contents (Elt F)),
    nullary main_cst_20 (constant S_ .f32 0x00000000#32),
    unary main_cst_20 main_v81 (broadcastInDim S50000x64 ![] bcast_S_S50000x64 : (⟨S_, .f32⟩ : BufTy).Contents (Elt F) → (⟨S50000x64, .f32⟩ : BufTy).Contents (Elt F)),
    unary main_v47 main_v82 (broadcastInDim S850000x1 ![0] bcast_S850000_S850000x1_0 : (⟨S850000, .i32⟩ : BufTy).Contents (Elt F) → (⟨S850000x1, .i32⟩ : BufTy).Contents (Elt F)),
    ternary main_v81 main_v82 main_v80 main_v83 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v83 main_v85 main_v86 (addf : (⟨S50000x64, .f32⟩ : BufTy).Contents (Elt F) → (⟨S50000x64, .f32⟩ : BufTy).Contents (Elt F) → (⟨S50000x64, .f32⟩ : BufTy).Contents (Elt F)) ]

theorem l2_conv_sub : (l2_conv : List (HloOp τ sig (Elt F))).Forall fun op => op.bufs ⊆ tcRefs τ sig := by
  unfold l2_conv; exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem l2_conv_fresh : ∀ op ∈ (l2_conv : List (HloOp τ sig (Elt F))), op.fresh = ∅ := by
  unfold l2_conv; intro op h; (repeat (cases h with | head => rfl | tail _ h => ?_)); exact nomatch h

/-- The buffers `l2_conv` writes. -/
abbrev l2_conv_W : List (Ref sig .tc) := [main_c_18, main_v71, main_v72, main_c_19, main_v73, main_v74, main_v75, main_v76, main_v77, main_v78, main_v79, main_v80, main_cst_20, main_v81, main_v82, main_v83, main_v84, main_v85, main_v86]

theorem l2_conv_writes : (l2_conv : List (HloOp τ sig (Elt F))).Forall fun op => op.writes ⊆ (l2_conv_W.map (Proc.devRef (τ := τ) .tc)).toFinset := by
  unfold l2_conv; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l2_conv` does not write keeps its contents through it. -/
theorem l2_conv_keep (V : Valuation τ sig (Elt F)) (r : Ref sig .tc) (h : r ∉ l2_conv_W) :
    after l2_conv V (no_index (Proc.devRef .tc r)) = V (Proc.devRef .tc r) :=
  after_of_writes_sub l2_conv V l2_conv_writes h

/-- Layer 2: the leaky rectifier. -/
def l2_lrelu : List (HloOp τ sig (Elt F)) :=
  [
    nullary main_cst_21 (constant S_ .f32 0x3C23D70A#32),
    nullary main_call3_cst (constant S_ .f32 0x00000000#32 : (⟨S_, .f32⟩ : BufTy).Contents (Elt F)),
    unary main_call3_cst main_call3_v0 (broadcastInDim S50000x64 ![] bcast_S_S50000x64 : (⟨S_, .f32⟩ : BufTy).Contents (Elt F) → (⟨S50000x64, .f32⟩ : BufTy).Contents (Elt F)),
    binary main_v86 main_call3_v0 main_call3_v1 (cmpf .oge : (⟨S50000x64, .f32⟩ : BufTy).Contents (Elt F) → (⟨S50000x64, .f32⟩ : BufTy).Contents (Elt F) → (⟨S50000x64, .i1⟩ : BufTy).Contents (Elt F)),
    unary main_cst_21 main_call3_v2 (id : (⟨S_, .f32⟩ : BufTy).Contents (Elt F) → (⟨S_, .f32⟩ : BufTy).Contents (Elt F)),
    unary main_call3_v2 main_call3_v3 (broadcastInDim S50000x64 ![] bcast_S_S50000x64 : (⟨S_, .f32⟩ : BufTy).Contents (Elt F) → (⟨S50000x64, .f32⟩ : BufTy).Contents (Elt F)),
    binary main_call3_v3 main_v86 main_call3_v4 (mulf : (⟨S50000x64, .f32⟩ : BufTy).Contents (Elt F) → (⟨S50000x64, .f32⟩ : BufTy).Contents (Elt F) → (⟨S50000x64, .f32⟩ : BufTy).Contents (Elt F)),
    ternary main_call3_v1 main_v86 main_call3_v4 main_v87 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

theorem l2_lrelu_sub : (l2_lrelu : List (HloOp τ sig (Elt F))).Forall fun op => op.bufs ⊆ tcRefs τ sig := by
  unfold l2_lrelu; exact ⟨nullary_bufs_sub .., nullary_bufs_sub .., unary_bufs_sub .., binary_bufs_sub .., unary_bufs_sub .., unary_bufs_sub .., binary_bufs_sub .., ternary_bufs_sub ..⟩

theorem l2_lrelu_fresh : ∀ op ∈ (l2_lrelu : List (HloOp τ sig (Elt F))), op.fresh = ∅ := by
  unfold l2_lrelu; intro op h; (repeat (cases h with | head => rfl | tail _ h => ?_)); exact nomatch h

/-- The buffers `l2_lrelu` writes. -/
abbrev l2_lrelu_W : List (Ref sig .tc) := [main_cst_21, main_call3_cst, main_call3_v0, main_call3_v1, main_call3_v2, main_call3_v3, main_call3_v4, main_v87]

theorem l2_lrelu_writes : (l2_lrelu : List (HloOp τ sig (Elt F))).Forall fun op => op.writes ⊆ (l2_lrelu_W.map (Proc.devRef (τ := τ) .tc)).toFinset := by
  unfold l2_lrelu; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l2_lrelu` does not write keeps its contents through it. -/
theorem l2_lrelu_keep (V : Valuation τ sig (Elt F)) (r : Ref sig .tc) (h : r ∉ l2_lrelu_W) :
    after l2_lrelu V (no_index (Proc.devRef .tc r)) = V (Proc.devRef .tc r) :=
  after_of_writes_sub l2_lrelu V l2_lrelu_writes h

/-- Layer 3: the dense product. -/
def l3_dot : List (HloOp τ sig (Elt F)) :=
  [
    binary main_v87 main_arg7 main_v88 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

theorem l3_dot_sub : (l3_dot : List (HloOp τ sig (Elt F))).Forall fun op => op.bufs ⊆ tcRefs τ sig := by
  unfold l3_dot; exact binary_bufs_sub ..

theorem l3_dot_fresh : ∀ op ∈ (l3_dot : List (HloOp τ sig (Elt F))), op.fresh = ∅ := by
  unfold l3_dot; intro op h; (repeat (cases h with | head => rfl | tail _ h => ?_)); exact nomatch h

/-- The buffers `l3_dot` writes. -/
abbrev l3_dot_W : List (Ref sig .tc) := [main_v88]

theorem l3_dot_writes : (l3_dot : List (HloOp τ sig (Elt F))).Forall fun op => op.writes ⊆ (l3_dot_W.map (Proc.devRef (τ := τ) .tc)).toFinset := by
  unfold l3_dot; simp only [List.Forall]
  exact (by simp only [nullary_writes, unary_writes, binary_writes, ternary_writes, Finset.singleton_subset_iff, List.mem_toFinset]; exact List.mem_map_of_mem (by decide))

/-- A buffer `l3_dot` does not write keeps its contents through it. -/
theorem l3_dot_keep (V : Valuation τ sig (Elt F)) (r : Ref sig .tc) (h : r ∉ l3_dot_W) :
    after l3_dot V (no_index (Proc.devRef .tc r)) = V (Proc.devRef .tc r) :=
  after_of_writes_sub l3_dot V l3_dot_writes h

/-- Layer 3: the node numbers and the two edge arrays with self-loops appended. -/
def l3_cats : List (HloOp τ sig (Elt F)) :=
  [
    nullary main_v89 (iotaInDim S50000 32 0),
    binary main_arg1 main_v89 main_v90 (catFn : (⟨S800000, .i32⟩ : BufTy).Contents (Elt F) → (⟨S50000, .i32⟩ : BufTy).Contents (Elt F) → (⟨S850000, .i32⟩ : BufTy).Contents (Elt F)),
    binary main_arg2 main_v89 main_v91 (catFn : (⟨S800000, .i32⟩ : BufTy).Contents (Elt F) → (⟨S50000, .i32⟩ : BufTy).Contents (Elt F) → (⟨S850000, .i32⟩ : BufTy).Contents (Elt F)) ]

theorem l3_cats_sub : (l3_cats : List (HloOp τ sig (Elt F))).Forall fun op => op.bufs ⊆ tcRefs τ sig := by
  unfold l3_cats; exact ⟨nullary_bufs_sub .., binary_bufs_sub .., binary_bufs_sub ..⟩

theorem l3_cats_fresh : ∀ op ∈ (l3_cats : List (HloOp τ sig (Elt F))), op.fresh = ∅ := by
  unfold l3_cats; intro op h; (repeat (cases h with | head => rfl | tail _ h => ?_)); exact nomatch h

/-- The buffers `l3_cats` writes. -/
abbrev l3_cats_W : List (Ref sig .tc) := [main_v89, main_v90, main_v91]

theorem l3_cats_writes : (l3_cats : List (HloOp τ sig (Elt F))).Forall fun op => op.writes ⊆ (l3_cats_W.map (Proc.devRef (τ := τ) .tc)).toFinset := by
  unfold l3_cats; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l3_cats` does not write keeps its contents through it. -/
theorem l3_cats_keep (V : Valuation τ sig (Elt F)) (r : Ref sig .tc) (h : r ∉ l3_cats_W) :
    after l3_cats V (no_index (Proc.devRef .tc r)) = V (Proc.devRef .tc r) :=
  after_of_writes_sub l3_cats V l3_cats_writes h

/-- Layer 3: the in-degrees and their inverse square roots (part a). -/
def l3_dinv_a : List (HloOp τ sig (Elt F)) :=
  [
    nullary main_cst_22 (constant S_ .f32 0x3F800000#32),
    unary main_cst_22 main_v92 (broadcastInDim S850000 ![] bcast_S_S850000 : (⟨S_, .f32⟩ : BufTy).Contents (Elt F) → (⟨S850000, .f32⟩ : BufTy).Contents (Elt F)),
    nullary main_cst_23 (constant S_ .f32 0x00000000#32),
    unary main_cst_23 main_v93 (broadcastInDim S50000 ![] bcast_S_S50000 : (⟨S_, .f32⟩ : BufTy).Contents (Elt F) → (⟨S50000, .f32⟩ : BufTy).Contents (Elt F)) ]

theorem l3_dinv_a_sub : (l3_dinv_a : List (HloOp τ sig (Elt F))).Forall fun op => op.bufs ⊆ tcRefs τ sig := by
  unfold l3_dinv_a; exact ⟨nullary_bufs_sub .., unary_bufs_sub .., nullary_bufs_sub .., unary_bufs_sub ..⟩

theorem l3_dinv_a_fresh : ∀ op ∈ (l3_dinv_a : List (HloOp τ sig (Elt F))), op.fresh = ∅ := by
  unfold l3_dinv_a; intro op h; (repeat (cases h with | head => rfl | tail _ h => ?_)); exact nomatch h

/-- The buffers `l3_dinv_a` writes. -/
abbrev l3_dinv_a_W : List (Ref sig .tc) := [main_cst_22, main_v92, main_cst_23, main_v93]

theorem l3_dinv_a_writes : (l3_dinv_a : List (HloOp τ sig (Elt F))).Forall fun op => op.writes ⊆ (l3_dinv_a_W.map (Proc.devRef (τ := τ) .tc)).toFinset := by
  unfold l3_dinv_a; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l3_dinv_a` does not write keeps its contents through it. -/
theorem l3_dinv_a_keep (V : Valuation τ sig (Elt F)) (r : Ref sig .tc) (h : r ∉ l3_dinv_a_W) :
    after l3_dinv_a V (no_index (Proc.devRef .tc r)) = V (Proc.devRef .tc r) :=
  after_of_writes_sub l3_dinv_a V l3_dinv_a_writes h

/-- Layer 3: the in-degrees and their inverse square roots (part b). -/
def l3_dinv_b : List (HloOp τ sig (Elt F)) :=
  [
    unary main_v91 main_v94 (broadcastInDim S850000x1 ![0] bcast_S850000_S850000x1_0 : (⟨S850000, .i32⟩ : BufTy).Contents (Elt F) → (⟨S850000x1, .i32⟩ : BufTy).Contents (Elt F)),
    ternary main_v93 main_v94 main_v92 main_v95 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_24 (constant S_ .f32 0x00000000#32),
    unary main_cst_24 main_v96 (broadcastInDim S50000 ![] bcast_S_S50000 : (⟨S_, .f32⟩ : BufTy).Contents (Elt F) → (⟨S50000, .f32⟩ : BufTy).Contents (Elt F)),
    binary main_v95 main_v96 main_v97 (cmpf .ogt : (⟨S50000, .f32⟩ : BufTy).Contents (Elt F) → (⟨S50000, .f32⟩ : BufTy).Contents (Elt F) → (⟨S50000, .i1⟩ : BufTy).Contents (Elt F)),
    unary main_v95 main_v98 (Host.rsqrt : (⟨S50000, .f32⟩ : BufTy).Contents (Elt F) → (⟨S50000, .f32⟩ : BufTy).Contents (Elt F)),
    nullary main_cst_25 (constant S_ .f32 0x00000000#32),
    unary main_cst_25 main_call4_v0 (id : (⟨S_, .f32⟩ : BufTy).Contents (Elt F) → (⟨S_, .f32⟩ : BufTy).Contents (Elt F)),
    unary main_call4_v0 main_call4_v1 (broadcastInDim S50000 ![] bcast_S_S50000 : (⟨S_, .f32⟩ : BufTy).Contents (Elt F) → (⟨S50000, .f32⟩ : BufTy).Contents (Elt F)),
    ternary main_v97 main_v98 main_call4_v1 main_v99 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

theorem l3_dinv_b_sub : (l3_dinv_b : List (HloOp τ sig (Elt F))).Forall fun op => op.bufs ⊆ tcRefs τ sig := by
  unfold l3_dinv_b; exact ⟨unary_bufs_sub .., ternary_bufs_sub .., nullary_bufs_sub .., unary_bufs_sub .., binary_bufs_sub .., unary_bufs_sub .., nullary_bufs_sub .., unary_bufs_sub .., unary_bufs_sub .., ternary_bufs_sub ..⟩

theorem l3_dinv_b_fresh : ∀ op ∈ (l3_dinv_b : List (HloOp τ sig (Elt F))), op.fresh = ∅ := by
  unfold l3_dinv_b; intro op h; (repeat (cases h with | head => rfl | tail _ h => ?_)); exact nomatch h

/-- The buffers `l3_dinv_b` writes. -/
abbrev l3_dinv_b_W : List (Ref sig .tc) := [main_v94, main_v95, main_cst_24, main_v96, main_v97, main_v98, main_cst_25, main_call4_v0, main_call4_v1, main_v99]

theorem l3_dinv_b_writes : (l3_dinv_b : List (HloOp τ sig (Elt F))).Forall fun op => op.writes ⊆ (l3_dinv_b_W.map (Proc.devRef (τ := τ) .tc)).toFinset := by
  unfold l3_dinv_b; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l3_dinv_b` does not write keeps its contents through it. -/
theorem l3_dinv_b_keep (V : Valuation τ sig (Elt F)) (r : Ref sig .tc) (h : r ∉ l3_dinv_b_W) :
    after l3_dinv_b V (no_index (Proc.devRef .tc r)) = V (Proc.devRef .tc r) :=
  after_of_writes_sub l3_dinv_b V l3_dinv_b_writes h

/-- Layer 3: the two wrapped index columns and the edge weights. -/
def l3_norm : List (HloOp τ sig (Elt F)) :=
  [
    nullary main_c_26 (constantI S_ 32 0#32),
    unary main_c_26 main_v100 (broadcastInDim S850000 ![] bcast_S_S850000 : (⟨S_, .i32⟩ : BufTy).Contents (Elt F) → (⟨S850000, .i32⟩ : BufTy).Contents (Elt F)),
    binary main_v90 main_v100 main_v101 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v102 (broadcastInDim S850000 ![] bcast_S_S850000 : (⟨S_, .i32⟩ : BufTy).Contents (Elt F) → (⟨S850000, .i32⟩ : BufTy).Contents (Elt F)),
    binary main_v90 main_v102 main_v103 (addi : (⟨S850000, .i32⟩ : BufTy).Contents (Elt F) → (⟨S850000, .i32⟩ : BufTy).Contents (Elt F) → (⟨S850000, .i32⟩ : BufTy).Contents (Elt F)),
    ternary main_v101 main_v103 main_v90 main_v104 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v104 main_v105 (broadcastInDim S850000x1 ![0] bcast_S850000_S850000x1_0 : (⟨S850000, .i32⟩ : BufTy).Contents (Elt F) → (⟨S850000x1, .i32⟩ : BufTy).Contents (Elt F)),
    binary main_v99 main_v105 main_v106 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_28 (constantI S_ 32 0#32),
    unary main_c_28 main_v107 (broadcastInDim S850000 ![] bcast_S_S850000 : (⟨S_, .i32⟩ : BufTy).Contents (Elt F) → (⟨S850000, .i32⟩ : BufTy).Contents (Elt F)),
    binary main_v91 main_v107 main_v108 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v109 (broadcastInDim S850000 ![] bcast_S_S850000 : (⟨S_, .i32⟩ : BufTy).Contents (Elt F) → (⟨S850000, .i32⟩ : BufTy).Contents (Elt F)),
    binary main_v91 main_v109 main_v110 (addi : (⟨S850000, .i32⟩ : BufTy).Contents (Elt F) → (⟨S850000, .i32⟩ : BufTy).Contents (Elt F) → (⟨S850000, .i32⟩ : BufTy).Contents (Elt F)),
    ternary main_v108 main_v110 main_v91 main_v111 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v111 main_v112 (broadcastInDim S850000x1 ![0] bcast_S850000_S850000x1_0 : (⟨S850000, .i32⟩ : BufTy).Contents (Elt F) → (⟨S850000x1, .i32⟩ : BufTy).Contents (Elt F)),
    binary main_v99 main_v112 main_v113 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v106 main_v113 main_v114 (mulf : (⟨S850000, .f32⟩ : BufTy).Contents (Elt F) → (⟨S850000, .f32⟩ : BufTy).Contents (Elt F) → (⟨S850000, .f32⟩ : BufTy).Contents (Elt F)) ]

theorem l3_norm_sub : (l3_norm : List (HloOp τ sig (Elt F))).Forall fun op => op.bufs ⊆ tcRefs τ sig := by
  unfold l3_norm; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem l3_norm_fresh : ∀ op ∈ (l3_norm : List (HloOp τ sig (Elt F))), op.fresh = ∅ := by
  unfold l3_norm; intro op h; (repeat (cases h with | head => rfl | tail _ h => ?_)); exact nomatch h

/-- The buffers `l3_norm` writes. -/
abbrev l3_norm_W : List (Ref sig .tc) := [main_c_26, main_v100, main_v101, main_c_27, main_v102, main_v103, main_v104, main_v105, main_v106, main_c_28, main_v107, main_v108, main_c_29, main_v109, main_v110, main_v111, main_v112, main_v113, main_v114]

theorem l3_norm_writes : (l3_norm : List (HloOp τ sig (Elt F))).Forall fun op => op.writes ⊆ (l3_norm_W.map (Proc.devRef (τ := τ) .tc)).toFinset := by
  unfold l3_norm; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l3_norm` does not write keeps its contents through it. -/
theorem l3_norm_keep (V : Valuation τ sig (Elt F)) (r : Ref sig .tc) (h : r ∉ l3_norm_W) :
    after l3_norm V (no_index (Proc.devRef .tc r)) = V (Proc.devRef .tc r) :=
  after_of_writes_sub l3_norm V l3_norm_writes h

/-- Layer 3: the gathered rows scaled by the edge weights, summed at the destinations, plus the bias. -/
def l3_conv : List (HloOp τ sig (Elt F)) :=
  [
    nullary main_c_30 (constantI S_ 32 0#32),
    unary main_c_30 main_v115 (broadcastInDim S850000 ![] bcast_S_S850000 : (⟨S_, .i32⟩ : BufTy).Contents (Elt F) → (⟨S850000, .i32⟩ : BufTy).Contents (Elt F)),
    binary main_v90 main_v115 main_v116 (cmpi .slt : (⟨S850000, .i32⟩ : BufTy).Contents (Elt F) → (⟨S850000, .i32⟩ : BufTy).Contents (Elt F) → (⟨S850000, .i1⟩ : BufTy).Contents (Elt F)),
    nullary main_c_31 (constantI S_ 32 50000#32),
    unary main_c_31 main_v117 (broadcastInDim S850000 ![] bcast_S_S850000 : (⟨S_, .i32⟩ : BufTy).Contents (Elt F) → (⟨S850000, .i32⟩ : BufTy).Contents (Elt F)),
    binary main_v90 main_v117 main_v118 (addi : (⟨S850000, .i32⟩ : BufTy).Contents (Elt F) → (⟨S850000, .i32⟩ : BufTy).Contents (Elt F) → (⟨S850000, .i32⟩ : BufTy).Contents (Elt F)),
    ternary main_v116 main_v118 main_v90 main_v119 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v119 main_v120 (broadcastInDim S850000x1 ![0] bcast_S850000_S850000x1_0 : (⟨S850000, .i32⟩ : BufTy).Contents (Elt F) → (⟨S850000x1, .i32⟩ : BufTy).Contents (Elt F)),
    binary main_v88 main_v120 main_v121 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v114 main_v122 (broadcastInDim S850000x1 ![0] bcast_S850000_S850000x1_0 : (⟨S850000, .f32⟩ : BufTy).Contents (Elt F) → (⟨S850000x1, .f32⟩ : BufTy).Contents (Elt F)),
    unary main_v122 main_v123 (broadcastInDim S850000x64 ![0, 1] bcast_S850000x1_S850000x64_0_1 : (⟨S850000x1, .f32⟩ : BufTy).Contents (Elt F) → (⟨S850000x64, .f32⟩ : BufTy).Contents (Elt F)),
    binary main_v121 main_v123 main_v124 (mulf : (⟨S850000x64, .f32⟩ : BufTy).Contents (Elt F) → (⟨S850000x64, .f32⟩ : BufTy).Contents (Elt F) → (⟨S850000x64, .f32⟩ : BufTy).Contents (Elt F)),
    nullary main_cst_32 (constant S_ .f32 0x00000000#32),
    unary main_cst_32 main_v125 (broadcastInDim S50000x64 ![] bcast_S_S50000x64 : (⟨S_, .f32⟩ : BufTy).Contents (Elt F) → (⟨S50000x64, .f32⟩ : BufTy).Contents (Elt F)),
    unary main_v91 main_v126 (broadcastInDim S850000x1 ![0] bcast_S850000_S850000x1_0 : (⟨S850000, .i32⟩ : BufTy).Contents (Elt F) → (⟨S850000x1, .i32⟩ : BufTy).Contents (Elt F)),
    ternary main_v125 main_v126 main_v124 main_v127 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg8 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)) ]

theorem l3_conv_sub : (l3_conv : List (HloOp τ sig (Elt F))).Forall fun op => op.bufs ⊆ tcRefs τ sig := by
  unfold l3_conv; exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem l3_conv_fresh : ∀ op ∈ (l3_conv : List (HloOp τ sig (Elt F))), op.fresh = ∅ := by
  unfold l3_conv; intro op h; (repeat (cases h with | head => rfl | tail _ h => ?_)); exact nomatch h

/-- The buffers `l3_conv` writes. -/
abbrev l3_conv_W : List (Ref sig .tc) := [main_c_30, main_v115, main_v116, main_c_31, main_v117, main_v118, main_v119, main_v120, main_v121, main_v122, main_v123, main_v124, main_cst_32, main_v125, main_v126, main_v127, main_v128, main_v129, main_v130]

theorem l3_conv_writes : (l3_conv : List (HloOp τ sig (Elt F))).Forall fun op => op.writes ⊆ (l3_conv_W.map (Proc.devRef (τ := τ) .tc)).toFinset := by
  unfold l3_conv; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l3_conv` does not write keeps its contents through it. -/
theorem l3_conv_keep (V : Valuation τ sig (Elt F)) (r : Ref sig .tc) (h : r ∉ l3_conv_W) :
    after l3_conv V (no_index (Proc.devRef .tc r)) = V (Proc.devRef .tc r) :=
  after_of_writes_sub l3_conv V l3_conv_writes h

/-- Layer 3: the leaky rectifier. -/
def l3_lrelu : List (HloOp τ sig (Elt F)) :=
  [
    nullary main_cst_33 (constant S_ .f32 0x3C23D70A#32),
    nullary main_call5_cst (constant S_ .f32 0x00000000#32 : (⟨S_, .f32⟩ : BufTy).Contents (Elt F)),
    unary main_call5_cst main_call5_v0 (broadcastInDim S50000x64 ![] bcast_S_S50000x64 : (⟨S_, .f32⟩ : BufTy).Contents (Elt F) → (⟨S50000x64, .f32⟩ : BufTy).Contents (Elt F)),
    binary main_v130 main_call5_v0 main_call5_v1 (cmpf .oge : (⟨S50000x64, .f32⟩ : BufTy).Contents (Elt F) → (⟨S50000x64, .f32⟩ : BufTy).Contents (Elt F) → (⟨S50000x64, .i1⟩ : BufTy).Contents (Elt F)),
    unary main_cst_33 main_call5_v2 (id : (⟨S_, .f32⟩ : BufTy).Contents (Elt F) → (⟨S_, .f32⟩ : BufTy).Contents (Elt F)),
    unary main_call5_v2 main_call5_v3 (broadcastInDim S50000x64 ![] bcast_S_S50000x64 : (⟨S_, .f32⟩ : BufTy).Contents (Elt F) → (⟨S50000x64, .f32⟩ : BufTy).Contents (Elt F)),
    binary main_call5_v3 main_v130 main_call5_v4 (mulf : (⟨S50000x64, .f32⟩ : BufTy).Contents (Elt F) → (⟨S50000x64, .f32⟩ : BufTy).Contents (Elt F) → (⟨S50000x64, .f32⟩ : BufTy).Contents (Elt F)),
    ternary main_call5_v1 main_v130 main_call5_v4 main_v131 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

theorem l3_lrelu_sub : (l3_lrelu : List (HloOp τ sig (Elt F))).Forall fun op => op.bufs ⊆ tcRefs τ sig := by
  unfold l3_lrelu; exact ⟨nullary_bufs_sub .., nullary_bufs_sub .., unary_bufs_sub .., binary_bufs_sub .., unary_bufs_sub .., unary_bufs_sub .., binary_bufs_sub .., ternary_bufs_sub ..⟩

theorem l3_lrelu_fresh : ∀ op ∈ (l3_lrelu : List (HloOp τ sig (Elt F))), op.fresh = ∅ := by
  unfold l3_lrelu; intro op h; (repeat (cases h with | head => rfl | tail _ h => ?_)); exact nomatch h

/-- The buffers `l3_lrelu` writes. -/
abbrev l3_lrelu_W : List (Ref sig .tc) := [main_cst_33, main_call5_cst, main_call5_v0, main_call5_v1, main_call5_v2, main_call5_v3, main_call5_v4, main_v131]

theorem l3_lrelu_writes : (l3_lrelu : List (HloOp τ sig (Elt F))).Forall fun op => op.writes ⊆ (l3_lrelu_W.map (Proc.devRef (τ := τ) .tc)).toFinset := by
  unfold l3_lrelu; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l3_lrelu` does not write keeps its contents through it. -/
theorem l3_lrelu_keep (V : Valuation τ sig (Elt F)) (r : Ref sig .tc) (h : r ∉ l3_lrelu_W) :
    after l3_lrelu V (no_index (Proc.devRef .tc r)) = V (Proc.devRef .tc r) :=
  after_of_writes_sub l3_lrelu V l3_lrelu_writes h

/-- Layer 4: the dense product. -/
def l4_dot : List (HloOp τ sig (Elt F)) :=
  [
    binary main_v131 main_arg9 main_v132 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)) ]

theorem l4_dot_sub : (l4_dot : List (HloOp τ sig (Elt F))).Forall fun op => op.bufs ⊆ tcRefs τ sig := by
  unfold l4_dot; exact binary_bufs_sub ..

theorem l4_dot_fresh : ∀ op ∈ (l4_dot : List (HloOp τ sig (Elt F))), op.fresh = ∅ := by
  unfold l4_dot; intro op h; (repeat (cases h with | head => rfl | tail _ h => ?_)); exact nomatch h

/-- The buffers `l4_dot` writes. -/
abbrev l4_dot_W : List (Ref sig .tc) := [main_v132]

theorem l4_dot_writes : (l4_dot : List (HloOp τ sig (Elt F))).Forall fun op => op.writes ⊆ (l4_dot_W.map (Proc.devRef (τ := τ) .tc)).toFinset := by
  unfold l4_dot; simp only [List.Forall]
  exact (by simp only [nullary_writes, unary_writes, binary_writes, ternary_writes, Finset.singleton_subset_iff, List.mem_toFinset]; exact List.mem_map_of_mem (by decide))

/-- A buffer `l4_dot` does not write keeps its contents through it. -/
theorem l4_dot_keep (V : Valuation τ sig (Elt F)) (r : Ref sig .tc) (h : r ∉ l4_dot_W) :
    after l4_dot V (no_index (Proc.devRef .tc r)) = V (Proc.devRef .tc r) :=
  after_of_writes_sub l4_dot V l4_dot_writes h

/-- Layer 4: the node numbers and the two edge arrays with self-loops appended. -/
def l4_cats : List (HloOp τ sig (Elt F)) :=
  [
    nullary main_v133 (iotaInDim S50000 32 0),
    binary main_arg1 main_v133 main_v134 (catFn : (⟨S800000, .i32⟩ : BufTy).Contents (Elt F) → (⟨S50000, .i32⟩ : BufTy).Contents (Elt F) → (⟨S850000, .i32⟩ : BufTy).Contents (Elt F)),
    binary main_arg2 main_v133 main_v135 (catFn : (⟨S800000, .i32⟩ : BufTy).Contents (Elt F) → (⟨S50000, .i32⟩ : BufTy).Contents (Elt F) → (⟨S850000, .i32⟩ : BufTy).Contents (Elt F)) ]

theorem l4_cats_sub : (l4_cats : List (HloOp τ sig (Elt F))).Forall fun op => op.bufs ⊆ tcRefs τ sig := by
  unfold l4_cats; exact ⟨nullary_bufs_sub .., binary_bufs_sub .., binary_bufs_sub ..⟩

theorem l4_cats_fresh : ∀ op ∈ (l4_cats : List (HloOp τ sig (Elt F))), op.fresh = ∅ := by
  unfold l4_cats; intro op h; (repeat (cases h with | head => rfl | tail _ h => ?_)); exact nomatch h

/-- The buffers `l4_cats` writes. -/
abbrev l4_cats_W : List (Ref sig .tc) := [main_v133, main_v134, main_v135]

theorem l4_cats_writes : (l4_cats : List (HloOp τ sig (Elt F))).Forall fun op => op.writes ⊆ (l4_cats_W.map (Proc.devRef (τ := τ) .tc)).toFinset := by
  unfold l4_cats; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l4_cats` does not write keeps its contents through it. -/
theorem l4_cats_keep (V : Valuation τ sig (Elt F)) (r : Ref sig .tc) (h : r ∉ l4_cats_W) :
    after l4_cats V (no_index (Proc.devRef .tc r)) = V (Proc.devRef .tc r) :=
  after_of_writes_sub l4_cats V l4_cats_writes h

/-- Layer 4: the in-degrees and their inverse square roots (part a). -/
def l4_dinv_a : List (HloOp τ sig (Elt F)) :=
  [
    nullary main_cst_34 (constant S_ .f32 0x3F800000#32),
    unary main_cst_34 main_v136 (broadcastInDim S850000 ![] bcast_S_S850000 : (⟨S_, .f32⟩ : BufTy).Contents (Elt F) → (⟨S850000, .f32⟩ : BufTy).Contents (Elt F)),
    nullary main_cst_35 (constant S_ .f32 0x00000000#32),
    unary main_cst_35 main_v137 (broadcastInDim S50000 ![] bcast_S_S50000 : (⟨S_, .f32⟩ : BufTy).Contents (Elt F) → (⟨S50000, .f32⟩ : BufTy).Contents (Elt F)),
    unary main_v135 main_v138 (broadcastInDim S850000x1 ![0] bcast_S850000_S850000x1_0 : (⟨S850000, .i32⟩ : BufTy).Contents (Elt F) → (⟨S850000x1, .i32⟩ : BufTy).Contents (Elt F)),
    ternary main_v137 main_v138 main_v136 main_v139 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_36 (constant S_ .f32 0x00000000#32),
    unary main_cst_36 main_v140 (broadcastInDim S50000 ![] bcast_S_S50000 : (⟨S_, .f32⟩ : BufTy).Contents (Elt F) → (⟨S50000, .f32⟩ : BufTy).Contents (Elt F)) ]

theorem l4_dinv_a_sub : (l4_dinv_a : List (HloOp τ sig (Elt F))).Forall fun op => op.bufs ⊆ tcRefs τ sig := by
  unfold l4_dinv_a; exact ⟨nullary_bufs_sub .., unary_bufs_sub .., nullary_bufs_sub .., unary_bufs_sub .., unary_bufs_sub .., ternary_bufs_sub .., nullary_bufs_sub .., unary_bufs_sub ..⟩

theorem l4_dinv_a_fresh : ∀ op ∈ (l4_dinv_a : List (HloOp τ sig (Elt F))), op.fresh = ∅ := by
  unfold l4_dinv_a; intro op h; (repeat (cases h with | head => rfl | tail _ h => ?_)); exact nomatch h

/-- The buffers `l4_dinv_a` writes. -/
abbrev l4_dinv_a_W : List (Ref sig .tc) := [main_cst_34, main_v136, main_cst_35, main_v137, main_v138, main_v139, main_cst_36, main_v140]

theorem l4_dinv_a_writes : (l4_dinv_a : List (HloOp τ sig (Elt F))).Forall fun op => op.writes ⊆ (l4_dinv_a_W.map (Proc.devRef (τ := τ) .tc)).toFinset := by
  unfold l4_dinv_a; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l4_dinv_a` does not write keeps its contents through it. -/
theorem l4_dinv_a_keep (V : Valuation τ sig (Elt F)) (r : Ref sig .tc) (h : r ∉ l4_dinv_a_W) :
    after l4_dinv_a V (no_index (Proc.devRef .tc r)) = V (Proc.devRef .tc r) :=
  after_of_writes_sub l4_dinv_a V l4_dinv_a_writes h

/-- Layer 4: the in-degrees and their inverse square roots (part b). -/
def l4_dinv_b : List (HloOp τ sig (Elt F)) :=
  [
    binary main_v139 main_v140 main_v141 (cmpf .ogt : (⟨S50000, .f32⟩ : BufTy).Contents (Elt F) → (⟨S50000, .f32⟩ : BufTy).Contents (Elt F) → (⟨S50000, .i1⟩ : BufTy).Contents (Elt F)),
    unary main_v139 main_v142 (Host.rsqrt : (⟨S50000, .f32⟩ : BufTy).Contents (Elt F) → (⟨S50000, .f32⟩ : BufTy).Contents (Elt F)),
    nullary main_cst_37 (constant S_ .f32 0x00000000#32),
    unary main_cst_37 main_call6_v0 (id : (⟨S_, .f32⟩ : BufTy).Contents (Elt F) → (⟨S_, .f32⟩ : BufTy).Contents (Elt F)),
    unary main_call6_v0 main_call6_v1 (broadcastInDim S50000 ![] bcast_S_S50000 : (⟨S_, .f32⟩ : BufTy).Contents (Elt F) → (⟨S50000, .f32⟩ : BufTy).Contents (Elt F)),
    ternary main_v141 main_v142 main_call6_v1 main_v143 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

theorem l4_dinv_b_sub : (l4_dinv_b : List (HloOp τ sig (Elt F))).Forall fun op => op.bufs ⊆ tcRefs τ sig := by
  unfold l4_dinv_b; exact ⟨binary_bufs_sub .., unary_bufs_sub .., nullary_bufs_sub .., unary_bufs_sub .., unary_bufs_sub .., ternary_bufs_sub ..⟩

theorem l4_dinv_b_fresh : ∀ op ∈ (l4_dinv_b : List (HloOp τ sig (Elt F))), op.fresh = ∅ := by
  unfold l4_dinv_b; intro op h; (repeat (cases h with | head => rfl | tail _ h => ?_)); exact nomatch h

/-- The buffers `l4_dinv_b` writes. -/
abbrev l4_dinv_b_W : List (Ref sig .tc) := [main_v141, main_v142, main_cst_37, main_call6_v0, main_call6_v1, main_v143]

theorem l4_dinv_b_writes : (l4_dinv_b : List (HloOp τ sig (Elt F))).Forall fun op => op.writes ⊆ (l4_dinv_b_W.map (Proc.devRef (τ := τ) .tc)).toFinset := by
  unfold l4_dinv_b; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l4_dinv_b` does not write keeps its contents through it. -/
theorem l4_dinv_b_keep (V : Valuation τ sig (Elt F)) (r : Ref sig .tc) (h : r ∉ l4_dinv_b_W) :
    after l4_dinv_b V (no_index (Proc.devRef .tc r)) = V (Proc.devRef .tc r) :=
  after_of_writes_sub l4_dinv_b V l4_dinv_b_writes h

/-- Layer 4: the two wrapped index columns and the edge weights. -/
def l4_norm : List (HloOp τ sig (Elt F)) :=
  [
    nullary main_c_38 (constantI S_ 32 0#32),
    unary main_c_38 main_v144 (broadcastInDim S850000 ![] bcast_S_S850000 : (⟨S_, .i32⟩ : BufTy).Contents (Elt F) → (⟨S850000, .i32⟩ : BufTy).Contents (Elt F)),
    binary main_v134 main_v144 main_v145 (cmpi .slt : (⟨S850000, .i32⟩ : BufTy).Contents (Elt F) → (⟨S850000, .i32⟩ : BufTy).Contents (Elt F) → (⟨S850000, .i1⟩ : BufTy).Contents (Elt F)),
    nullary main_c_39 (constantI S_ 32 50000#32),
    unary main_c_39 main_v146 (broadcastInDim S850000 ![] bcast_S_S850000 : (⟨S_, .i32⟩ : BufTy).Contents (Elt F) → (⟨S850000, .i32⟩ : BufTy).Contents (Elt F)),
    binary main_v134 main_v146 main_v147 (addi : (⟨S850000, .i32⟩ : BufTy).Contents (Elt F) → (⟨S850000, .i32⟩ : BufTy).Contents (Elt F) → (⟨S850000, .i32⟩ : BufTy).Contents (Elt F)),
    ternary main_v145 main_v147 main_v134 main_v148 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v148 main_v149 (broadcastInDim S850000x1 ![0] bcast_S850000_S850000x1_0 : (⟨S850000, .i32⟩ : BufTy).Contents (Elt F) → (⟨S850000x1, .i32⟩ : BufTy).Contents (Elt F)),
    binary main_v143 main_v149 main_v150 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_40 (constantI S_ 32 0#32),
    unary main_c_40 main_v151 (broadcastInDim S850000 ![] bcast_S_S850000 : (⟨S_, .i32⟩ : BufTy).Contents (Elt F) → (⟨S850000, .i32⟩ : BufTy).Contents (Elt F)),
    binary main_v135 main_v151 main_v152 (cmpi .slt : (⟨S850000, .i32⟩ : BufTy).Contents (Elt F) → (⟨S850000, .i32⟩ : BufTy).Contents (Elt F) → (⟨S850000, .i1⟩ : BufTy).Contents (Elt F)),
    nullary main_c_41 (constantI S_ 32 50000#32),
    unary main_c_41 main_v153 (broadcastInDim S850000 ![] bcast_S_S850000 : (⟨S_, .i32⟩ : BufTy).Contents (Elt F) → (⟨S850000, .i32⟩ : BufTy).Contents (Elt F)),
    binary main_v135 main_v153 main_v154 (addi : (⟨S850000, .i32⟩ : BufTy).Contents (Elt F) → (⟨S850000, .i32⟩ : BufTy).Contents (Elt F) → (⟨S850000, .i32⟩ : BufTy).Contents (Elt F)),
    ternary main_v152 main_v154 main_v135 main_v155 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v155 main_v156 (broadcastInDim S850000x1 ![0] bcast_S850000_S850000x1_0 : (⟨S850000, .i32⟩ : BufTy).Contents (Elt F) → (⟨S850000x1, .i32⟩ : BufTy).Contents (Elt F)),
    binary main_v143 main_v156 main_v157 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v150 main_v157 main_v158 (mulf : (⟨S850000, .f32⟩ : BufTy).Contents (Elt F) → (⟨S850000, .f32⟩ : BufTy).Contents (Elt F) → (⟨S850000, .f32⟩ : BufTy).Contents (Elt F)) ]

theorem l4_norm_sub : (l4_norm : List (HloOp τ sig (Elt F))).Forall fun op => op.bufs ⊆ tcRefs τ sig := by
  unfold l4_norm; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem l4_norm_fresh : ∀ op ∈ (l4_norm : List (HloOp τ sig (Elt F))), op.fresh = ∅ := by
  unfold l4_norm; intro op h; (repeat (cases h with | head => rfl | tail _ h => ?_)); exact nomatch h

/-- The buffers `l4_norm` writes. -/
abbrev l4_norm_W : List (Ref sig .tc) := [main_c_38, main_v144, main_v145, main_c_39, main_v146, main_v147, main_v148, main_v149, main_v150, main_c_40, main_v151, main_v152, main_c_41, main_v153, main_v154, main_v155, main_v156, main_v157, main_v158]

theorem l4_norm_writes : (l4_norm : List (HloOp τ sig (Elt F))).Forall fun op => op.writes ⊆ (l4_norm_W.map (Proc.devRef (τ := τ) .tc)).toFinset := by
  unfold l4_norm; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l4_norm` does not write keeps its contents through it. -/
theorem l4_norm_keep (V : Valuation τ sig (Elt F)) (r : Ref sig .tc) (h : r ∉ l4_norm_W) :
    after l4_norm V (no_index (Proc.devRef .tc r)) = V (Proc.devRef .tc r) :=
  after_of_writes_sub l4_norm V l4_norm_writes h

/-- Layer 4: the gathered rows scaled by the edge weights, summed at the destinations, plus the bias. -/
def l4_conv : List (HloOp τ sig (Elt F)) :=
  [
    nullary main_c_42 (constantI S_ 32 0#32),
    unary main_c_42 main_v159 (broadcastInDim S850000 ![] bcast_S_S850000 : (⟨S_, .i32⟩ : BufTy).Contents (Elt F) → (⟨S850000, .i32⟩ : BufTy).Contents (Elt F)),
    binary main_v134 main_v159 main_v160 (cmpi .slt : (⟨S850000, .i32⟩ : BufTy).Contents (Elt F) → (⟨S850000, .i32⟩ : BufTy).Contents (Elt F) → (⟨S850000, .i1⟩ : BufTy).Contents (Elt F)),
    nullary main_c_43 (constantI S_ 32 50000#32),
    unary main_c_43 main_v161 (broadcastInDim S850000 ![] bcast_S_S850000 : (⟨S_, .i32⟩ : BufTy).Contents (Elt F) → (⟨S850000, .i32⟩ : BufTy).Contents (Elt F)),
    binary main_v134 main_v161 main_v162 (addi : (⟨S850000, .i32⟩ : BufTy).Contents (Elt F) → (⟨S850000, .i32⟩ : BufTy).Contents (Elt F) → (⟨S850000, .i32⟩ : BufTy).Contents (Elt F)),
    ternary main_v160 main_v162 main_v134 main_v163 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v163 main_v164 (broadcastInDim S850000x1 ![0] bcast_S850000_S850000x1_0 : (⟨S850000, .i32⟩ : BufTy).Contents (Elt F) → (⟨S850000x1, .i32⟩ : BufTy).Contents (Elt F)),
    binary main_v132 main_v164 main_v165 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    unary main_v158 main_v166 (broadcastInDim S850000x1 ![0] bcast_S850000_S850000x1_0 : (⟨S850000, .f32⟩ : BufTy).Contents (Elt F) → (⟨S850000x1, .f32⟩ : BufTy).Contents (Elt F)),
    unary main_v166 main_v167 (broadcastInDim S850000x32 ![0, 1] bcast_S850000x1_S850000x32_0_1 : (⟨S850000x1, .f32⟩ : BufTy).Contents (Elt F) → (⟨S850000x32, .f32⟩ : BufTy).Contents (Elt F)),
    binary main_v165 main_v167 main_v168 (mulf : (⟨S850000x32, .f32⟩ : BufTy).Contents (Elt F) → (⟨S850000x32, .f32⟩ : BufTy).Contents (Elt F) → (⟨S850000x32, .f32⟩ : BufTy).Contents (Elt F)),
    nullary main_cst_44 (constant S_ .f32 0x00000000#32),
    unary main_cst_44 main_v169 (broadcastInDim S50000x32 ![] bcast_S_S50000x32 : (⟨S_, .f32⟩ : BufTy).Contents (Elt F) → (⟨S50000x32, .f32⟩ : BufTy).Contents (Elt F)),
    unary main_v135 main_v170 (broadcastInDim S850000x1 ![0] bcast_S850000_S850000x1_0 : (⟨S850000, .i32⟩ : BufTy).Contents (Elt F) → (⟨S850000x1, .i32⟩ : BufTy).Contents (Elt F)),
    ternary main_v169 main_v170 main_v168 main_v171 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_arg10 main_v172 (broadcastInDim S1x32 ![1] bcast_S32_S1x32_1 : (⟨S32, .f32⟩ : BufTy).Contents (Elt F) → (⟨S1x32, .f32⟩ : BufTy).Contents (Elt F)),
    unary main_v172 main_v173 (broadcastInDim S50000x32 ![0, 1] bcast_S1x32_S50000x32_0_1 : (⟨S1x32, .f32⟩ : BufTy).Contents (Elt F) → (⟨S50000x32, .f32⟩ : BufTy).Contents (Elt F)),
    binary main_v171 main_v173 main_v174 (addf : (⟨S50000x32, .f32⟩ : BufTy).Contents (Elt F) → (⟨S50000x32, .f32⟩ : BufTy).Contents (Elt F) → (⟨S50000x32, .f32⟩ : BufTy).Contents (Elt F)) ]

theorem l4_conv_sub : (l4_conv : List (HloOp τ sig (Elt F))).Forall fun op => op.bufs ⊆ tcRefs τ sig := by
  unfold l4_conv; exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem l4_conv_fresh : ∀ op ∈ (l4_conv : List (HloOp τ sig (Elt F))), op.fresh = ∅ := by
  unfold l4_conv; intro op h; (repeat (cases h with | head => rfl | tail _ h => ?_)); exact nomatch h

/-- The buffers `l4_conv` writes. -/
abbrev l4_conv_W : List (Ref sig .tc) := [main_c_42, main_v159, main_v160, main_c_43, main_v161, main_v162, main_v163, main_v164, main_v165, main_v166, main_v167, main_v168, main_cst_44, main_v169, main_v170, main_v171, main_v172, main_v173, main_v174]

theorem l4_conv_writes : (l4_conv : List (HloOp τ sig (Elt F))).Forall fun op => op.writes ⊆ (l4_conv_W.map (Proc.devRef (τ := τ) .tc)).toFinset := by
  unfold l4_conv; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l4_conv` does not write keeps its contents through it. -/
theorem l4_conv_keep (V : Valuation τ sig (Elt F)) (r : Ref sig .tc) (h : r ∉ l4_conv_W) :
    after l4_conv V (no_index (Proc.devRef .tc r)) = V (Proc.devRef .tc r) :=
  after_of_writes_sub l4_conv V l4_conv_writes h

/-- Layer 4: the leaky rectifier. -/
def l4_lrelu : List (HloOp τ sig (Elt F)) :=
  [
    nullary main_cst_45 (constant S_ .f32 0x3C23D70A#32),
    nullary main_call7_cst (constant S_ .f32 0x00000000#32 : (⟨S_, .f32⟩ : BufTy).Contents (Elt F)),
    unary main_call7_cst main_call7_v0 (broadcastInDim S50000x32 ![] bcast_S_S50000x32 : (⟨S_, .f32⟩ : BufTy).Contents (Elt F) → (⟨S50000x32, .f32⟩ : BufTy).Contents (Elt F)),
    binary main_v174 main_call7_v0 main_call7_v1 (cmpf .oge : (⟨S50000x32, .f32⟩ : BufTy).Contents (Elt F) → (⟨S50000x32, .f32⟩ : BufTy).Contents (Elt F) → (⟨S50000x32, .i1⟩ : BufTy).Contents (Elt F)),
    unary main_cst_45 main_call7_v2 (id : (⟨S_, .f32⟩ : BufTy).Contents (Elt F) → (⟨S_, .f32⟩ : BufTy).Contents (Elt F)),
    unary main_call7_v2 main_call7_v3 (broadcastInDim S50000x32 ![] bcast_S_S50000x32 : (⟨S_, .f32⟩ : BufTy).Contents (Elt F) → (⟨S50000x32, .f32⟩ : BufTy).Contents (Elt F)),
    binary main_call7_v3 main_v174 main_call7_v4 (mulf : (⟨S50000x32, .f32⟩ : BufTy).Contents (Elt F) → (⟨S50000x32, .f32⟩ : BufTy).Contents (Elt F) → (⟨S50000x32, .f32⟩ : BufTy).Contents (Elt F)),
    ternary main_call7_v1 main_v174 main_call7_v4 main_v175 (select : (⟨S50000x32, .i1⟩ : BufTy).Contents (Elt F) → (⟨S50000x32, .f32⟩ : BufTy).Contents (Elt F) → (⟨S50000x32, .f32⟩ : BufTy).Contents (Elt F) → (⟨S50000x32, .f32⟩ : BufTy).Contents (Elt F)) ]

theorem l4_lrelu_sub : (l4_lrelu : List (HloOp τ sig (Elt F))).Forall fun op => op.bufs ⊆ tcRefs τ sig := by
  unfold l4_lrelu; exact ⟨nullary_bufs_sub .., nullary_bufs_sub .., unary_bufs_sub .., binary_bufs_sub .., unary_bufs_sub .., unary_bufs_sub .., binary_bufs_sub .., ternary_bufs_sub ..⟩

theorem l4_lrelu_fresh : ∀ op ∈ (l4_lrelu : List (HloOp τ sig (Elt F))), op.fresh = ∅ := by
  unfold l4_lrelu; intro op h; (repeat (cases h with | head => rfl | tail _ h => ?_)); exact nomatch h

/-- The buffers `l4_lrelu` writes. -/
abbrev l4_lrelu_W : List (Ref sig .tc) := [main_cst_45, main_call7_cst, main_call7_v0, main_call7_v1, main_call7_v2, main_call7_v3, main_call7_v4, main_v175]

theorem l4_lrelu_writes : (l4_lrelu : List (HloOp τ sig (Elt F))).Forall fun op => op.writes ⊆ (l4_lrelu_W.map (Proc.devRef (τ := τ) .tc)).toFinset := by
  unfold l4_lrelu; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `l4_lrelu` does not write keeps its contents through it. -/
theorem l4_lrelu_keep (V : Valuation τ sig (Elt F)) (r : Ref sig .tc) (h : r ∉ l4_lrelu_W) :
    after l4_lrelu V (no_index (Proc.devRef .tc r)) = V (Proc.devRef .tc r) :=
  after_of_writes_sub l4_lrelu V l4_lrelu_writes h

/-- The tail: the row softmax. -/
def t_softmax : List (HloOp τ sig (Elt F)) :=
  [
    nullary main_cst_46 (constant S_ .f32 0xFF800000#32),
    binary main_v175 main_cst_46 main_v176 ((fun x v => Host.reduce FloatOps.maximumf x v reducesTo_S50000x32_S50000_d1 h_S_) : (⟨S50000x32, .f32⟩ : BufTy).Contents (Elt F) → (⟨S_, .f32⟩ : BufTy).Contents (Elt F) → (⟨S50000, .f32⟩ : BufTy).Contents (Elt F)),
    nullary main_cst_47 (constant S_ .f32 0xFF800000#32),
    unary main_cst_47 main_v177 (broadcastInDim S50000 ![] bcast_S_S50000 : (⟨S_, .f32⟩ : BufTy).Contents (Elt F) → (⟨S50000, .f32⟩ : BufTy).Contents (Elt F)),
    binary main_v177 main_v176 main_v178 (maximumf : (⟨S50000, .f32⟩ : BufTy).Contents (Elt F) → (⟨S50000, .f32⟩ : BufTy).Contents (Elt F) → (⟨S50000, .f32⟩ : BufTy).Contents (Elt F)),
    unary main_v178 main_v179 (broadcastInDim S50000x1 ![0] bcast_S50000_S50000x1_0 : (⟨S50000, .f32⟩ : BufTy).Contents (Elt F) → (⟨S50000x1, .f32⟩ : BufTy).Contents (Elt F)),
    unary main_v179 main_v180 (broadcastInDim S50000x32 ![0, 1] bcast_S50000x1_S50000x32_0_1 : (⟨S50000x1, .f32⟩ : BufTy).Contents (Elt F) → (⟨S50000x32, .f32⟩ : BufTy).Contents (Elt F)),
    binary main_v175 main_v180 main_v181 (subf : (⟨S50000x32, .f32⟩ : BufTy).Contents (Elt F) → (⟨S50000x32, .f32⟩ : BufTy).Contents (Elt F) → (⟨S50000x32, .f32⟩ : BufTy).Contents (Elt F)),
    unary main_v181 main_v182 (Host.exp : (⟨S50000x32, .f32⟩ : BufTy).Contents (Elt F) → (⟨S50000x32, .f32⟩ : BufTy).Contents (Elt F)),
    nullary main_cst_48 (constant S_ .f32 0x00000000#32),
    binary main_v182 main_cst_48 main_v183 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v183 main_v184 (broadcastInDim S50000x1 ![0] bcast_S50000_S50000x1_0 : (⟨S50000, .f32⟩ : BufTy).Contents (Elt F) → (⟨S50000x1, .f32⟩ : BufTy).Contents (Elt F)),
    unary main_v184 main_v185 (broadcastInDim S50000x32 ![0, 1] bcast_S50000x1_S50000x32_0_1 : (⟨S50000x1, .f32⟩ : BufTy).Contents (Elt F) → (⟨S50000x32, .f32⟩ : BufTy).Contents (Elt F)),
    binary main_v182 main_v185 main_v186 (Host.divf : (⟨S50000x32, .f32⟩ : BufTy).Contents (Elt F) → (⟨S50000x32, .f32⟩ : BufTy).Contents (Elt F) → (⟨S50000x32, .f32⟩ : BufTy).Contents (Elt F)) ]

theorem t_softmax_sub : (t_softmax : List (HloOp τ sig (Elt F))).Forall fun op => op.bufs ⊆ tcRefs τ sig := by
  unfold t_softmax; exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem t_softmax_fresh : ∀ op ∈ (t_softmax : List (HloOp τ sig (Elt F))), op.fresh = ∅ := by
  unfold t_softmax; intro op h; (repeat (cases h with | head => rfl | tail _ h => ?_)); exact nomatch h

/-- The buffers `t_softmax` writes. -/
abbrev t_softmax_W : List (Ref sig .tc) := [main_cst_46, main_v176, main_cst_47, main_v177, main_v178, main_v179, main_v180, main_v181, main_v182, main_cst_48, main_v183, main_v184, main_v185, main_v186]

theorem t_softmax_writes : (t_softmax : List (HloOp τ sig (Elt F))).Forall fun op => op.writes ⊆ (t_softmax_W.map (Proc.devRef (τ := τ) .tc)).toFinset := by
  unfold t_softmax; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `t_softmax` does not write keeps its contents through it. -/
theorem t_softmax_keep (V : Valuation τ sig (Elt F)) (r : Ref sig .tc) (h : r ∉ t_softmax_W) :
    after t_softmax V (no_index (Proc.devRef .tc r)) = V (Proc.devRef .tc r) :=
  after_of_writes_sub t_softmax V t_softmax_writes h

/-- The tail: the division of each row by its maximum (part a). -/
def t_concepts_a : List (HloOp τ sig (Elt F)) :=
  [
    nullary main_cst_49 (constant S_ .f32 0xFF800000#32),
    binary main_v186 main_cst_49 main_v187 ((fun x v => Host.reduce FloatOps.maximumf x v reducesTo_S50000x32_S50000_d1 h_S_) : (⟨S50000x32, .f32⟩ : BufTy).Contents (Elt F) → (⟨S_, .f32⟩ : BufTy).Contents (Elt F) → (⟨S50000, .f32⟩ : BufTy).Contents (Elt F)) ]

theorem t_concepts_a_sub : (t_concepts_a : List (HloOp τ sig (Elt F))).Forall fun op => op.bufs ⊆ tcRefs τ sig := by
  unfold t_concepts_a; exact ⟨nullary_bufs_sub .., binary_bufs_sub ..⟩

theorem t_concepts_a_fresh : ∀ op ∈ (t_concepts_a : List (HloOp τ sig (Elt F))), op.fresh = ∅ := by
  unfold t_concepts_a; intro op h; (repeat (cases h with | head => rfl | tail _ h => ?_)); exact nomatch h

/-- The buffers `t_concepts_a` writes. -/
abbrev t_concepts_a_W : List (Ref sig .tc) := [main_cst_49, main_v187]

theorem t_concepts_a_writes : (t_concepts_a : List (HloOp τ sig (Elt F))).Forall fun op => op.writes ⊆ (t_concepts_a_W.map (Proc.devRef (τ := τ) .tc)).toFinset := by
  unfold t_concepts_a; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `t_concepts_a` does not write keeps its contents through it. -/
theorem t_concepts_a_keep (V : Valuation τ sig (Elt F)) (r : Ref sig .tc) (h : r ∉ t_concepts_a_W) :
    after t_concepts_a V (no_index (Proc.devRef .tc r)) = V (Proc.devRef .tc r) :=
  after_of_writes_sub t_concepts_a V t_concepts_a_writes h

/-- The tail: the division of each row by its maximum (part b). -/
def t_concepts_b : List (HloOp τ sig (Elt F)) :=
  [
    unary main_v187 main_v188 (broadcastInDim S50000x1 ![0] bcast_S50000_S50000x1_0 : (⟨S50000, .f32⟩ : BufTy).Contents (Elt F) → (⟨S50000x1, .f32⟩ : BufTy).Contents (Elt F)),
    unary main_v188 main_v189 (broadcastInDim S50000x32 ![0, 1] bcast_S50000x1_S50000x32_0_1 : (⟨S50000x1, .f32⟩ : BufTy).Contents (Elt F) → (⟨S50000x32, .f32⟩ : BufTy).Contents (Elt F)),
    binary main_v186 main_v189 main_v190 (Host.divf : (⟨S50000x32, .f32⟩ : BufTy).Contents (Elt F) → (⟨S50000x32, .f32⟩ : BufTy).Contents (Elt F) → (⟨S50000x32, .f32⟩ : BufTy).Contents (Elt F)) ]

theorem t_concepts_b_sub : (t_concepts_b : List (HloOp τ sig (Elt F))).Forall fun op => op.bufs ⊆ tcRefs τ sig := by
  unfold t_concepts_b; exact ⟨unary_bufs_sub .., unary_bufs_sub .., binary_bufs_sub ..⟩

theorem t_concepts_b_fresh : ∀ op ∈ (t_concepts_b : List (HloOp τ sig (Elt F))), op.fresh = ∅ := by
  unfold t_concepts_b; intro op h; (repeat (cases h with | head => rfl | tail _ h => ?_)); exact nomatch h

/-- The buffers `t_concepts_b` writes. -/
abbrev t_concepts_b_W : List (Ref sig .tc) := [main_v188, main_v189, main_v190]

theorem t_concepts_b_writes : (t_concepts_b : List (HloOp τ sig (Elt F))).Forall fun op => op.writes ⊆ (t_concepts_b_W.map (Proc.devRef (τ := τ) .tc)).toFinset := by
  unfold t_concepts_b; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `t_concepts_b` does not write keeps its contents through it. -/
theorem t_concepts_b_keep (V : Valuation τ sig (Elt F)) (r : Ref sig .tc) (h : r ∉ t_concepts_b_W) :
    after t_concepts_b V (no_index (Proc.devRef .tc r)) = V (Proc.devRef .tc r) :=
  after_of_writes_sub t_concepts_b V t_concepts_b_writes h

/-- The tail: the last affine map. -/
def t_logits : List (HloOp τ sig (Elt F)) :=
  [
    binary main_v190 main_arg11 main_v191 ((fun l r => Host.dotGeneral dot_S50000x32_S32x4_S50000x4_1_0_0_1_n_n none l r) : (⟨S50000x32, .f32⟩ : BufTy).Contents (Elt F) → (⟨S32x4, .f32⟩ : BufTy).Contents (Elt F) → (⟨S50000x4, .f32⟩ : BufTy).Contents (Elt F)),
    unary main_arg12 main_v192 (broadcastInDim S1x4 ![1] bcast_S4_S1x4_1 : (⟨S4, .f32⟩ : BufTy).Contents (Elt F) → (⟨S1x4, .f32⟩ : BufTy).Contents (Elt F)),
    unary main_v192 main_v193 (broadcastInDim S50000x4 ![0, 1] bcast_S1x4_S50000x4_0_1 : (⟨S1x4, .f32⟩ : BufTy).Contents (Elt F) → (⟨S50000x4, .f32⟩ : BufTy).Contents (Elt F)),
    binary main_v191 main_v193 main_v194 (addf : (⟨S50000x4, .f32⟩ : BufTy).Contents (Elt F) → (⟨S50000x4, .f32⟩ : BufTy).Contents (Elt F) → (⟨S50000x4, .f32⟩ : BufTy).Contents (Elt F)) ]

theorem t_logits_sub : (t_logits : List (HloOp τ sig (Elt F))).Forall fun op => op.bufs ⊆ tcRefs τ sig := by
  unfold t_logits; exact ⟨binary_bufs_sub .., unary_bufs_sub .., unary_bufs_sub .., binary_bufs_sub ..⟩

theorem t_logits_fresh : ∀ op ∈ (t_logits : List (HloOp τ sig (Elt F))), op.fresh = ∅ := by
  unfold t_logits; intro op h; (repeat (cases h with | head => rfl | tail _ h => ?_)); exact nomatch h

/-- The buffers `t_logits` writes. -/
abbrev t_logits_W : List (Ref sig .tc) := [main_v191, main_v192, main_v193, main_v194]

theorem t_logits_writes : (t_logits : List (HloOp τ sig (Elt F))).Forall fun op => op.writes ⊆ (t_logits_W.map (Proc.devRef (τ := τ) .tc)).toFinset := by
  unfold t_logits; simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `t_logits` does not write keeps its contents through it. -/
theorem t_logits_keep (V : Valuation τ sig (Elt F)) (r : Ref sig .tc) (h : r ∉ t_logits_W) :
    after t_logits V (no_index (Proc.devRef .tc r)) = V (Proc.devRef .tc r) :=
  after_of_writes_sub t_logits V t_logits_writes h

set_option maxRecDepth 16384 in
set_option maxHeartbeats 4000000 in
/-- Window 0 of @main is its pieces in a row: the outlined functions unfolded at their calls, the sequencing
    reassociated, the two sides are one chain of the same steps. -/
theorem main_part0_eq (c : Dev nD) : main_part0 (F := F) c = seq (l1_dot ++ (l1_cats ++ (l1_dinv ++ (l1_norm ++ (l1_conv ++ (l1_lrelu ++ (l2_dot ++ (l2_cats)))))))) := by
  simp only [main_part0, fn_where.body, fn_leaky_relu.body, fn_where_0.body, bind_assoc, pure_bind]
  rfl

set_option maxRecDepth 16384 in
set_option maxHeartbeats 4000000 in
/-- Window 1 of @main is its pieces in a row: the outlined functions unfolded at their calls, the sequencing
    reassociated, the two sides are one chain of the same steps. -/
theorem main_part1_eq (c : Dev nD) : main_part1 (F := F) c = seq (l2_dinv ++ (l2_norm ++ (l2_conv ++ (l2_lrelu ++ (l3_dot ++ (l3_cats ++ (l3_dinv_a))))))) := by
  simp only [main_part1, fn_where.body, fn_leaky_relu.body, fn_where_0.body, bind_assoc, pure_bind]
  rfl

set_option maxRecDepth 16384 in
set_option maxHeartbeats 4000000 in
/-- Window 2 of @main is its pieces in a row: the outlined functions unfolded at their calls, the sequencing
    reassociated, the two sides are one chain of the same steps. -/
theorem main_part2_eq (c : Dev nD) : main_part2 (F := F) c = seq (l3_dinv_b ++ (l3_norm ++ (l3_conv ++ (l3_lrelu ++ (l4_dot ++ (l4_cats ++ (l4_dinv_a))))))) := by
  simp only [main_part2, fn_where.body, fn_leaky_relu.body, fn_where_0.body, bind_assoc, pure_bind]
  rfl

set_option maxRecDepth 16384 in
set_option maxHeartbeats 4000000 in
/-- Window 3 of @main is its pieces in a row: the outlined functions unfolded at their calls, the sequencing
    reassociated, the two sides are one chain of the same steps. -/
theorem main_part3_eq (c : Dev nD) : main_part3 (F := F) c = seq (l4_dinv_b ++ (l4_norm ++ (l4_conv ++ (l4_lrelu ++ (t_softmax ++ (t_concepts_a)))))) := by
  simp only [main_part3, fn_where.body, fn_leaky_relu_1.body, fn_where_2.body, bind_assoc, pure_bind]
  rfl

set_option maxRecDepth 16384 in
set_option maxHeartbeats 4000000 in
/-- Window 4 of @main is its pieces in a row: the outlined functions unfolded at their calls, the sequencing
    reassociated, the two sides are one chain of the same steps. -/
theorem main_part4_eq (c : Dev nD) : main_part4 (F := F) c = seq (t_concepts_b ++ (t_logits)) := by
  simp only [main_part4, bind_assoc, pure_bind]
  rfl

/-- @main's 279 operations, the eight calls inlined, in order. -/
def ops : List (HloOp τ sig (Elt F)) :=
  l1_dot ++ (l1_cats ++ (l1_dinv ++ (l1_norm ++ (l1_conv ++ (l1_lrelu ++ (l2_dot ++ (l2_cats ++ (l2_dinv ++ (l2_norm ++ (l2_conv ++ (l2_lrelu ++ (l3_dot ++ (l3_cats ++ (l3_dinv_a ++ (l3_dinv_b ++ (l3_norm ++ (l3_conv ++ (l3_lrelu ++ (l4_dot ++ (l4_cats ++ (l4_dinv_a ++ (l4_dinv_b ++ (l4_norm ++ (l4_conv ++ (l4_lrelu ++ (t_softmax ++ (t_concepts_a ++ (t_concepts_b ++ (t_logits)))))))))))))))))))))))))))))

set_option maxRecDepth 8192 in
theorem main_eq (c : Dev nD) : main (F := F) c = seq ops := by
  simp only [main, main_part0_eq, main_part1_eq, main_part2_eq, main_part3_eq, main_part4_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h | h | h | h
    exacts [List.forall_iff_forall_mem.mp l1_dot_sub op h,
      List.forall_iff_forall_mem.mp l1_cats_sub op h,
      List.forall_iff_forall_mem.mp l1_dinv_sub op h,
      List.forall_iff_forall_mem.mp l1_norm_sub op h,
      List.forall_iff_forall_mem.mp l1_conv_sub op h,
      List.forall_iff_forall_mem.mp l1_lrelu_sub op h,
      List.forall_iff_forall_mem.mp l2_dot_sub op h,
      List.forall_iff_forall_mem.mp l2_cats_sub op h,
      List.forall_iff_forall_mem.mp l2_dinv_sub op h,
      List.forall_iff_forall_mem.mp l2_norm_sub op h,
      List.forall_iff_forall_mem.mp l2_conv_sub op h,
      List.forall_iff_forall_mem.mp l2_lrelu_sub op h,
      List.forall_iff_forall_mem.mp l3_dot_sub op h,
      List.forall_iff_forall_mem.mp l3_cats_sub op h,
      List.forall_iff_forall_mem.mp l3_dinv_a_sub op h,
      List.forall_iff_forall_mem.mp l3_dinv_b_sub op h,
      List.forall_iff_forall_mem.mp l3_norm_sub op h,
      List.forall_iff_forall_mem.mp l3_conv_sub op h,
      List.forall_iff_forall_mem.mp l3_lrelu_sub op h,
      List.forall_iff_forall_mem.mp l4_dot_sub op h,
      List.forall_iff_forall_mem.mp l4_cats_sub op h,
      List.forall_iff_forall_mem.mp l4_dinv_a_sub op h,
      List.forall_iff_forall_mem.mp l4_dinv_b_sub op h,
      List.forall_iff_forall_mem.mp l4_norm_sub op h,
      List.forall_iff_forall_mem.mp l4_conv_sub op h,
      List.forall_iff_forall_mem.mp l4_lrelu_sub op h,
      List.forall_iff_forall_mem.mp t_softmax_sub op h,
      List.forall_iff_forall_mem.mp t_concepts_a_sub op h,
      List.forall_iff_forall_mem.mp t_concepts_b_sub op h,
      List.forall_iff_forall_mem.mp t_logits_sub op h]

theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h | h | h | h | h | h
  exacts [l1_dot_fresh op h, l1_cats_fresh op h, l1_dinv_fresh op h, l1_norm_fresh op h, l1_conv_fresh op h, l1_lrelu_fresh op h, l2_dot_fresh op h, l2_cats_fresh op h, l2_dinv_fresh op h, l2_norm_fresh op h, l2_conv_fresh op h, l2_lrelu_fresh op h, l3_dot_fresh op h, l3_cats_fresh op h, l3_dinv_a_fresh op h, l3_dinv_b_fresh op h, l3_norm_fresh op h, l3_conv_fresh op h, l3_lrelu_fresh op h, l4_dot_fresh op h, l4_cats_fresh op h, l4_dinv_a_fresh op h, l4_dinv_b_fresh op h, l4_norm_fresh op h, l4_conv_fresh op h, l4_lrelu_fresh op h, t_softmax_fresh op h, t_concepts_a_fresh op h, t_concepts_b_fresh op h, t_logits_fresh op h]

/-! ## The layer functions over the extended edge arrays

The reference appends the self-loops once per layer and reads the two extended arrays several times; the
functions below are the bodies of `RefTerm.dinv`, `RefTerm.norm`, `RefTerm.conv64`, `RefTerm.conv32`,
`RefTerm.concepts` and `RefTerm.logits` with the shared subterms as arguments, each equal to the original by
unfolding. -/

/-- `RefTerm.dinv` of a destination array that already carries its self-loops. -/
def dinvC (t : IVec S850000 32) : FVec Ideal S50000 .f32 :=
  have one : FVec Ideal S_ .f32 := constant S_ .f32 0x3F800000#32
  have ones : FVec Ideal S850000 .f32 := broadcastInDim S850000 ![] bcast_S_S850000 one
  have zero : FVec Ideal S_ .f32 := constant S_ .f32 0x00000000#32
  have zeros : FVec Ideal S50000 .f32 := broadcastInDim S50000 ![] bcast_S_S50000 zero
  have deg : FVec Ideal S50000 .f32 :=
    Host.scatterAdd scatter_S50000_S850000x1_S850000_n_0_0_1 zeros (RefTerm.rawIdx t) ones
  have zero' : FVec Ideal S_ .f32 := constant S_ .f32 0x00000000#32
  have zeros' : FVec Ideal S50000 .f32 := broadcastInDim S50000 ![] bcast_S_S50000 zero'
  have pos : IVec S50000 1 := cmpf .ogt deg zeros'
  have rs : FVec Ideal S50000 .f32 := Host.rsqrt deg
  have other : FVec Ideal S_ .f32 := constant S_ .f32 0x00000000#32
  have other' : FVec Ideal S_ .f32 := id other
  have others : FVec Ideal S50000 .f32 := broadcastInDim S50000 ![] bcast_S_S50000 other'
  select pos rs others

theorem dinv_eq (dst : IVec S800000 32) : RefTerm.dinv dst = dinvC (RefTerm.cat dst) := rfl

/-- `RefTerm.norm` of the inverse square roots and the two extended arrays. -/
def normC (d : FVec Ideal S50000 .f32) (s t : IVec S850000 32) : FVec Ideal S850000 .f32 :=
  mulf (Host.gather gather_S50000_S850000x1_S850000_n_0_n_n_0_1_1 d (RefTerm.normIdx s))
    (Host.gather gather_S50000_S850000x1_S850000_n_0_n_n_0_1_1 d (RefTerm.normIdx t))

theorem norm_eq (src dst : IVec S800000 32) :
    RefTerm.norm src dst = normC (RefTerm.dinv dst) (RefTerm.cat src) (RefTerm.cat dst) := rfl

/-- `RefTerm.conv64` of the edge weights and the two extended arrays. -/
def convC64 (h : FVec Ideal S50000x64 .f32) (b : FVec Ideal S64 .f32) (nrm : FVec Ideal S850000 .f32)
    (s t : IVec S850000 32) : FVec Ideal S50000x64 .f32 :=
  have rows : FVec Ideal S850000x64 .f32 :=
    Host.gather gather_S50000x64_S850000x1_S850000x64_1_0_n_n_0_1_164 h (RefTerm.normIdx s)
  have nrm1 : FVec Ideal S850000x1 .f32 := broadcastInDim S850000x1 ![0] bcast_S850000_S850000x1_0 nrm
  have nrmW : FVec Ideal S850000x64 .f32 := broadcastInDim S850000x64 ![0, 1] bcast_S850000x1_S850000x64_0_1 nrm1
  have msgs : FVec Ideal S850000x64 .f32 := mulf rows nrmW
  have zero : FVec Ideal S_ .f32 := constant S_ .f32 0x00000000#32
  have zeros : FVec Ideal S50000x64 .f32 := broadcastInDim S50000x64 ![] bcast_S_S50000x64 zero
  have agg : FVec Ideal S50000x64 .f32 :=
    Host.scatterAdd scatter_S50000x64_S850000x1_S850000x64_1_0_0_1 zeros (RefTerm.rawIdx t) msgs
  have b1 : FVec Ideal S1x64 .f32 := broadcastInDim S1x64 ![1] bcast_S64_S1x64_1 b
  have bW : FVec Ideal S50000x64 .f32 := broadcastInDim S50000x64 ![0, 1] bcast_S1x64_S50000x64_0_1 b1
  addf agg bW

theorem conv64_eq (h : FVec Ideal S50000x64 .f32) (b : FVec Ideal S64 .f32) (src dst : IVec S800000 32) :
    RefTerm.conv64 h b src dst = convC64 h b (RefTerm.norm src dst) (RefTerm.cat src) (RefTerm.cat dst) := rfl

/-- `RefTerm.conv32` of the edge weights and the two extended arrays. -/
def convC32 (h : FVec Ideal S50000x32 .f32) (b : FVec Ideal S32 .f32) (nrm : FVec Ideal S850000 .f32)
    (s t : IVec S850000 32) : FVec Ideal S50000x32 .f32 :=
  have rows : FVec Ideal S850000x32 .f32 :=
    Host.gather gather_S50000x32_S850000x1_S850000x32_1_0_n_n_0_1_132 h (RefTerm.normIdx s)
  have nrm1 : FVec Ideal S850000x1 .f32 := broadcastInDim S850000x1 ![0] bcast_S850000_S850000x1_0 nrm
  have nrmW : FVec Ideal S850000x32 .f32 := broadcastInDim S850000x32 ![0, 1] bcast_S850000x1_S850000x32_0_1 nrm1
  have msgs : FVec Ideal S850000x32 .f32 := mulf rows nrmW
  have zero : FVec Ideal S_ .f32 := constant S_ .f32 0x00000000#32
  have zeros : FVec Ideal S50000x32 .f32 := broadcastInDim S50000x32 ![] bcast_S_S50000x32 zero
  have agg : FVec Ideal S50000x32 .f32 :=
    Host.scatterAdd scatter_S50000x32_S850000x1_S850000x32_1_0_0_1 zeros (RefTerm.rawIdx t) msgs
  have b1 : FVec Ideal S1x32 .f32 := broadcastInDim S1x32 ![1] bcast_S32_S1x32_1 b
  have bW : FVec Ideal S50000x32 .f32 := broadcastInDim S50000x32 ![0, 1] bcast_S1x32_S50000x32_0_1 b1
  addf agg bW

theorem conv32_eq (h : FVec Ideal S50000x32 .f32) (b : FVec Ideal S32 .f32) (src dst : IVec S800000 32) :
    RefTerm.conv32 h b src dst = convC32 h b (RefTerm.norm src dst) (RefTerm.cat src) (RefTerm.cat dst) := rfl

/-- `RefTerm.concepts` of the softmax rows. -/
def conceptsC (p : FVec Ideal S50000x32 .f32) : FVec Ideal S50000x32 .f32 :=
  have ninf : FVec Ideal S_ .f32 := constant S_ .f32 0xFF800000#32
  have mx : FVec Ideal S50000 .f32 := Host.reduce FloatOps.maximumf p ninf reducesTo_S50000x32_S50000_d1 h_S_
  have mx1 : FVec Ideal S50000x1 .f32 := broadcastInDim S50000x1 ![0] bcast_S50000_S50000x1_0 mx
  have mxW : FVec Ideal S50000x32 .f32 := broadcastInDim S50000x32 ![0, 1] bcast_S50000x1_S50000x32_0_1 mx1
  Host.divf p mxW

theorem concepts_eq (h : FVec Ideal S50000x32 .f32) : RefTerm.concepts h = conceptsC (RefTerm.softmax h) := rfl

/-- `RefTerm.logits` of the first result. -/
def logitsC (c : FVec Ideal S50000x32 .f32) (Wl : FVec Ideal S32x4 .f32) (bl : FVec Ideal S4 .f32) :
    FVec Ideal S50000x4 .f32 :=
  have prod : FVec Ideal S50000x4 .f32 := Host.dotGeneral dot_S50000x32_S32x4_S50000x4_1_0_0_1_n_n none c Wl
  have b1 : FVec Ideal S1x4 .f32 := broadcastInDim S1x4 ![1] bcast_S4_S1x4_1 bl
  have bW : FVec Ideal S50000x4 .f32 := broadcastInDim S50000x4 ![0, 1] bcast_S1x4_S50000x4_0_1 b1
  addf prod bW

theorem logits_eq (h : FVec Ideal S50000x32 .f32) (Wl : FVec Ideal S32x4 .f32) (bl : FVec Ideal S4 .f32) :
    RefTerm.logits h Wl bl = logitsC (RefTerm.concepts h) Wl bl := rfl

/-! ## What each piece leaves in the buffer it is there to compute

Over any contents `V` of the device's buffers before the piece: the operations' results rewritten at their own
buffers, what is left is the stated function of `V` at the piece's inputs, by unfolding. -/

set_option maxRecDepth 8192 in
set_option maxHeartbeats 2000000 in
theorem l1_dot_out (V : Valuation τ sig (Elt Ideal)) :
    after (l1_dot (F := Ideal)) V (no_index (Proc.devRef .tc main_v0))
      = (Host.dotGeneral (φ₁ := .f32) (φ₂ := .f32) dot_S50000x128_S128x64_S50000x64_1_0_0_1_n_n none (V (Proc.devRef .tc main_arg0)) (V (Proc.devRef .tc main_arg3)) : FVec Ideal S50000x64 .f32) := by
  unfold l1_dot
  after_results_simp

set_option maxRecDepth 8192 in
set_option maxHeartbeats 2000000 in
theorem l1_cats_src (V : Valuation τ sig (Elt Ideal)) :
    after (l1_cats (F := Ideal)) V (no_index (Proc.devRef .tc main_v2))
      = RefTerm.cat (V (Proc.devRef .tc main_arg1)) := by
  unfold l1_cats
  after_results_simp
  rfl

set_option maxRecDepth 8192 in
set_option maxHeartbeats 2000000 in
theorem l1_cats_dst (V : Valuation τ sig (Elt Ideal)) :
    after (l1_cats (F := Ideal)) V (no_index (Proc.devRef .tc main_v3))
      = RefTerm.cat (V (Proc.devRef .tc main_arg2)) := by
  unfold l1_cats
  after_results_simp
  rfl

set_option maxRecDepth 8192 in
set_option maxHeartbeats 2000000 in
theorem l1_dinv_out (V : Valuation τ sig (Elt Ideal)) :
    after (l1_dinv (F := Ideal)) V (no_index (Proc.devRef .tc main_v11))
      = dinvC (V (Proc.devRef .tc main_v3)) := by
  unfold l1_dinv
  after_results_simp
  rfl

set_option maxRecDepth 8192 in
set_option maxHeartbeats 2000000 in
theorem l1_norm_out (V : Valuation τ sig (Elt Ideal)) :
    after (l1_norm (F := Ideal)) V (no_index (Proc.devRef .tc main_v26))
      = normC (V (Proc.devRef .tc main_v11)) (V (Proc.devRef .tc main_v2)) (V (Proc.devRef .tc main_v3)) := by
  unfold l1_norm
  after_results_simp
  rfl

set_option maxRecDepth 8192 in
set_option maxHeartbeats 2000000 in
theorem l1_conv_out (V : Valuation τ sig (Elt Ideal)) :
    after (l1_conv (F := Ideal)) V (no_index (Proc.devRef .tc main_v42))
      = convC64 (V (Proc.devRef .tc main_v0)) (V (Proc.devRef .tc main_arg4)) (V (Proc.devRef .tc main_v26)) (V (Proc.devRef .tc main_v2)) (V (Proc.devRef .tc main_v3)) := by
  unfold l1_conv
  after_results_simp
  rfl

set_option maxRecDepth 8192 in
set_option maxHeartbeats 2000000 in
theorem l1_lrelu_out (V : Valuation τ sig (Elt Ideal)) :
    after (l1_lrelu (F := Ideal)) V (no_index (Proc.devRef .tc main_v43))
      = RefTerm.lrelu64 (V (Proc.devRef .tc main_v42)) := by
  unfold l1_lrelu
  after_results_simp
  rfl

set_option maxRecDepth 8192 in
set_option maxHeartbeats 2000000 in
theorem l2_dot_out (V : Valuation τ sig (Elt Ideal)) :
    after (l2_dot (F := Ideal)) V (no_index (Proc.devRef .tc main_v44))
      = (Host.dotGeneral (φ₁ := .f32) (φ₂ := .f32) dot_S50000x64_S64x64_S50000x64_1_0_0_1_n_n none (V (Proc.devRef .tc main_v43)) (V (Proc.devRef .tc main_arg5)) : FVec Ideal S50000x64 .f32) := by
  unfold l2_dot
  after_results_simp

set_option maxRecDepth 8192 in
set_option maxHeartbeats 2000000 in
theorem l2_cats_src (V : Valuation τ sig (Elt Ideal)) :
    after (l2_cats (F := Ideal)) V (no_index (Proc.devRef .tc main_v46))
      = RefTerm.cat (V (Proc.devRef .tc main_arg1)) := by
  unfold l2_cats
  after_results_simp
  rfl

set_option maxRecDepth 8192 in
set_option maxHeartbeats 2000000 in
theorem l2_cats_dst (V : Valuation τ sig (Elt Ideal)) :
    after (l2_cats (F := Ideal)) V (no_index (Proc.devRef .tc main_v47))
      = RefTerm.cat (V (Proc.devRef .tc main_arg2)) := by
  unfold l2_cats
  after_results_simp
  rfl

set_option maxRecDepth 8192 in
set_option maxHeartbeats 2000000 in
theorem l2_dinv_out (V : Valuation τ sig (Elt Ideal)) :
    after (l2_dinv (F := Ideal)) V (no_index (Proc.devRef .tc main_v55))
      = dinvC (V (Proc.devRef .tc main_v47)) := by
  unfold l2_dinv
  after_results_simp
  rfl

set_option maxRecDepth 8192 in
set_option maxHeartbeats 2000000 in
theorem l2_norm_out (V : Valuation τ sig (Elt Ideal)) :
    after (l2_norm (F := Ideal)) V (no_index (Proc.devRef .tc main_v70))
      = normC (V (Proc.devRef .tc main_v55)) (V (Proc.devRef .tc main_v46)) (V (Proc.devRef .tc main_v47)) := by
  unfold l2_norm
  after_results_simp
  rfl

set_option maxRecDepth 8192 in
set_option maxHeartbeats 2000000 in
theorem l2_conv_out (V : Valuation τ sig (Elt Ideal)) :
    after (l2_conv (F := Ideal)) V (no_index (Proc.devRef .tc main_v86))
      = convC64 (V (Proc.devRef .tc main_v44)) (V (Proc.devRef .tc main_arg6)) (V (Proc.devRef .tc main_v70)) (V (Proc.devRef .tc main_v46)) (V (Proc.devRef .tc main_v47)) := by
  unfold l2_conv
  after_results_simp
  rfl

set_option maxRecDepth 8192 in
set_option maxHeartbeats 2000000 in
theorem l2_lrelu_out (V : Valuation τ sig (Elt Ideal)) :
    after (l2_lrelu (F := Ideal)) V (no_index (Proc.devRef .tc main_v87))
      = RefTerm.lrelu64 (V (Proc.devRef .tc main_v86)) := by
  unfold l2_lrelu
  after_results_simp
  rfl

set_option maxRecDepth 8192 in
set_option maxHeartbeats 2000000 in
theorem l3_dot_out (V : Valuation τ sig (Elt Ideal)) :
    after (l3_dot (F := Ideal)) V (no_index (Proc.devRef .tc main_v88))
      = (Host.dotGeneral (φ₁ := .f32) (φ₂ := .f32) dot_S50000x64_S64x64_S50000x64_1_0_0_1_n_n none (V (Proc.devRef .tc main_v87)) (V (Proc.devRef .tc main_arg7)) : FVec Ideal S50000x64 .f32) := by
  unfold l3_dot
  after_results_simp

set_option maxRecDepth 8192 in
set_option maxHeartbeats 2000000 in
theorem l3_cats_src (V : Valuation τ sig (Elt Ideal)) :
    after (l3_cats (F := Ideal)) V (no_index (Proc.devRef .tc main_v90))
      = RefTerm.cat (V (Proc.devRef .tc main_arg1)) := by
  unfold l3_cats
  after_results_simp
  rfl

set_option maxRecDepth 8192 in
set_option maxHeartbeats 2000000 in
theorem l3_cats_dst (V : Valuation τ sig (Elt Ideal)) :
    after (l3_cats (F := Ideal)) V (no_index (Proc.devRef .tc main_v91))
      = RefTerm.cat (V (Proc.devRef .tc main_arg2)) := by
  unfold l3_cats
  after_results_simp
  rfl

set_option maxRecDepth 8192 in
set_option maxHeartbeats 2000000 in
theorem l3_dinv_out (V : Valuation τ sig (Elt Ideal)) :
    after (l3_dinv_b (F := Ideal)) (after (l3_dinv_a (F := Ideal)) V) (no_index (Proc.devRef .tc main_v99))
      = dinvC (V (Proc.devRef .tc main_v91)) := by
  unfold l3_dinv_a l3_dinv_b
  after_results_simp
  rfl

set_option maxRecDepth 8192 in
set_option maxHeartbeats 2000000 in
theorem l3_norm_out (V : Valuation τ sig (Elt Ideal)) :
    after (l3_norm (F := Ideal)) V (no_index (Proc.devRef .tc main_v114))
      = normC (V (Proc.devRef .tc main_v99)) (V (Proc.devRef .tc main_v90)) (V (Proc.devRef .tc main_v91)) := by
  unfold l3_norm
  after_results_simp
  rfl

set_option maxRecDepth 8192 in
set_option maxHeartbeats 2000000 in
theorem l3_conv_out (V : Valuation τ sig (Elt Ideal)) :
    after (l3_conv (F := Ideal)) V (no_index (Proc.devRef .tc main_v130))
      = convC64 (V (Proc.devRef .tc main_v88)) (V (Proc.devRef .tc main_arg8)) (V (Proc.devRef .tc main_v114)) (V (Proc.devRef .tc main_v90)) (V (Proc.devRef .tc main_v91)) := by
  unfold l3_conv
  after_results_simp
  rfl

set_option maxRecDepth 8192 in
set_option maxHeartbeats 2000000 in
theorem l3_lrelu_out (V : Valuation τ sig (Elt Ideal)) :
    after (l3_lrelu (F := Ideal)) V (no_index (Proc.devRef .tc main_v131))
      = RefTerm.lrelu64 (V (Proc.devRef .tc main_v130)) := by
  unfold l3_lrelu
  after_results_simp
  rfl

set_option maxRecDepth 8192 in
set_option maxHeartbeats 2000000 in
theorem l4_dot_out (V : Valuation τ sig (Elt Ideal)) :
    after (l4_dot (F := Ideal)) V (no_index (Proc.devRef .tc main_v132))
      = (Host.dotGeneral (φ₁ := .f32) (φ₂ := .f32) dot_S50000x64_S64x32_S50000x32_1_0_0_1_n_n none (V (Proc.devRef .tc main_v131)) (V (Proc.devRef .tc main_arg9)) : FVec Ideal S50000x32 .f32) := by
  unfold l4_dot
  after_results_simp

set_option maxRecDepth 8192 in
set_option maxHeartbeats 2000000 in
theorem l4_cats_src (V : Valuation τ sig (Elt Ideal)) :
    after (l4_cats (F := Ideal)) V (no_index (Proc.devRef .tc main_v134))
      = RefTerm.cat (V (Proc.devRef .tc main_arg1)) := by
  unfold l4_cats
  after_results_simp
  rfl

set_option maxRecDepth 8192 in
set_option maxHeartbeats 2000000 in
theorem l4_cats_dst (V : Valuation τ sig (Elt Ideal)) :
    after (l4_cats (F := Ideal)) V (no_index (Proc.devRef .tc main_v135))
      = RefTerm.cat (V (Proc.devRef .tc main_arg2)) := by
  unfold l4_cats
  after_results_simp
  rfl

set_option maxRecDepth 8192 in
set_option maxHeartbeats 2000000 in
theorem l4_dinv_out (V : Valuation τ sig (Elt Ideal)) :
    after (l4_dinv_b (F := Ideal)) (after (l4_dinv_a (F := Ideal)) V) (no_index (Proc.devRef .tc main_v143))
      = dinvC (V (Proc.devRef .tc main_v135)) := by
  unfold l4_dinv_a l4_dinv_b
  after_results_simp
  rfl

set_option maxRecDepth 8192 in
set_option maxHeartbeats 2000000 in
theorem l4_norm_out (V : Valuation τ sig (Elt Ideal)) :
    after (l4_norm (F := Ideal)) V (no_index (Proc.devRef .tc main_v158))
      = normC (V (Proc.devRef .tc main_v143)) (V (Proc.devRef .tc main_v134)) (V (Proc.devRef .tc main_v135)) := by
  unfold l4_norm
  after_results_simp
  rfl

set_option maxRecDepth 8192 in
set_option maxHeartbeats 2000000 in
theorem l4_conv_out (V : Valuation τ sig (Elt Ideal)) :
    after (l4_conv (F := Ideal)) V (no_index (Proc.devRef .tc main_v174))
      = convC32 (V (Proc.devRef .tc main_v132)) (V (Proc.devRef .tc main_arg10)) (V (Proc.devRef .tc main_v158)) (V (Proc.devRef .tc main_v134)) (V (Proc.devRef .tc main_v135)) := by
  unfold l4_conv
  after_results_simp
  rfl

set_option maxRecDepth 8192 in
set_option maxHeartbeats 2000000 in
theorem l4_lrelu_out (V : Valuation τ sig (Elt Ideal)) :
    after (l4_lrelu (F := Ideal)) V (no_index (Proc.devRef .tc main_v175))
      = RefTerm.lrelu32 (V (Proc.devRef .tc main_v174)) := by
  unfold l4_lrelu
  after_results_simp
  rfl

set_option maxRecDepth 8192 in
set_option maxHeartbeats 2000000 in
theorem t_softmax_out (V : Valuation τ sig (Elt Ideal)) :
    after (t_softmax (F := Ideal)) V (no_index (Proc.devRef .tc main_v186))
      = RefTerm.softmax (V (Proc.devRef .tc main_v175)) := by
  unfold t_softmax
  after_results_simp
  rfl

set_option maxRecDepth 8192 in
set_option maxHeartbeats 2000000 in
theorem t_concepts_out (V : Valuation τ sig (Elt Ideal)) :
    after (t_concepts_b (F := Ideal)) (after (t_concepts_a (F := Ideal)) V) (no_index (Proc.devRef .tc main_v190))
      = conceptsC (V (Proc.devRef .tc main_v186)) := by
  unfold t_concepts_a t_concepts_b
  after_results_simp
  rfl

set_option maxRecDepth 8192 in
set_option maxHeartbeats 2000000 in
theorem t_logits_out (V : Valuation τ sig (Elt Ideal)) :
    after (t_logits (F := Ideal)) V (no_index (Proc.devRef .tc main_v194))
      = logitsC (V (Proc.devRef .tc main_v190)) (V (Proc.devRef .tc main_arg11)) (V (Proc.devRef .tc main_arg12)) := by
  unfold t_logits
  after_results_simp
  rfl

/-! ## The two results and the arguments after the whole line -/

set_option maxRecDepth 16384 in
set_option maxHeartbeats 8000000 in
/-- The first result after @main: the pieces' lemmas in order, every other buffer kept through the pieces that do
    not write it. -/
theorem out0_eq (V : Valuation τ sig (Elt Ideal)) :
    after (ops (F := Ideal)) V (Proc.devRef .tc main_v190)
      = RefTerm.concepts (RefTerm.h4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))) := by
  simp only [ops, after_append]
  simp (disch := decide) only [l1_dot_out, l1_cats_src, l1_cats_dst, l1_dinv_out, l1_norm_out, l1_conv_out, l1_lrelu_out, l2_dot_out, l2_cats_src, l2_cats_dst, l2_dinv_out, l2_norm_out, l2_conv_out, l2_lrelu_out, l3_dot_out, l3_cats_src, l3_cats_dst, l3_dinv_out, l3_norm_out, l3_conv_out, l3_lrelu_out, l4_dot_out, l4_cats_src, l4_cats_dst, l4_dinv_out, l4_norm_out, l4_conv_out, l4_lrelu_out, t_softmax_out, t_concepts_out, t_logits_out, l1_dot_keep, l1_cats_keep, l1_dinv_keep, l1_norm_keep, l1_conv_keep, l1_lrelu_keep, l2_dot_keep, l2_cats_keep, l2_dinv_keep, l2_norm_keep, l2_conv_keep, l2_lrelu_keep, l3_dot_keep, l3_cats_keep, l3_dinv_a_keep, l3_dinv_b_keep, l3_norm_keep, l3_conv_keep, l3_lrelu_keep, l4_dot_keep, l4_cats_keep, l4_dinv_a_keep, l4_dinv_b_keep, l4_norm_keep, l4_conv_keep, l4_lrelu_keep, t_softmax_keep, t_concepts_a_keep, t_concepts_b_keep, t_logits_keep]
  simp only [RefTerm.h4, RefTerm.h3, RefTerm.h2, RefTerm.h1, RefTerm.layer1, RefTerm.layer64, RefTerm.layer32, conv64_eq, conv32_eq, norm_eq, dinv_eq, concepts_eq, logits_eq]

set_option maxRecDepth 16384 in
set_option maxHeartbeats 8000000 in
/-- The second result after @main. -/
theorem out1_eq (V : Valuation τ sig (Elt Ideal)) :
    after (ops (F := Ideal)) V (Proc.devRef .tc main_v194)
      = RefTerm.logits (RefTerm.h4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))) (V (Proc.devRef .tc main_arg11)) (V (Proc.devRef .tc main_arg12)) := by
  simp only [ops, after_append]
  simp (disch := decide) only [l1_dot_out, l1_cats_src, l1_cats_dst, l1_dinv_out, l1_norm_out, l1_conv_out, l1_lrelu_out, l2_dot_out, l2_cats_src, l2_cats_dst, l2_dinv_out, l2_norm_out, l2_conv_out, l2_lrelu_out, l3_dot_out, l3_cats_src, l3_cats_dst, l3_dinv_out, l3_norm_out, l3_conv_out, l3_lrelu_out, l4_dot_out, l4_cats_src, l4_cats_dst, l4_dinv_out, l4_norm_out, l4_conv_out, l4_lrelu_out, t_softmax_out, t_concepts_out, t_logits_out, l1_dot_keep, l1_cats_keep, l1_dinv_keep, l1_norm_keep, l1_conv_keep, l1_lrelu_keep, l2_dot_keep, l2_cats_keep, l2_dinv_keep, l2_norm_keep, l2_conv_keep, l2_lrelu_keep, l3_dot_keep, l3_cats_keep, l3_dinv_a_keep, l3_dinv_b_keep, l3_norm_keep, l3_conv_keep, l3_lrelu_keep, l4_dot_keep, l4_cats_keep, l4_dinv_a_keep, l4_dinv_b_keep, l4_norm_keep, l4_conv_keep, l4_lrelu_keep, t_softmax_keep, t_concepts_a_keep, t_concepts_b_keep, t_logits_keep]
  simp only [RefTerm.h4, RefTerm.h3, RefTerm.h2, RefTerm.h1, RefTerm.layer1, RefTerm.layer64, RefTerm.layer32, conv64_eq, conv32_eq, norm_eq, dinv_eq, concepts_eq, logits_eq]

set_option maxRecDepth 16384 in
set_option maxHeartbeats 8000000 in
/-- No operation writes an argument. -/
theorem args_eq (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7)
    ∧ after (ops (F := F)) V (Proc.devRef .tc main_arg8) = V (Proc.devRef .tc main_arg8)
    ∧ after (ops (F := F)) V (Proc.devRef .tc main_arg9) = V (Proc.devRef .tc main_arg9)
    ∧ after (ops (F := F)) V (Proc.devRef .tc main_arg10) = V (Proc.devRef .tc main_arg10)
    ∧ after (ops (F := F)) V (Proc.devRef .tc main_arg11) = V (Proc.devRef .tc main_arg11)
    ∧ after (ops (F := F)) V (Proc.devRef .tc main_arg12) = V (Proc.devRef .tc main_arg12) := by
  simp only [ops, after_append]
  simp (disch := decide) only [l1_dot_keep, l1_cats_keep, l1_dinv_keep, l1_norm_keep, l1_conv_keep, l1_lrelu_keep, l2_dot_keep, l2_cats_keep, l2_dinv_keep, l2_norm_keep, l2_conv_keep, l2_lrelu_keep, l3_dot_keep, l3_cats_keep, l3_dinv_a_keep, l3_dinv_b_keep, l3_norm_keep, l3_conv_keep, l3_lrelu_keep, l4_dot_keep, l4_cats_keep, l4_dinv_a_keep, l4_dinv_b_keep, l4_norm_keep, l4_conv_keep, l4_lrelu_keep, t_softmax_keep, t_concepts_a_keep, t_concepts_b_keep, t_logits_keep, and_self]

/-- At the compiled mesh, from any memory with zero counters: every weakly fair execution of the reference terminates,
    with the first result at `RefTerm.concepts` and the second at `RefTerm.logits` of the fourth layer's output
    `RefTerm.h4` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v190)
          = RefTerm.concepts (RefTerm.h4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v194)
          = RefTerm.logits (RefTerm.h4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have ha := args_eq (F := Ideal) (launchContents m c)
      ⟨(h c main_v190).trans (out0_eq _), (h c main_v194).trans (out1_eq _),
        (h c main_arg0).trans ha.1, (h c main_arg1).trans ha.2.1, (h c main_arg2).trans ha.2.2.1, (h c main_arg3).trans ha.2.2.2.1, (h c main_arg4).trans ha.2.2.2.2.1, (h c main_arg5).trans ha.2.2.2.2.2.1, (h c main_arg6).trans ha.2.2.2.2.2.2.1, (h c main_arg7).trans ha.2.2.2.2.2.2.2.1, (h c main_arg8).trans ha.2.2.2.2.2.2.2.2.1, (h c main_arg9).trans ha.2.2.2.2.2.2.2.2.2.1, (h c main_arg10).trans ha.2.2.2.2.2.2.2.2.2.2.1, (h c main_arg11).trans ha.2.2.2.2.2.2.2.2.2.2.2.1, (h c main_arg12).trans ha.2.2.2.2.2.2.2.2.2.2.2.2⟩)
    (run_seq scopedRefs_eq scopedSems_eq defs main (fun _ => ops) main_eq (fun _ => ops_sub) m ρ (fun _ => ops_fresh))

end Cert.ReferenceIdeal.RefRun

end
-- ==== Proof.LibScaleSum.lean ====
/-
  Scaling a finite sum of extended reals by a finite non-negative number.

  On the extended reals multiplication does not distribute over addition in general: x · (⊤ + ⊥) and x · ⊤ + x · ⊥
  differ for a negative x, and ⊤ · (1 + (-1)) is 0 while ⊤ · 1 + ⊤ · (-1) is ⊥. It does when the factor c is
  non-negative and finite: then y ↦ c · y is monotone, sends each infinity to itself or (for c = 0) everything to 0,
  and so respects the convention ⊤ + ⊥ = ⊥. Hence such a factor moves inside any finite sum, whatever the summands.
-/
import Mathlib.Data.EReal.Operations
import Mathlib.Algebra.BigOperators.Group.Finset.Basic

open scoped BigOperators

namespace EReal

/-- A finite non-negative factor moves inside a finite sum of extended reals. -/
theorem mul_sum_of_nonneg_of_ne_top {ι : Type*} (s : Finset ι) {c : EReal} (h0 : 0 ≤ c) (ht : c ≠ ⊤)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same with the factor on the right. -/
theorem sum_mul_of_nonneg_of_ne_top {ι : Type*} (s : Finset ι) {c : EReal} (h0 : 0 ≤ c) (ht : c ≠ ⊤)
    (f : ι → EReal) : (∑ i ∈ s, f i) * c = ∑ i ∈ s, f i * c := by
  rw [EReal.mul_comm, mul_sum_of_nonneg_of_ne_top s h0 ht]
  exact Finset.sum_congr rfl fun i _ => EReal.mul_comm _ _

end EReal
-- ==== Proof.LibGatherRows.lean ====
/-
  A row lookup in a table, read at an index.

  `table[idx]` for a table of `N` rows of `C` numbers and `B` integer row numbers lowers to a `stablehlo.gather` whose
  start indices are a `[B, 1]` array and whose slices are whole rows. Each start index is read as a signed integer and
  clamped into `[0, N - 1]`, so every integer names a row. Two layouts occur:

  * rows kept as rows: operand `[N, C]`, result `[B, C]`; result entry `(b, i)` is entry `i` of the row `idx[b]` names;
  * the table transposed, samples on the last axis: operand `[C, N]`, result `[C, B]`; result entry `(i, b)` is entry
    `i` of the column `idx[b]` names.

  Both read the same number: entry `i` of row `clampRow N idx[b]`.
-/
import Idealize.ShloMosaic.Lib.ValueIdx

noncomputable section

namespace Idealize.ShloMosaic.GatherRows

open Idealize.ShloMosaic Idealize.ShloMosaic.ValueIdx

/-- The row of an `N`-row table a start index names: the word read as a signed integer (a negative one reads as `0`),
    clamped to the last row. -/
def clampRow {w : Nat} (N : Nat) (v : BitVec w) : Nat := min v.toInt.toNat (N - 1)

theorem clampRow_lt {w : Nat} {N : Nat} (hN : 0 < N) (v : BitVec w) : clampRow N v < N := by
  unfold clampRow; omega

/-- An axis of a rank-2 shape is the first or the second. -/
theorem axis2_cases {S : Shape} (h : S.rank = 2) (a : Fin S.rank) :
    a = ⟨0, by omega⟩ ∨ a = ⟨1, by omega⟩ := by
  have h2 : a.val < 2 := h ▸ a.isLt
  rcases Nat.lt_or_ge a.val 1 with h1 | h1
  · left; exact Fin.ext (by show a.val = 0; omega)
  · right; exact Fin.ext (by show a.val = 1; omega)

section
variable {α : Type}

/-- Rows kept as rows: operand `[N, C]`, start indices `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The table transposed: operand `[C, N]`, start indices `[B, 1]`, result `[C, B]`. -/
abbrev colDims (N C B : Nat)
    (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Result entry `(b, i)` of the row lookup is entry `i` of the row `idx[b]` names. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (i : Fin C) :
    Host.gather (rowDims N C B wf) x idx (ix2 b i)
      = x (ix2 ⟨clampRow N (idx (ix2 b (0 : Fin 1))), clampRow_lt hN _⟩ i) := by
  unfold Host.gather
  congr 1
  funext a
  refine Fin.ext ?_
  show (rowDims N C B wf).start (ix2 b i) idx a + (rowDims N C B wf).batchCoord (ix2 b i) a
      + (rowDims N C B wf).offCoord (ix2 b i) a = _
  rw [GatherDims.batchCoord_eq_zero _ _ _ List.not_mem_nil]
  rcases axis2_cases (S := ⟨2, ![N, C]⟩) rfl a with rfl | rfl
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N C B wf).startIndexMap from List.mem_singleton.mpr rfl)]
    have hsi : (rowDims N C B wf).siIdx (ix2 b i) ⟨List.idxOf (⟨0, by decide⟩ : Fin 2) (rowDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 2) ∈ (rowDims N C B wf).startIndexMap :=
      (by decide : ¬ (⟨1, by decide⟩ : Fin 2) ∈ ([0] : List (Fin 2)))
    have hc : ¬ (⟨1, by decide⟩ : Fin 2) ∈ (rowDims N C B wf).collapsedSliceDims :=
      (by decide : ¬ (⟨1, by decide⟩ : Fin 2) ∈ ([0] : List (Fin 2)))
    have h0 : (rowDims N C B wf).start (ix2 b i) idx (⟨1, by decide⟩ : Fin 2) = 0 := by
      unfold GatherDims.start
      rw [dif_neg hn]
    have h1 : (rowDims N C B wf).offCoord (ix2 b i) (⟨1, by decide⟩ : Fin 2) = i.val := by
      unfold GatherDims.offCoord
      rw [dif_pos ((GatherDims.mem_sKept _ _).mpr ⟨hc, List.not_mem_nil⟩)]
      rfl
    show (rowDims N C B wf).start (ix2 b i) idx (⟨1, by decide⟩ : Fin 2) + 0
      + (rowDims N C B wf).offCoord (ix2 b i) (⟨1, by decide⟩ : Fin 2) = i.val
    rw [h0, h1]; omega

/-- Result entry `(i, b)` of the lookup in the transposed table is entry `i` of the column `idx[b]` names. -/
theorem gather_cols_apply {N C B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (i : Fin C) (b : Fin B) :
    Host.gather (colDims N C B wf) x idx (ix2 i b)
      = x (ix2 i ⟨clampRow N (idx (ix2 b (0 : Fin 1))), clampRow_lt hN _⟩) := by
  unfold Host.gather
  congr 1
  funext a
  refine Fin.ext ?_
  show (colDims N C B wf).start (ix2 i b) idx a + (colDims N C B wf).batchCoord (ix2 i b) a
      + (colDims N C B wf).offCoord (ix2 i b) a = _
  rw [GatherDims.batchCoord_eq_zero _ _ _ List.not_mem_nil]
  rcases axis2_cases (S := ⟨2, ![C, N]⟩) rfl a with rfl | rfl
  · have hn : ¬ (⟨0, by decide⟩ : Fin 2) ∈ (colDims N C B wf).startIndexMap :=
      (by decide : ¬ (⟨0, by decide⟩ : Fin 2) ∈ ([1] : List (Fin 2)))
    have hc : ¬ (⟨0, by decide⟩ : Fin 2) ∈ (colDims N C B wf).collapsedSliceDims :=
      (by decide : ¬ (⟨0, by decide⟩ : Fin 2) ∈ ([1] : List (Fin 2)))
    have h0 : (colDims N C B wf).start (ix2 i b) idx (⟨0, by decide⟩ : Fin 2) = 0 := by
      unfold GatherDims.start
      rw [dif_neg hn]
    have h1 : (colDims N C B wf).offCoord (ix2 i b) (⟨0, by decide⟩ : Fin 2) = i.val := by
      unfold GatherDims.offCoord
      rw [dif_pos ((GatherDims.mem_sKept _ _).mpr ⟨hc, List.not_mem_nil⟩)]
      rfl
    show (colDims N C B wf).start (ix2 i b) idx (⟨0, by decide⟩ : Fin 2) + 0
      + (colDims N C B wf).offCoord (ix2 i b) (⟨0, by decide⟩ : Fin 2) = i.val
    rw [h0, h1]; omega
  · rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N C B wf).startIndexMap from List.mem_singleton.mpr rfl)]
    have hsi : (colDims N C B wf).siIdx (ix2 i b) ⟨List.idxOf (⟨1, by decide⟩ : Fin 2) (colDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl

end

end Idealize.ShloMosaic.GatherRows

end
-- ==== Proof.Spec.lean ====
/-
  The algebra that joins the two programs, on the extended reals.

  A graph convolution sums, over the edges `e` that land on node `n`, the source row scaled by
  `dinv(source) · dinv(n)`.  The kernel scales each source row by `dinv(source)` before the sum and the sum by
  `dinv(n)` after it.  The two agree because `dinv(n)` is a finite non-negative number, which may be moved inside
  any finite sum of extended reals, and because multiplication of extended reals is associative.  No finiteness of
  the summands is needed.
-/
import Idealize.ShloMosaic.PureOps.Ideal.Laws
import proofs.«166952_j50646254354931_2_alg».proof.Proof.KSpec
import proofs.«166952_j50646254354931_2_alg».proof.Proof.LibScaleSum
import proofs.«166952_j50646254354931_2_alg».proof.Proof.LibGatherRows

noncomputable section

open scoped BigOperators

namespace Cert.Spec

open Idealize.ShloMosaic Cert.KSpec

theorem zeroLit_eq : zeroLit = 0 := Ideal.ofBits_zero_f32

/-- The leaky rectifier as the reference takes it: `v` where `v ≥ 0`, `slope · v` elsewhere. -/
def lreluGE (v : EReal) : EReal := Scalar.select (Ideal.cmp .oge v zeroLit) v (slopeLit * v)

/-- The two rectifiers differ only in which branch they take at `v = 0`, where both branches are `0`. -/
theorem lrelu_eq (v : EReal) : lreluGT v = lreluGE v := by
  unfold lreluGT lreluGE Ideal.cmp Scalar.select
  rw [zeroLit_eq]
  by_cases h : (0 : EReal) < v
  · simp [h, h.le]
  · by_cases h2 : (0 : EReal) ≤ v
    · have hv : v = 0 := le_antisymm (not_lt.mp h) h2
      subst hv; simp
    · simp [h, h2]

/-- The inverse square root of a degree, with the guard the programs put around it: `rsqrt x` where `x > 0`,
    `0` elsewhere. -/
def dinvOf (x : EReal) : EReal := Scalar.select (Ideal.cmp .ogt x zeroLit) (Ideal.rsqrt x) zeroLit

/-- Whatever the degree, the guarded inverse square root is a finite non-negative number. -/
theorem dinvOf_nonneg_ne_top (x : EReal) : 0 ≤ dinvOf x ∧ dinvOf x ≠ ⊤ := by
  unfold dinvOf Ideal.cmp Scalar.select
  rw [zeroLit_eq]
  induction x using EReal.rec with
  | bot => simp
  | top => simp
  | coe r =>
    by_cases h : (0 : ℝ) < r
    · have h' : ((0 : ℝ) : EReal) < (r : EReal) := EReal.coe_lt_coe_iff.mpr h
      have hne : ¬ r < 0 := not_lt.mpr h.le
      have hne0 : r ≠ 0 := ne_of_gt h
      simp only [EReal.coe_zero] at h'
      simp only [h', decide_true, BitVec.ofBool_true, if_true, Ideal.rsqrt_coe, hne, hne0, if_false]
      refine ⟨?_, EReal.coe_ne_top _⟩
      exact_mod_cast inv_nonneg.mpr (Real.sqrt_nonneg r)
    · have h' : ¬ ((0 : EReal) < (r : EReal)) := by
        intro hh; exact h (by exact_mod_cast hh)
      simp [h']

variable {E N : Type} [Fintype E] [DecidableEq E]

/-- Moving the destination's factor inside the sum over the edges that land on it.  `a e` is the source row's
    entry for edge `e`, `ds e` the source's factor, `dd e` the destination's factor read through the edge, which is
    `dn`, the node's own factor, on every edge of the sum. -/
theorem agg_scale (S : Finset E) (a ds dd : E → EReal) (dn : EReal) (h0 : 0 ≤ dn) (ht : dn ≠ ⊤)
    (hdd : ∀ e ∈ S, dd e = dn) :
    (zeroLit + ∑ e ∈ S, a e * ds e) * dn = zeroLit + ∑ e ∈ S, a e * (ds e * dd e) := by
  rw [zeroLit_eq, zero_add, zero_add, EReal.sum_mul_of_nonneg_of_ne_top S h0 ht]
  refine Finset.sum_congr rfl fun e he => ?_
  rw [hdd e he, mul_assoc]

/-! ## One graph convolution layer, both ways -/

section Layer
variable {M N A B : Nat}

open Idealize.ShloMosaic.ValueIdx

/-- The layer as the kernels compute it: every source row is scaled by its own `dv` before the sum over the edges
    landing on `n` (the set `S n`; `g e` is the source row edge `e` reads), the sum by `dv n` after it; then the
    bias and the rectifier. -/
def convK (H : Arr2 N A) (W : Arr2 A B) (b : Fin B → EReal) (dv : Fin N → EReal) (S : Fin N → Finset (Fin M))
    (g : Fin M → Fin N) (n : Fin N) (j : Fin B) : EReal :=
  lreluGT ((zeroLit + ∑ e ∈ S n, dense H W (g e) j * dv (g e)) * dv n + b j)

/-- The layer as the reference computes it: the edge's message is the source row times
    `dv (source) · dv (destination)`, the destination read through the edge (`gd e`). -/
def convR (H : Arr2 N A) (W : Arr2 A B) (b : Fin B → EReal) (dv : Fin N → EReal) (S : Fin N → Finset (Fin M))
    (g gd : Fin M → Fin N) (n : Fin N) (j : Fin B) : EReal :=
  lreluGE ((zeroLit + ∑ e ∈ S n, dense H W (g e) j * (dv (g e) * dv (gd e))) + b j)

/-- The two are one function when `dv` is finite and non-negative and every edge landing on `n` reads `n` as its
    destination. -/
theorem conv_eq (H : Arr2 N A) (W : Arr2 A B) (b : Fin B → EReal) (dv : Fin N → EReal) (S : Fin N → Finset (Fin M))
    (g gd : Fin M → Fin N) (hdv : ∀ n, 0 ≤ dv n ∧ dv n ≠ ⊤) (hgd : ∀ n, ∀ e ∈ S n, gd e = n) (n : Fin N) (j : Fin B) :
    convK H W b dv S g n j = convR H W b dv S g gd n j := by
  unfold convK convR
  rw [lrelu_eq, agg_scale (S n) (fun e => dense H W (g e) j) (fun e => dv (g e)) (fun e => dv (gd e)) (dv n)
    (hdv n).1 (hdv n).2 (fun e he => by rw [hgd n e he])]

end Layer

/-! ## Edge words -/

/-- How a lookup index is normalised before the lookup: a negative word has the number of nodes added. -/
def normWord (w : BitVec 32) : BitVec 32 := Scalar.select (IntOp.cmpi .slt w 0#32) (IntOp.addi w 50000#32) w

/-- A word that, read signed, is the node `n` is not negative, so the normalisation leaves it alone, and it is in
    range, so the lookup's clamp leaves it alone: the lookup reads row `n`. -/
theorem clampRow_normWord (w : BitVec 32) (n : Fin 50000) (h : w.toInt = (n.val : Int)) :
    GatherRows.clampRow 50000 (normWord w) = n.val := by
  have hs : w.slt 0#32 = false := by
    have h0 : (0#32 : BitVec 32).toInt = 0 := by decide
    show decide (w.toInt < (0#32 : BitVec 32).toInt) = false
    rw [h0, h]
    exact decide_eq_false (by omega)
  have hn : normWord w = w := by
    unfold normWord IntOp.cmpi Scalar.select
    simp [hs]
  rw [hn]
  unfold GatherRows.clampRow
  rw [h]
  have := n.isLt
  simp only [Int.toNat_natCast]
  omega

end Cert.Spec

end
-- ==== Proof.LibScatterAddRows.lean ====
/-
  A scatter-add of rows into a table, read at an index.

  table.at[idx].add(updates) for a table of N rows, B integer row numbers and B update rows lowers to a
  stablehlo.scatter with an add body whose scatter indices are a [B, 1] array and whose update windows are whole
  rows. Update row b is added into the table row whose number is the word idx[b] read as a SIGNED integer; the
  word is neither wrapped nor clamped, and an update whose word names no row (negative, or N and above) is dropped.
  So entry (n, ·) of the result is the table's entry plus the sum of the same entry of every update row b with
  idx[b] = n as integers. Two layouts occur: rows of C numbers (operand [N, C], updates [B, C]) and rows that are
  H × D blocks (operand [N, H, D], updates [B, H, D]).

  The route: an update index lands on a table index exactly when, on every axis, its start plus its window
  coordinate is that index's coordinate (resultIdx?_eq_some_iff); for these dimension numbers the start is the row
  word on axis 0 and 0 elsewhere, the window coordinate 0 on axis 0 and the update's own coordinate elsewhere; the
  update indices that land on (n, c) are then exactly (b, c) over the rows b with idx[b] = n.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-! ## Any scatter -/

section
variable {s si u : Shape} (d : ScatterDims s si u)

/-- An update index lands on the operand index i exactly when start plus window coordinate is i's coordinate on
    every axis: the in-range test adds nothing, since i's coordinates are in range. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have ha := h a
      rw [← hi]
      show _ = ((d.start j idx a + (d.window j a : Int)).toNat : Int)
      omega
    · intro hall
      congr 1
      funext a
      refine Fin.ext ?_
      have ha := h a
      have he := hall a
      show (d.start j idx a + (d.window j a : Int)).toNat = (i a).val
      omega
  · rename_i h
    constructor
    · intro heq; cases heq
    · intro hall
      exfalso
      apply h
      intro a
      have he := hall a
      have hlt := (i a).isLt
      omega

/-- The operand axes the update windows go to are the ones that are not inserted. -/
theorem mem_sKept (a : Fin s.rank) : a ∈ d.sKept ↔ a ∉ d.insertedWindowDims := by
  simp [ScatterDims.sKept, Shape.kept, List.mem_filter, List.mem_finRange]

/-- On an axis the scatter indices do not name, the window starts at 0. -/
theorem start_eq_zero {w : Nat} (j : u.Idx) (idx : IVec si w) (a : Fin s.rank)
    (ha : a ∉ d.scatterDimsToOperandDims) : d.start j idx a = 0 := by
  unfold ScatterDims.start; rw [dif_neg ha]

/-- On an inserted axis the window coordinate is 0. -/
theorem window_eq_zero (j : u.Idx) (a : Fin s.rank) (ha : a ∉ d.sKept) : d.window j a = 0 := by
  unfold ScatterDims.window; rw [dif_neg ha]

end

/-! ## Rows of C numbers -/

/-- Operand [N, C], scatter indices [B, 1], updates [B, C]: update row b goes to the row idx[b] names. -/
abbrev rowsDims (N C B : Nat)
    (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

section Rows
variable {N C B w : Nat} (wf : ScatterDims.WF ⟨2, ![N, C]⟩ ⟨2, ![B, 1]⟩ ⟨2, ![B, C]⟩ [1] [0] [0] 1)

/-- The window of update (b, c') starts, on the row axis, at the word idx[b] read signed. -/
theorem rows_start0 (idx : IVec ⟨2, ![B, 1]⟩ w) (b : Fin B) (c' : Fin C) :
    (rowsDims N C B wf).start (ix2 b c') idx (⟨0, by decide⟩ : Fin 2) = (idx (ix2 b (0 : Fin 1))).toInt := by
  unfold ScatterDims.start
  rw [dif_pos (show (⟨0, by decide⟩ : Fin 2) ∈ (rowsDims N C B wf).scatterDimsToOperandDims from
    List.mem_singleton.mpr rfl)]
  have hsi : (rowsDims N C B wf).siIdx (ix2 b c')
      ⟨List.idxOf (⟨0, by decide⟩ : Fin 2) (rowsDims N C B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, c') on the column axis is c'. -/
theorem rows_window1 (b : Fin B) (c' : Fin C) :
    (rowsDims N C B wf).window (ix2 b c') (⟨1, by decide⟩ : Fin 2) = c'.val := by
  unfold ScatterDims.window
  rw [dif_pos ((mem_sKept _ _).mpr (by decide : ¬ (⟨1, by decide⟩ : Fin 2) ∈ ([0] : List (Fin 2))))]
  rfl

/-- Update (b, c') lands on table entry (n, c) exactly when the word idx[b], read signed, is n, and c' = c. -/
theorem rows_lands_iff (idx : IVec ⟨2, ![B, 1]⟩ w) (b : Fin B) (c' : Fin C) (n : Fin N) (c : Fin C) :
    (rowsDims N C B wf).resultIdx? (ix2 b c') idx = some (ix2 n c)
      ↔ (idx (ix2 b (0 : Fin 1))).toInt = (n.val : Int) ∧ c' = c := by
  rw [resultIdx?_eq_some_iff]
  have hw0 : (rowsDims N C B wf).window (ix2 b c') (⟨0, by decide⟩ : Fin 2) = 0 :=
    window_eq_zero _ _ _ (fun h => ((mem_sKept _ _).mp h) (List.mem_singleton.mpr rfl))
  have hs1 : (rowsDims N C B wf).start (ix2 b c') idx (⟨1, by decide⟩ : Fin 2) = 0 :=
    start_eq_zero _ _ _ _ (by decide : ¬ (⟨1, by decide⟩ : Fin 2) ∈ ([0] : List (Fin 2)))
  constructor
  · intro h
    have h0 := h (⟨0, by decide⟩ : Fin 2)
    have h1 := h (⟨1, by decide⟩ : Fin 2)
    rw [rows_start0, hw0] at h0
    rw [hs1, rows_window1] at h1
    refine ⟨?_, Fin.ext ?_⟩
    · have h0' : (idx (ix2 b (0 : Fin 1))).toInt + ((0 : Nat) : Int) = (n.val : Int) := h0
      omega
    · have h1' : (0 : Int) + (c'.val : Int) = (c.val : Int) := h1
      omega
  · rintro ⟨h0, rfl⟩ a
    match a with
    | ⟨0, _⟩ =>
      rw [rows_start0, hw0]
      show _ = (n.val : Int)
      omega
    | ⟨1, _⟩ =>
      rw [hs1, rows_window1]
      show _ = (c'.val : Int)
      omega

/-- Entry (n, c) of the scatter-add: the table's entry plus the sum, over the update rows b whose word idx[b] read
    signed is n, of entry c of update row b. -/
theorem scatterAdd_rows_apply {φ : FTy} (x : (⟨2, ![N, C]⟩ : Shape).Idx → EReal) (idx : IVec ⟨2, ![B, 1]⟩ w)
    (upd : (⟨2, ![B, C]⟩ : Shape).Idx → EReal) (n : Fin N) (c : Fin C) :
    Host.scatterAdd (F := Ideal) (φ := φ) (rowsDims N C B wf) x idx upd (ix2 n c)
      = x (ix2 n c) + ∑ b ∈ Finset.univ.filter (fun b : Fin B => (idx (ix2 b (0 : Fin 1))).toInt = (n.val : Int)),
          upd (ix2 b c) := by
  show x (ix2 n c) + ∑ j ∈ Finset.univ.filter
      (fun j => (rowsDims N C B wf).resultIdx? j idx = some (ix2 n c)), upd j = _
  congr 1
  refine Finset.sum_nbij' (fun j => (j 0 : Fin B)) (fun b => ix2 b c) ?_ ?_ ?_ ?_ ?_
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    exact Finset.mem_filter.mpr ⟨Finset.mem_univ _, h.1⟩
  · intro b hb
    exact Finset.mem_filter.mpr ⟨Finset.mem_univ _,
      (rows_lands_iff wf idx b c n c).mpr ⟨(Finset.mem_filter.mp hb).2, rfl⟩⟩
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show ix2 b c = ix2 b c'
    rw [h.2]
  · intro b _
    rfl
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show upd (ix2 b c') = upd (ix2 b c)
    rw [h.2]

end Rows

/-! ## Rows that are H × D blocks -/

/-- Operand [N, H, D], scatter indices [B, 1], updates [B, H, D]: update block b goes to the row idx[b] names. -/
abbrev rows3Dims (N H D B : Nat)
    (wf : ScatterDims.WF ⟨3, ![N, H, D]⟩ ⟨2, ![B, 1]⟩ ⟨3, ![B, H, D]⟩ [1, 2] [0] [0] 1) :
    ScatterDims ⟨3, ![N, H, D]⟩ ⟨2, ![B, 1]⟩ ⟨3, ![B, H, D]⟩ where
  updateWindowDims := [1, 2]
  insertedWindowDims := [0]
  scatterDimsToOperandDims := [0]
  indexVectorDim := 1
  wf := wf

section Rows3
variable {N H D B w : Nat} (wf : ScatterDims.WF ⟨3, ![N, H, D]⟩ ⟨2, ![B, 1]⟩ ⟨3, ![B, H, D]⟩ [1, 2] [0] [0] 1)

/-- The window of update (b, h', k') starts, on the row axis, at the word idx[b] read signed. -/
theorem rows3_start0 (idx : IVec ⟨2, ![B, 1]⟩ w) (b : Fin B) (h' : Fin H) (k' : Fin D) :
    (rows3Dims N H D B wf).start (ix3 b h' k') idx (⟨0, by decide⟩ : Fin 3) = (idx (ix2 b (0 : Fin 1))).toInt := by
  unfold ScatterDims.start
  rw [dif_pos (show (⟨0, by decide⟩ : Fin 3) ∈ (rows3Dims N H D B wf).scatterDimsToOperandDims from
    List.mem_singleton.mpr rfl)]
  have hsi : (rows3Dims N H D B wf).siIdx (ix3 b h' k')
      ⟨List.idxOf (⟨0, by decide⟩ : Fin 3) (rows3Dims N H D B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, h', k') on the second axis is h'. -/
theorem rows3_window1 (b : Fin B) (h' : Fin H) (k' : Fin D) :
    (rows3Dims N H D B wf).window (ix3 b h' k') (⟨1, by decide⟩ : Fin 3) = h'.val := by
  unfold ScatterDims.window
  rw [dif_pos ((mem_sKept _ _).mpr (by decide : ¬ (⟨1, by decide⟩ : Fin 3) ∈ ([0] : List (Fin 3))))]
  rfl

/-- The window coordinate of update (b, h', k') on the third axis is k'. -/
theorem rows3_window2 (b : Fin B) (h' : Fin H) (k' : Fin D) :
    (rows3Dims N H D B wf).window (ix3 b h' k') (⟨2, by decide⟩ : Fin 3) = k'.val := by
  unfold ScatterDims.window
  rw [dif_pos ((mem_sKept _ _).mpr (by decide : ¬ (⟨2, by decide⟩ : Fin 3) ∈ ([0] : List (Fin 3))))]
  rfl

/-- Update (b, h', k') lands on table entry (n, h, k) exactly when the word idx[b], read signed, is n, and
    (h', k') = (h, k). -/
theorem rows3_lands_iff (idx : IVec ⟨2, ![B, 1]⟩ w) (b : Fin B) (h' : Fin H) (k' : Fin D)
    (n : Fin N) (h : Fin H) (k : Fin D) :
    (rows3Dims N H D B wf).resultIdx? (ix3 b h' k') idx = some (ix3 n h k)
      ↔ (idx (ix2 b (0 : Fin 1))).toInt = (n.val : Int) ∧ h' = h ∧ k' = k := by
  rw [resultIdx?_eq_some_iff]
  have hw0 : (rows3Dims N H D B wf).window (ix3 b h' k') (⟨0, by decide⟩ : Fin 3) = 0 :=
    window_eq_zero _ _ _ (fun hm => ((mem_sKept _ _).mp hm) (List.mem_singleton.mpr rfl))
  have hs1 : (rows3Dims N H D B wf).start (ix3 b h' k') idx (⟨1, by decide⟩ : Fin 3) = 0 :=
    start_eq_zero _ _ _ _ (by decide : ¬ (⟨1, by decide⟩ : Fin 3) ∈ ([0] : List (Fin 3)))
  have hs2 : (rows3Dims N H D B wf).start (ix3 b h' k') idx (⟨2, by decide⟩ : Fin 3) = 0 :=
    start_eq_zero _ _ _ _ (by decide : ¬ (⟨2, by decide⟩ : Fin 3) ∈ ([0] : List (Fin 3)))
  constructor
  · intro hall
    have h0 := hall (⟨0, by decide⟩ : Fin 3)
    have h1 := hall (⟨1, by decide⟩ : Fin 3)
    have h2 := hall (⟨2, by decide⟩ : Fin 3)
    rw [rows3_start0, hw0] at h0
    rw [hs1, rows3_window1] at h1
    rw [hs2, rows3_window2] at h2
    refine ⟨?_, Fin.ext ?_, Fin.ext ?_⟩
    · have h0' : (idx (ix2 b (0 : Fin 1))).toInt + ((0 : Nat) : Int) = (n.val : Int) := h0
      omega
    · have h1' : (0 : Int) + (h'.val : Int) = (h.val : Int) := h1
      omega
    · have h2' : (0 : Int) + (k'.val : Int) = (k.val : Int) := h2
      omega
  · rintro ⟨h0, rfl, rfl⟩ a
    match a with
    | ⟨0, _⟩ =>
      rw [rows3_start0, hw0]
      show _ = (n.val : Int)
      omega
    | ⟨1, _⟩ =>
      rw [hs1, rows3_window1]
      show _ = (h'.val : Int)
      omega
    | ⟨2, _⟩ =>
      rw [hs2, rows3_window2]
      show _ = (k'.val : Int)
      omega

/-- Entry (n, h, k) of the scatter-add: the table's entry plus the sum, over the update blocks b whose word idx[b]
    read signed is n, of entry (h, k) of update block b. -/
theorem scatterAdd_rows3_apply {φ : FTy} (x : (⟨3, ![N, H, D]⟩ : Shape).Idx → EReal) (idx : IVec ⟨2, ![B, 1]⟩ w)
    (upd : (⟨3, ![B, H, D]⟩ : Shape).Idx → EReal) (n : Fin N) (h : Fin H) (k : Fin D) :
    Host.scatterAdd (F := Ideal) (φ := φ) (rows3Dims N H D B wf) x idx upd (ix3 n h k)
      = x (ix3 n h k) + ∑ b ∈ Finset.univ.filter (fun b : Fin B => (idx (ix2 b (0 : Fin 1))).toInt = (n.val : Int)),
          upd (ix3 b h k) := by
  show x (ix3 n h k) + ∑ j ∈ Finset.univ.filter
      (fun j => (rows3Dims N H D B wf).resultIdx? j idx = some (ix3 n h k)), upd j = _
  congr 1
  refine Finset.sum_nbij' (fun j => (j 0 : Fin B)) (fun b => ix3 b h k) ?_ ?_ ?_ ?_ ?_
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    exact Finset.mem_filter.mpr ⟨Finset.mem_univ _, hl.1⟩
  · intro b hb
    exact Finset.mem_filter.mpr ⟨Finset.mem_univ _,
      (rows3_lands_iff wf idx b h k n h k).mpr ⟨(Finset.mem_filter.mp hb).2, rfl, rfl⟩⟩
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show ix3 b h k = ix3 b h' k'
    rw [hl.2.1, hl.2.2]
  · intro b _
    rfl
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show upd (ix3 b h' k') = upd (ix3 b h k)
    rw [hl.2.1, hl.2.2]

end Rows3

end Idealize.ShloMosaic.ScatterAddRows

end
-- ==== Proof.LibGatherVec.lean ====
/-
  A lookup in a vector, read at an index.

  `v[idx]` for a vector of `N` numbers and `B` integer positions lowers to a `stablehlo.gather` whose operand is
  `[N]`, whose start indices are a `[B, 1]` array and whose slices are single entries; the result is `[B]`. Each start
  index is read as a signed integer and clamped into `[0, N - 1]`, so every integer names an entry: result entry `b`
  is entry `clampRow N idx[b]` of the vector — the rank-1 sibling of the row lookup in a table.
-/
import Idealize.ShloMosaic.Lib.ValueIdx
import proofs.«166952_j50646254354931_2_alg».proof.Proof.LibGatherRows

noncomputable section

namespace Idealize.ShloMosaic.GatherRows

open Idealize.ShloMosaic Idealize.ShloMosaic.ValueIdx

section
variable {α : Type}

/-- Operand `[N]`, start indices `[B, 1]`, result `[B]`: single entries, the one axis collapsed. -/
abbrev vecDims (N B : Nat)
    (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Result entry `b` of the lookup is the entry of the vector that `idx[b]` names. -/
theorem gather_vec_apply {N B w : Nat} (hN : 0 < N)
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (vecDims N B wf) x idx (ix1 b)
      = x (ix1 ⟨clampRow N (idx (ix2 b (0 : Fin 1))), clampRow_lt hN _⟩) := by
  unfold Host.gather
  congr 1
  funext a
  refine Fin.ext ?_
  show (vecDims N B wf).start (ix1 b) idx a + (vecDims N B wf).batchCoord (ix1 b) a
      + (vecDims N B wf).offCoord (ix1 b) a = _
  rw [GatherDims.batchCoord_eq_zero _ _ _ List.not_mem_nil]
  have h1 : a.val < 1 := a.isLt
  have ha : a = (⟨0, by decide⟩ : Fin 1) := Fin.ext (by show a.val = 0; omega)
  subst ha
  rw [GatherDims.offCoord_eq_zero _ _ _ (fun h => ((GatherDims.mem_sKept _ _).mp h).1 (List.mem_singleton.mpr rfl))]
  simp only [Nat.add_zero]
  unfold GatherDims.start
  rw [dif_pos (show (⟨0, by decide⟩ : Fin 1) ∈ (vecDims N B wf).startIndexMap from List.mem_singleton.mpr rfl)]
  have hsi : (vecDims N B wf).siIdx (ix1 b) ⟨List.idxOf (⟨0, by decide⟩ : Fin 1) (vecDims N B wf).startIndexMap,
      List.idxOf_lt_length_iff.2 (List.mem_singleton.mpr rfl)⟩ = ix2 b (0 : Fin 1) := by
    funext d; refine Fin.ext ?_
    match d with
    | ⟨0, _⟩ => rfl
    | ⟨1, _⟩ => rfl
  rw [hsi]
  rfl

end

end Idealize.ShloMosaic.GatherRows

end
-- ==== Proof.Edges.lean ====
/-
  The two edge-indexed host steps of a graph convolution read at an index: a lookup of rows by the source words
  followed by a scatter-add by the destination words is, at node `n` and column `j`, the table's own entry plus the
  sum over the edges landing on `n` of the looked-up row's entry `j`.
-/
import proofs.«166952_j50646254354931_2_alg».proof.Proof.LibScatterAddRows
import proofs.«166952_j50646254354931_2_alg».proof.Proof.LibGatherRows
import proofs.«166952_j50646254354931_2_alg».proof.Proof.LibGatherVec

noncomputable section

open scoped BigOperators

namespace Cert.Edges

open Idealize.ShloMosaic Idealize.ShloMosaic.ValueIdx Idealize.ShloMosaic.ScatterAddRows Idealize.ShloMosaic.GatherRows

variable {N C B : Nat}

/-- The edges landing on node `n`: those whose destination word, read signed, is `n`. -/
def landing (rI : IVec ⟨2, ![B, 1]⟩ 32) (n : Fin N) : Finset (Fin B) :=
  Finset.univ.filter fun e : Fin B => (rI (ix2 e (0 : Fin 1))).toInt = (n.val : Int)

/-- The row of an `N`-row table that edge `e`'s lookup word names. -/
def rowOf (hN : 0 < N) (sI : IVec ⟨2, ![B, 1]⟩ 32) (e : Fin B) : Fin N :=
  ⟨clampRow N (sI (ix2 e (0 : Fin 1))), clampRow_lt hN _⟩

/-- Scatter-add of update rows `u`, at `(n, j)`. -/
theorem scatter_rows (wfS : ScatterDims.WF ⟨2, ![N, C]⟩ ⟨2, ![B, 1]⟩ ⟨2, ![B, C]⟩ [1] [0] [0] 1)
    (z : (⟨2, ![N, C]⟩ : Shape).Idx → EReal) (rI : IVec ⟨2, ![B, 1]⟩ 32)
    (u : (⟨2, ![B, C]⟩ : Shape).Idx → EReal) (n : Fin N) (j : Fin C) :
    Host.scatterAdd (F := Ideal) (φ := .f32) (rowsDims N C B wfS) z rI u (ix2 n j)
      = z (ix2 n j) + ∑ e ∈ landing rI n, u (ix2 e j) :=
  scatterAdd_rows_apply wfS z rI u n j

/-- Lookup of rows, at `(e, j)`. -/
theorem gather_rows (hN : 0 < N)
    (wfG : GatherDims.WF ⟨2, ![N, C]⟩ ⟨2, ![B, 1]⟩ ⟨2, ![B, C]⟩ [1] [0] [] [0] [] 1 ![1, C])
    (x : (⟨2, ![N, C]⟩ : Shape).Idx → EReal) (sI : IVec ⟨2, ![B, 1]⟩ 32) (e : Fin B) (j : Fin C) :
    Host.gather (rowDims N C B wfG) x sI (ix2 e j) = x (ix2 (rowOf hN sI e) j) :=
  gather_rows_apply hN wfG x sI e j

/-- Lookup in a vector, at `e`. -/
theorem gather_vec (hN : 0 < N)
    (wfG : GatherDims.WF ⟨1, ![N]⟩ ⟨2, ![B, 1]⟩ ⟨1, ![B]⟩ [] [0] [] [0] [] 1 ![1])
    (x : (⟨1, ![N]⟩ : Shape).Idx → EReal) (sI : IVec ⟨2, ![B, 1]⟩ 32) (e : Fin B) :
    Host.gather (vecDims N B wfG) x sI (ix1 e) = x (ix1 (rowOf hN sI e)) :=
  gather_vec_apply hN wfG x sI e

end Cert.Edges

end
-- ==== Proof.KBridge.lean ====
/-
  The kernel program's host stretches read at an index, and one layer of the kernel program as the layer function
  `Spec.convK`: the rows of `pre H W d` (the product `H · W` with row `m` scaled by `d m`) are looked up along the
  sources, summed along the destinations, and the next kernel scales the sum by `d n`, adds the bias and rectifies.
-/
import proofs.«166952_j50646254354931_2_alg».proof.Proof.KTerm
import proofs.«166952_j50646254354931_2_alg».proof.Proof.Spec
import proofs.«166952_j50646254354931_2_alg».proof.Proof.Edges
import proofs.«166952_j50646254354931_2_alg».proof.Proof.LibColumn
import Idealize.ShloMosaic.Lib.Pipeline.Value

noncomputable section

open scoped BigOperators

namespace Cert.KernelIdeal.KBridge

open Idealize.ShloMosaic Idealize.ShloMosaic.ValueIdx Cert.KSpec Cert.Spec Cert.Edges Cert.KernelIdeal Cert.KernelIdeal.KTerm

variable [Facts₀]
open Facts₀

/-- The scaling factor of node `m`: the guarded inverse square root of its degree. -/
def dv (dst : IVec S800000 32) (m : Fin 50000) : EReal := dinvOf (deg dst (ix1 m))

theorem dv_nonneg_ne_top (dst : IVec S800000 32) (m : Fin 50000) : 0 ≤ dv dst m ∧ dv dst m ≠ ⊤ :=
  dinvOf_nonneg_ne_top _

/-- The guard around the inverse square root, on one entry. -/
theorem dinv_scalar (x : EReal) :
    Scalar.select (FloatOps.cmpf (F := Ideal) (φ := .f32) .ogt x (Ideal.ofBits .f32 0x00000000#32))
      (FloatOps.hostUnary (F := Ideal) (φ := .f32) .rsqrt x) (Ideal.ofBits .f32 0x00000000#32) = dinvOf x := rfl

theorem hostRsqrt_apply {s : Shape} {φ : FTy} (x : FVec Ideal s φ) (i : s.Idx) :
    Host.rsqrt x i = FloatOps.hostUnary .rsqrt (x i) := rfl

/-- The scaling column at row `m`. -/
theorem dinv2_apply (dst : IVec S800000 32) (m : Fin 50000) : dinv2 dst (ix2 m (0 : Fin 1)) = dv dst m := by
  refine (Column.shapeCast_a_a1_apply _ shapeCasts_S50000_S50000x1 m 0).trans ?_
  rw [select_apply, cmpf_apply, hostRsqrt_apply, Column.broadcastInDim_scalar_apply, constant_apply]
  unfold dv
  generalize deg dst (ix1 m) = x
  exact dinv_scalar x

/-- A bias vector read as a one-row matrix, at `(0, k)`. -/
theorem row_apply {b : ℕ} {α : Type} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- The neighbourhood sum at `(n, j)`: the zero literal plus the sum, over the edges landing on `n`, of entry `j` of
    the row the edge's source word names. -/
theorem agg64_apply (raw : FVec Ideal S50000x64 .bf16) (src dst : IVec S800000 32) (n : Fin 50000) (j : Fin 64) :
    agg64 raw src dst (ix2 n j)
      = zeroLit + ∑ e ∈ landing (rawIdx (cat dst)) n, raw (ix2 (rowOf (by decide) (normIdx (cat src)) e) j) := by
  unfold agg64
  refine (scatter_rows (N := 50000) (C := 64) (B := 850000) scatter_S50000x64_S850000x1_S850000x64_1_0_0_1.wf _ _ _ n j).trans ?_
  rw [Column.broadcastInDim_scalar_apply]
  refine congrArg₂ (· + ·) rfl (Finset.sum_congr rfl fun e _ => ?_)
  rw [extf_apply]
  exact gather_rows (N := 50000) (C := 64) (B := 850000) (by decide) gather_S50000x64_S850000x1_S850000x64_1_0_n_n_0_1_164.wf raw _ e j

theorem agg32_apply (raw : FVec Ideal S50000x32 .bf16) (src dst : IVec S800000 32) (n : Fin 50000) (j : Fin 32) :
    agg32 raw src dst (ix2 n j)
      = zeroLit + ∑ e ∈ landing (rawIdx (cat dst)) n, raw (ix2 (rowOf (by decide) (normIdx (cat src)) e) j) := by
  unfold agg32
  refine (scatter_rows (N := 50000) (C := 32) (B := 850000) scatter_S50000x32_S850000x1_S850000x32_1_0_0_1.wf _ _ _ n j).trans ?_
  rw [Column.broadcastInDim_scalar_apply]
  refine congrArg₂ (· + ·) rfl (Finset.sum_congr rfl fun e _ => ?_)
  rw [extf_apply]
  exact gather_rows (N := 50000) (C := 32) (B := 850000) (by decide) gather_S50000x32_S850000x1_S850000x32_1_0_n_n_0_1_132.wf raw _ e j

/-- One 64-column layer of the kernel program is the layer function. -/
theorem layer64 {A : Nat} (H : Arr2 50000 A) (W : Arr2 A 64) (b : FVec Ideal S64 .f32) (src dst : IVec S800000 32)
    (n : Fin 50000) (k : Fin 64) :
    act (agg64 (fun i => pre H W (dinv2 dst) (i 0) (i 1)) src dst) (dinv2 dst) (biasRow64 b) n k
      = convK H W (fun k => b (ix1 k)) (dv dst) (landing (rawIdx (cat dst))) (rowOf (by decide) (normIdx (cat src))) n k := by
  unfold act convK biasRow64
  rw [agg64_apply, dinv2_apply, row_apply]
  refine congrArg (fun s => lreluGT ((zeroLit + s) * dv dst n + b (ix1 k))) (Finset.sum_congr rfl fun e _ => ?_)
  show pre H W (dinv2 dst) _ _ = _
  unfold pre
  rw [dinv2_apply]

/-- The 32-column layer of the kernel program is the layer function. -/
theorem layer32 {A : Nat} (H : Arr2 50000 A) (W : Arr2 A 32) (b : FVec Ideal S32 .f32) (src dst : IVec S800000 32)
    (n : Fin 50000) (k : Fin 32) :
    act (agg32 (fun i => pre H W (dinv2 dst) (i 0) (i 1)) src dst) (dinv2 dst) (biasRow32 b) n k
      = convK H W (fun k => b (ix1 k)) (dv dst) (landing (rawIdx (cat dst))) (rowOf (by decide) (normIdx (cat src))) n k := by
  unfold act convK biasRow32
  rw [agg32_apply, dinv2_apply, row_apply]
  refine congrArg (fun s => lreluGT ((zeroLit + s) * dv dst n + b (ix1 k))) (Finset.sum_congr rfl fun e _ => ?_)
  show pre H W (dinv2 dst) _ _ = _
  unfold pre
  rw [dinv2_apply]

/-- The fused kernels are the first kernel on the activated rows. -/
theorem fused_eq_pre {N A B : Nat} (agg : Arr2 N A) (d : Arr2 N 1) (b : Arr2 1 A) (W : Arr2 A B) (n : Fin N) (j : Fin B) :
    fused agg d b W n j = pre (fun (i : (⟨2, ![N, A]⟩ : Shape).Idx) => act agg d b (i 0) (i 1)) W d n j := rfl

end Cert.KernelIdeal.KBridge

end
-- ==== Proof.LibBiasRows.lean ====
/-
  A bias row laid along every row, as a host program spells it.

  A vector `[Q]` is first stood up as one row `[1, Q]` (its axis sent to the second axis) and that row is then repeated
  along `M` rows (both axes kept): entry `(r, q)` of the result is entry `q` of the vector.
-/
import Idealize.ShloMosaic.Lib.ValueIdx
import Idealize.ShloMosaic.Lib.Pipeline.Value

noncomputable section

namespace Idealize.ShloMosaic.BiasRows

open Idealize.ShloMosaic Idealize.ShloMosaic.ValueIdx

/-- Entry `(r, q)` of a vector broadcast to one row and then to `M` rows is the vector's entry `q`. -/
theorem biasRows_apply {α : Type} {M Q : Nat} (b : (⟨1, ![Q]⟩ : Shape).Idx → α)
    (h1 : (⟨1, ![Q]⟩ : Shape).BroadcastsInDim ⟨2, ![1, Q]⟩ ![1])
    (h2 : (⟨2, ![1, Q]⟩ : Shape).BroadcastsInDim ⟨2, ![M, Q]⟩ ![0, 1]) (r : Fin M) (q : Fin Q) :
    broadcastInDim ⟨2, ![M, Q]⟩ ![0, 1] h2 (broadcastInDim ⟨2, ![1, Q]⟩ ![1] h1 b) (ix2 r q) = b (ix1 q) := by
  rw [broadcastInDim_apply ![0, 1] h2 _ (ix2 r q) (ix2 (0 : Fin 1) q) (fun a => by
    match a with
    | ⟨0, _⟩ => rfl
    | ⟨1, _⟩ =>
      show q.val = if Q = 1 then 0 else q.val
      split
      · have := q.isLt; omega
      · rfl)]
  exact broadcastInDim_apply ![1] h1 b (ix2 (0 : Fin 1) q) (ix1 q) (fun a => by
    match a with
    | ⟨0, _⟩ =>
      show q.val = if Q = 1 then 0 else q.val
      split
      · have := q.isLt; omega
      · rfl)

end Idealize.ShloMosaic.BiasRows

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«166952_j50646254354931_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.RBridge.lean ====
/-
  The reference program's graph convolution read at an index, and one layer of it as the layer function
  `Spec.convR`: the message of edge `e` is the source row of `H · W` times `dv (source) · dv (destination)`; the
  messages are summed along the destinations, the bias is added and the result rectified.
-/
import proofs.«166952_j50646254354931_2_alg».proof.Proof.RefTerm
import proofs.«166952_j50646254354931_2_alg».proof.Proof.Spec
import proofs.«166952_j50646254354931_2_alg».proof.Proof.Edges
import proofs.«166952_j50646254354931_2_alg».proof.Proof.LibColumn
import proofs.«166952_j50646254354931_2_alg».proof.Proof.LibBiasRows
import proofs.«166952_j50646254354931_2_alg».proof.Proof.LibDenseHost
import Idealize.ShloMosaic.Lib.Pipeline.Value

noncomputable section

open scoped BigOperators

namespace Cert.ReferenceIdeal.RBridge

open Idealize.ShloMosaic Idealize.ShloMosaic.ValueIdx Cert.KSpec Cert.Spec Cert.Edges Cert.ReferenceIdeal Cert.ReferenceIdeal.RefTerm

variable [Facts]
open Facts₀

theorem n_pos : 0 < 50000 := by decide

/-- The in-degree of each node, self-loop included. -/
def deg (dst : IVec S800000 32) : FVec Ideal S50000 .f32 :=
  Host.scatterAdd (F := Ideal) scatter_S50000_S850000x1_S850000_n_0_0_1
    (broadcastInDim S50000 ![] bcast_S_S50000 (constant (F := Ideal) S_ .f32 0x00000000#32))
    (rawIdx (cat dst))
    (broadcastInDim S850000 ![] bcast_S_S850000 (constant (F := Ideal) S_ .f32 0x3F800000#32))

/-- The scaling factor of node `m`: the guarded inverse square root of its degree. -/
def dv (dst : IVec S800000 32) (m : Fin 50000) : EReal := dinvOf (deg dst (ix1 m))

theorem dv_nonneg_ne_top (dst : IVec S800000 32) (m : Fin 50000) : 0 ≤ dv dst m ∧ dv dst m ≠ ⊤ :=
  dinvOf_nonneg_ne_top _

/-! ## Pointwise host operations at an index -/

theorem hostRsqrt_apply {s : Shape} {φ : FTy} (x : FVec Ideal s φ) (i : s.Idx) :
    Host.rsqrt x i = FloatOps.hostUnary .rsqrt (x i) := rfl

theorem cmpi_apply {s : Shape} {w : Nat} (p : CmpIPredicate) (x y : IVec s w) (i : s.Idx) :
    cmpi p x y i = IntOp.cmpi p (x i) (y i) := rfl

theorem addi_apply {s : Shape} {w : Nat} (x y : IVec s w) (i : s.Idx) : addi x y i = IntOp.addi (x i) (y i) := rfl

theorem constantI_apply {s : Shape} {w : Nat} (b : BitVec w) (i : s.Idx) : constantI s w b i = b := rfl

/-- The guard around the inverse square root, on one entry. -/
theorem dinv_scalar (x : EReal) :
    Scalar.select (FloatOps.cmpf (F := Ideal) (φ := .f32) .ogt x (Ideal.ofBits .f32 0x00000000#32))
      (FloatOps.hostUnary (F := Ideal) (φ := .f32) .rsqrt x) (Ideal.ofBits .f32 0x00000000#32) = dinvOf x := rfl

/-- The rectifier on one entry. -/
theorem lrelu_scalar (v : EReal) :
    Scalar.select (FloatOps.cmpf (F := Ideal) (φ := .f32) .oge v (Ideal.ofBits .f32 0x00000000#32)) v
      (Ideal.ofBits .f32 0x3C23D70A#32 * v) = lreluGE v := rfl

theorem zeroLit_def : Ideal.ofBits .f32 0x00000000#32 = zeroLit := rfl

/-! ## The index arrays -/

theorem rawIdx_apply (v : IVec S850000 32) (e : Fin 850000) : rawIdx v (ix2 e (0 : Fin 1)) = v (ix1 e) :=
  Column.broadcastInDim_a_a1_apply v bcast_S850000_S850000x1_0 e 0

theorem normIdx_eq (v : IVec S850000 32) :
    normIdx v = broadcastInDim S850000x1 ![0] bcast_S850000_S850000x1_0
      (select (cmpi .slt v (broadcastInDim S850000 ![] bcast_S_S850000 (constantI S_ 32 0#32)))
        (addi v (broadcastInDim S850000 ![] bcast_S_S850000 (constantI S_ 32 50000#32))) v) := rfl

theorem normIdx_apply (v : IVec S850000 32) (e : Fin 850000) :
    normIdx v (ix2 e (0 : Fin 1)) = normWord (v (ix1 e)) := by
  rw [normIdx_eq]
  refine (Column.broadcastInDim_a_a1_apply _ bcast_S850000_S850000x1_0 e 0).trans ?_
  rw [select_apply, cmpi_apply, addi_apply, Column.broadcastInDim_scalar_apply, Column.broadcastInDim_scalar_apply,
    constantI_apply, constantI_apply]
  generalize v (ix1 e) = w
  rfl

/-- Every edge landing on `n` reads `n` as its destination. -/
theorem dst_row (dst : IVec S800000 32) (n : Fin 50000) (e : Fin 850000) (he : e ∈ landing (rawIdx (cat dst)) n) :
    rowOf n_pos (normIdx (cat dst)) e = n := by
  have h := (Finset.mem_filter.mp he).2
  rw [rawIdx_apply] at h
  apply Fin.ext
  show GatherRows.clampRow 50000 (normIdx (cat dst) (ix2 e (0 : Fin 1))) = n.val
  rw [normIdx_apply]
  exact clampRow_normWord _ n h

/-! ## The scaling factors -/

theorem dinv_eq (dst : IVec S800000 32) :
    dinv dst = select
      (cmpf (F := Ideal) .ogt (deg dst) (broadcastInDim S50000 ![] bcast_S_S50000 (constant (F := Ideal) S_ .f32 0x00000000#32)))
      (Host.rsqrt (F := Ideal) (deg dst))
      (broadcastInDim S50000 ![] bcast_S_S50000 (constant (F := Ideal) S_ .f32 0x00000000#32)) := rfl

theorem dinv_apply (dst : IVec S800000 32) (m : Fin 50000) : dinv dst (ix1 m) = dv dst m := by
  rw [dinv_eq, select_apply, cmpf_apply, hostRsqrt_apply, Column.broadcastInDim_scalar_apply, constant_apply]
  unfold dv
  generalize deg dst (ix1 m) = x
  exact dinv_scalar x

theorem norm_eq (src dst : IVec S800000 32) :
    norm src dst = mulf (Host.gather gather_S50000_S850000x1_S850000_n_0_n_n_0_1_1 (dinv dst) (normIdx (cat src)))
      (Host.gather gather_S50000_S850000x1_S850000_n_0_n_n_0_1_1 (dinv dst) (normIdx (cat dst))) := rfl

/-- The weight of edge `e`. -/
theorem norm_apply (src dst : IVec S800000 32) (e : Fin 850000) :
    norm src dst (ix1 e) = dv dst (rowOf n_pos (normIdx (cat src)) e) * dv dst (rowOf n_pos (normIdx (cat dst)) e) := by
  rw [norm_eq, mulf_apply]
  refine congrArg₂ (· * ·) ?_ ?_
  · refine (gather_vec (N := 50000) (B := 850000) n_pos gather_S50000_S850000x1_S850000_n_0_n_n_0_1_1.wf _ _ e).trans ?_
    exact dinv_apply dst _
  · refine (gather_vec (N := 50000) (B := 850000) n_pos gather_S50000_S850000x1_S850000_n_0_n_n_0_1_1.wf _ _ e).trans ?_
    exact dinv_apply dst _

end Cert.ReferenceIdeal.RBridge

end
-- ==== Proof.RBridge2.lean ====
/-
  The reference program's convolution, rectifier and dense products read at an index; one layer of the reference as
  the layer function `Spec.convR`.
-/
import proofs.«166952_j50646254354931_2_alg».proof.Proof.RBridge

noncomputable section

open scoped BigOperators

namespace Cert.ReferenceIdeal.RBridge

open Idealize.ShloMosaic Idealize.ShloMosaic.ValueIdx Cert.KSpec Cert.Spec Cert.Edges Cert.ReferenceIdeal Cert.ReferenceIdeal.RefTerm

variable [Facts]
open Facts₀

theorem conv64_eq (h : FVec Ideal S50000x64 .f32) (b : FVec Ideal S64 .f32) (src dst : IVec S800000 32) :
    conv64 h b src dst = addf
      (Host.scatterAdd scatter_S50000x64_S850000x1_S850000x64_1_0_0_1
        (broadcastInDim S50000x64 ![] bcast_S_S50000x64 (constant (F := Ideal) S_ .f32 0x00000000#32))
        (rawIdx (cat dst))
        (mulf (Host.gather gather_S50000x64_S850000x1_S850000x64_1_0_n_n_0_1_164 h (normIdx (cat src)))
          (broadcastInDim S850000x64 ![0, 1] bcast_S850000x1_S850000x64_0_1
            (broadcastInDim S850000x1 ![0] bcast_S850000_S850000x1_0 (norm src dst)))))
      (broadcastInDim S50000x64 ![0, 1] bcast_S1x64_S50000x64_0_1 (broadcastInDim S1x64 ![1] bcast_S64_S1x64_1 b)) := rfl

/-- The convolution at `(n, j)`. -/
theorem conv64_apply (h : FVec Ideal S50000x64 .f32) (b : FVec Ideal S64 .f32) (src dst : IVec S800000 32)
    (n : Fin 50000) (j : Fin 64) :
    conv64 h b src dst (ix2 n j)
      = (zeroLit + ∑ e ∈ landing (rawIdx (cat dst)) n,
          h (ix2 (rowOf n_pos (normIdx (cat src)) e) j)
            * (dv dst (rowOf n_pos (normIdx (cat src)) e) * dv dst (rowOf n_pos (normIdx (cat dst)) e)))
        + b (ix1 j) := by
  rw [conv64_eq, addf_apply, BiasRows.biasRows_apply]
  refine congrArg (fun t => t + b (ix1 j)) ?_
  refine (scatter_rows (N := 50000) (C := 64) (B := 850000) scatter_S50000x64_S850000x1_S850000x64_1_0_0_1.wf _ _ _ n j).trans ?_
  rw [Column.broadcastInDim_scalar_apply, constant_apply, zeroLit_def]
  refine congrArg (fun s => zeroLit + s) (Finset.sum_congr rfl fun e _ => ?_)
  rw [mulf_apply, Column.broadcastInDim_a1_ab_apply, Column.broadcastInDim_a_a1_apply, norm_apply]
  refine congrArg₂ (· * ·) ?_ rfl
  exact gather_rows (N := 50000) (C := 64) (B := 850000) n_pos gather_S50000x64_S850000x1_S850000x64_1_0_n_n_0_1_164.wf h _ e j

theorem lrelu64_eq (x : FVec Ideal S50000x64 .f32) :
    lrelu64 x = select
      (cmpf (F := Ideal) .oge x (broadcastInDim S50000x64 ![] bcast_S_S50000x64 (constant (F := Ideal) S_ .f32 0x00000000#32)))
      x (mulf (broadcastInDim S50000x64 ![] bcast_S_S50000x64 (constant (F := Ideal) S_ .f32 0x3C23D70A#32)) x) := rfl

/-- The rectifier at an index. -/
theorem lrelu64_apply (x : FVec Ideal S50000x64 .f32) (i : S50000x64.Idx) : lrelu64 x i = lreluGE (x i) := by
  rw [lrelu64_eq, select_apply, cmpf_apply, mulf_apply, Column.broadcastInDim_scalar_apply,
    Column.broadcastInDim_scalar_apply, constant_apply, constant_apply]
  generalize x i = v
  exact lrelu_scalar v

/-- One 64-column layer of the reference is the layer function, given the dense product read at an index. -/
theorem layer64_apply {A : Nat} (H : Arr2 50000 A) (W : Arr2 A 64) (hw : FVec Ideal S50000x64 .f32)
    (hhw : ∀ (m : Fin 50000) (j : Fin 64), hw (ix2 m j) = dense H W m j)
    (b : FVec Ideal S64 .f32) (src dst : IVec S800000 32) (n : Fin 50000) (j : Fin 64) :
    lrelu64 (conv64 hw b src dst) (ix2 n j)
      = convR H W (fun k => b (ix1 k)) (dv dst) (landing (rawIdx (cat dst))) (rowOf n_pos (normIdx (cat src)))
          (rowOf n_pos (normIdx (cat dst))) n j := by
  rw [lrelu64_apply, conv64_apply]
  unfold convR
  refine congrArg (fun s => lreluGE ((zeroLit + s) + b (ix1 j))) (Finset.sum_congr rfl fun e _ => ?_)
  rw [hhw]

theorem conv32_eq (h : FVec Ideal S50000x32 .f32) (b : FVec Ideal S32 .f32) (src dst : IVec S800000 32) :
    conv32 h b src dst = addf
      (Host.scatterAdd scatter_S50000x32_S850000x1_S850000x32_1_0_0_1
        (broadcastInDim S50000x32 ![] bcast_S_S50000x32 (constant (F := Ideal) S_ .f32 0x00000000#32))
        (rawIdx (cat dst))
        (mulf (Host.gather gather_S50000x32_S850000x1_S850000x32_1_0_n_n_0_1_132 h (normIdx (cat src)))
          (broadcastInDim S850000x32 ![0, 1] bcast_S850000x1_S850000x32_0_1
            (broadcastInDim S850000x1 ![0] bcast_S850000_S850000x1_0 (norm src dst)))))
      (broadcastInDim S50000x32 ![0, 1] bcast_S1x32_S50000x32_0_1 (broadcastInDim S1x32 ![1] bcast_S32_S1x32_1 b)) := rfl

/-- The convolution at `(n, j)`. -/
theorem conv32_apply (h : FVec Ideal S50000x32 .f32) (b : FVec Ideal S32 .f32) (src dst : IVec S800000 32)
    (n : Fin 50000) (j : Fin 32) :
    conv32 h b src dst (ix2 n j)
      = (zeroLit + ∑ e ∈ landing (rawIdx (cat dst)) n,
          h (ix2 (rowOf n_pos (normIdx (cat src)) e) j)
            * (dv dst (rowOf n_pos (normIdx (cat src)) e) * dv dst (rowOf n_pos (normIdx (cat dst)) e)))
        + b (ix1 j) := by
  rw [conv32_eq, addf_apply, BiasRows.biasRows_apply]
  refine congrArg (fun t => t + b (ix1 j)) ?_
  refine (scatter_rows (N := 50000) (C := 32) (B := 850000) scatter_S50000x32_S850000x1_S850000x32_1_0_0_1.wf _ _ _ n j).trans ?_
  rw [Column.broadcastInDim_scalar_apply, constant_apply, zeroLit_def]
  refine congrArg (fun s => zeroLit + s) (Finset.sum_congr rfl fun e _ => ?_)
  rw [mulf_apply, Column.broadcastInDim_a1_ab_apply, Column.broadcastInDim_a_a1_apply, norm_apply]
  refine congrArg₂ (· * ·) ?_ rfl
  exact gather_rows (N := 50000) (C := 32) (B := 850000) n_pos gather_S50000x32_S850000x1_S850000x32_1_0_n_n_0_1_132.wf h _ e j

theorem lrelu32_eq (x : FVec Ideal S50000x32 .f32) :
    lrelu32 x = select
      (cmpf (F := Ideal) .oge x (broadcastInDim S50000x32 ![] bcast_S_S50000x32 (constant (F := Ideal) S_ .f32 0x00000000#32)))
      x (mulf (broadcastInDim S50000x32 ![] bcast_S_S50000x32 (constant (F := Ideal) S_ .f32 0x3C23D70A#32)) x) := rfl

/-- The rectifier at an index. -/
theorem lrelu32_apply (x : FVec Ideal S50000x32 .f32) (i : S50000x32.Idx) : lrelu32 x i = lreluGE (x i) := by
  rw [lrelu32_eq, select_apply, cmpf_apply, mulf_apply, Column.broadcastInDim_scalar_apply,
    Column.broadcastInDim_scalar_apply, constant_apply, constant_apply]
  generalize x i = v
  exact lrelu_scalar v

/-- One 32-column layer of the reference is the layer function, given the dense product read at an index. -/
theorem layer32_apply {A : Nat} (H : Arr2 50000 A) (W : Arr2 A 32) (hw : FVec Ideal S50000x32 .f32)
    (hhw : ∀ (m : Fin 50000) (j : Fin 32), hw (ix2 m j) = dense H W m j)
    (b : FVec Ideal S32 .f32) (src dst : IVec S800000 32) (n : Fin 50000) (j : Fin 32) :
    lrelu32 (conv32 hw b src dst) (ix2 n j)
      = convR H W (fun k => b (ix1 k)) (dv dst) (landing (rawIdx (cat dst))) (rowOf n_pos (normIdx (cat src)))
          (rowOf n_pos (normIdx (cat dst))) n j := by
  rw [lrelu32_apply, conv32_apply]
  unfold convR
  refine congrArg (fun s => lreluGE ((zeroLit + s) + b (ix1 j))) (Finset.sum_congr rfl fun e _ => ?_)
  rw [hhw]

/-! ## The dense products -/

theorem hostDot_apply {K N Q : Nat} (wf : DotDims.WF ⟨2, ![K, N]⟩ ⟨2, ![N, Q]⟩ ⟨2, ![K, Q]⟩ [1] [0] [0] [1] [] [])
    (l : FVec Ideal ⟨2, ![K, N]⟩ .f32) (r : FVec Ideal ⟨2, ![N, Q]⟩ .f32) (k : Fin K) (q : Fin Q) :
    Host.dotGeneral (F := Ideal) (DenseBlock.mmDims K N Q wf) none l r (ix2 k q) = dense l r k q :=
  DenseBlock.dotGeneral_apply_ix2 wf _ l r k q

theorem dot128_apply (x : FVec Ideal S50000x128 .f32) (W : FVec Ideal S128x64 .f32) (m : Fin 50000) (j : Fin 64) :
    Host.dotGeneral (F := Ideal) dot_S50000x128_S128x64_S50000x64_1_0_0_1_n_n none x W (ix2 m j) = dense (N := 50000) (A := 128) (B := 64) x W m j :=
  hostDot_apply (K := 50000) (N := 128) (Q := 64) dot_S50000x128_S128x64_S50000x64_1_0_0_1_n_n.wf x W m j

theorem dot64_apply (x : FVec Ideal S50000x64 .f32) (W : FVec Ideal S64x64 .f32) (m : Fin 50000) (j : Fin 64) :
    Host.dotGeneral (F := Ideal) dot_S50000x64_S64x64_S50000x64_1_0_0_1_n_n none x W (ix2 m j) = dense (N := 50000) (A := 64) (B := 64) x W m j :=
  hostDot_apply (K := 50000) (N := 64) (Q := 64) dot_S50000x64_S64x64_S50000x64_1_0_0_1_n_n.wf x W m j

theorem dot32_apply (x : FVec Ideal S50000x64 .f32) (W : FVec Ideal S64x32 .f32) (m : Fin 50000) (j : Fin 32) :
    Host.dotGeneral (F := Ideal) dot_S50000x64_S64x32_S50000x32_1_0_0_1_n_n none x W (ix2 m j) = dense (N := 50000) (A := 64) (B := 32) x W m j :=
  hostDot_apply (K := 50000) (N := 64) (Q := 32) dot_S50000x64_S64x32_S50000x32_1_0_0_1_n_n.wf x W m j

end Cert.ReferenceIdeal.RBridge

end
-- ==== Proof.Cross.lean ====
/-
  The two programs prepare the edge lists and the degrees with the same host operations: the prepared arrays are
  the same arrays.
-/
import proofs.«166952_j50646254354931_2_alg».proof.Proof.KBridge
import proofs.«166952_j50646254354931_2_alg».proof.Proof.RBridge

noncomputable section

namespace Cert.Cross

open Idealize.ShloMosaic Idealize.ShloMosaic.ValueIdx

variable [Cert.KernelIdeal.Facts₀] [Cert.ReferenceIdeal.Facts]

theorem cat_eq (e : IVec ⟨1, ![800000]⟩ 32) : Cert.KernelIdeal.KTerm.cat e = Cert.ReferenceIdeal.RefTerm.cat e := rfl

theorem rawIdx_eq (v : IVec ⟨1, ![850000]⟩ 32) :
    Cert.KernelIdeal.KTerm.rawIdx v = Cert.ReferenceIdeal.RefTerm.rawIdx v := rfl

theorem normIdx_eq (v : IVec ⟨1, ![850000]⟩ 32) :
    Cert.KernelIdeal.KTerm.normIdx v = Cert.ReferenceIdeal.RefTerm.normIdx v := rfl

theorem deg_eq (dst : IVec ⟨1, ![800000]⟩ 32) :
    Cert.KernelIdeal.KTerm.deg dst = Cert.ReferenceIdeal.RBridge.deg dst := by
  unfold Cert.KernelIdeal.KTerm.deg Cert.ReferenceIdeal.RBridge.deg
  rw [cat_eq, rawIdx_eq]
  rfl

theorem dv_eq (dst : IVec ⟨1, ![800000]⟩ 32) (m : Fin 50000) :
    Cert.KernelIdeal.KBridge.dv dst m = Cert.ReferenceIdeal.RBridge.dv dst m := by
  unfold Cert.KernelIdeal.KBridge.dv Cert.ReferenceIdeal.RBridge.dv
  rw [deg_eq]

end Cert.Cross

end
-- ==== Proof.Bridge.lean ====
/-
  The two programs compute the same four layers.  `X1 … X4` are the layers' outputs as the layer function of
  `Spec` (the reference's arrangement); the reference's terms are these by reading them at an index, the kernel
  program's by reading them at an index and moving each destination's factor inside its sum (`Spec.conv_eq`).
-/
import proofs.«166952_j50646254354931_2_alg».proof.Proof.KBridge
import proofs.«166952_j50646254354931_2_alg».proof.Proof.RBridge2
import proofs.«166952_j50646254354931_2_alg».proof.Proof.Cross
import proofs.«166952_j50646254354931_2_alg».proof.Proof.KNet

noncomputable section

open scoped BigOperators

namespace Cert.Bridge

open Idealize.ShloMosaic Idealize.ShloMosaic.ValueIdx Cert.KSpec Cert.Spec Cert.Edges
open Cert.ReferenceIdeal.RBridge (n_pos)

variable [Cert.KernelIdeal.Facts₀] [Cert.ReferenceIdeal.Facts]

variable (a0 : Arr2 50000 128) (a1 a2 : IVec ⟨1, ![800000]⟩ 32) (a3 : Arr2 128 64)
  (a4 : (⟨1, ![64]⟩ : Shape).Idx → EReal) (a5 : Arr2 64 64) (a6 : (⟨1, ![64]⟩ : Shape).Idx → EReal) (a7 : Arr2 64 64)
  (a8 : (⟨1, ![64]⟩ : Shape).Idx → EReal) (a9 : Arr2 64 32) (a10 : (⟨1, ![32]⟩ : Shape).Idx → EReal)

/-- One layer in the reference's arrangement, on the edge data of `src`, `dst`. -/
def layer {A B : Nat} (src dst : IVec ⟨1, ![800000]⟩ 32) (H : Arr2 50000 A) (W : Arr2 A B)
    (b : (⟨1, ![B]⟩ : Shape).Idx → EReal) : Arr2 50000 B :=
  fun i => convR H W (fun k => b (ix1 k)) (Cert.ReferenceIdeal.RBridge.dv dst)
    (landing (Cert.ReferenceIdeal.RefTerm.rawIdx (Cert.ReferenceIdeal.RefTerm.cat dst)))
    (rowOf n_pos (Cert.ReferenceIdeal.RefTerm.normIdx (Cert.ReferenceIdeal.RefTerm.cat src)))
    (rowOf n_pos (Cert.ReferenceIdeal.RefTerm.normIdx (Cert.ReferenceIdeal.RefTerm.cat dst))) (i 0) (i 1)

theorem layer_apply {A B : Nat} (src dst : IVec ⟨1, ![800000]⟩ 32) (H : Arr2 50000 A) (W : Arr2 A B)
    (b : (⟨1, ![B]⟩ : Shape).Idx → EReal) (n : Fin 50000) (j : Fin B) :
    layer src dst H W b (ix2 n j) = convR H W (fun k => b (ix1 k)) (Cert.ReferenceIdeal.RBridge.dv dst)
      (landing (Cert.ReferenceIdeal.RefTerm.rawIdx (Cert.ReferenceIdeal.RefTerm.cat dst)))
      (rowOf n_pos (Cert.ReferenceIdeal.RefTerm.normIdx (Cert.ReferenceIdeal.RefTerm.cat src)))
      (rowOf n_pos (Cert.ReferenceIdeal.RefTerm.normIdx (Cert.ReferenceIdeal.RefTerm.cat dst))) n j := rfl

/-- The four layers' outputs. -/
def X1 : Arr2 50000 64 := layer a1 a2 a0 a3 a4
def X2 : Arr2 50000 64 := layer a1 a2 (X1 a0 a1 a2 a3 a4) a5 a6
def X3 : Arr2 50000 64 := layer a1 a2 (X2 a0 a1 a2 a3 a4 a5 a6) a7 a8
def X4 : Arr2 50000 32 := layer a1 a2 (X3 a0 a1 a2 a3 a4 a5 a6 a7 a8) a9 a10

/-! ## The reference's layers -/

open Cert.ReferenceIdeal Cert.ReferenceIdeal.RefTerm in
theorem ref_layer64 {A : Nat} (src dst : IVec ⟨1, ![800000]⟩ 32) (H : Arr2 50000 A) (W : Arr2 A 64)
    (hw : FVec Ideal S50000x64 .f32) (hhw : ∀ (m : Fin 50000) (j : Fin 64), hw (ix2 m j) = dense H W m j)
    (b : (⟨1, ![64]⟩ : Shape).Idx → EReal) : lrelu64 (conv64 hw b src dst) = layer src dst H W b := by
  funext i
  obtain ⟨n, j, rfl⟩ : ∃ (n : Fin 50000) (j : Fin 64), i = ix2 n j := ⟨i 0, i 1, eq_ix2 i⟩
  rw [layer_apply]
  exact Cert.ReferenceIdeal.RBridge.layer64_apply H W hw hhw b src dst n j

open Cert.ReferenceIdeal Cert.ReferenceIdeal.RefTerm in
theorem ref_layer32 {A : Nat} (src dst : IVec ⟨1, ![800000]⟩ 32) (H : Arr2 50000 A) (W : Arr2 A 32)
    (hw : FVec Ideal S50000x32 .f32) (hhw : ∀ (m : Fin 50000) (j : Fin 32), hw (ix2 m j) = dense H W m j)
    (b : (⟨1, ![32]⟩ : Shape).Idx → EReal) : lrelu32 (conv32 hw b src dst) = layer src dst H W b := by
  funext i
  obtain ⟨n, j, rfl⟩ : ∃ (n : Fin 50000) (j : Fin 32), i = ix2 n j := ⟨i 0, i 1, eq_ix2 i⟩
  rw [layer_apply]
  exact Cert.ReferenceIdeal.RBridge.layer32_apply H W hw hhw b src dst n j

open Cert.ReferenceIdeal Cert.ReferenceIdeal.RefTerm Cert.ReferenceIdeal.RBridge in
theorem ref1 : h1 a0 a1 a2 a3 a4 = X1 a0 a1 a2 a3 a4 :=
  ref_layer64 a1 a2 a0 a3 _ (dot128_apply a0 a3) a4

open Cert.ReferenceIdeal Cert.ReferenceIdeal.RefTerm Cert.ReferenceIdeal.RBridge in
theorem ref2 : h2 a0 a1 a2 a3 a4 a5 a6 = X2 a0 a1 a2 a3 a4 a5 a6 := by
  unfold h2 layer64
  rw [ref1]
  exact ref_layer64 a1 a2 (X1 a0 a1 a2 a3 a4) a5 _ (dot64_apply (X1 a0 a1 a2 a3 a4) a5) a6

open Cert.ReferenceIdeal Cert.ReferenceIdeal.RefTerm Cert.ReferenceIdeal.RBridge in
theorem ref3 : h3 a0 a1 a2 a3 a4 a5 a6 a7 a8 = X3 a0 a1 a2 a3 a4 a5 a6 a7 a8 := by
  unfold h3 layer64
  rw [ref2]
  exact ref_layer64 a1 a2 (X2 a0 a1 a2 a3 a4 a5 a6) a7 _ (dot64_apply (X2 a0 a1 a2 a3 a4 a5 a6) a7) a8

open Cert.ReferenceIdeal Cert.ReferenceIdeal.RefTerm Cert.ReferenceIdeal.RBridge in
theorem ref4 : h4 a0 a1 a2 a3 a4 a5 a6 a7 a8 a9 a10 = X4 a0 a1 a2 a3 a4 a5 a6 a7 a8 a9 a10 := by
  unfold h4 layer32
  rw [ref3]
  exact ref_layer32 a1 a2 (X3 a0 a1 a2 a3 a4 a5 a6 a7 a8) a9 _ (dot32_apply (X3 a0 a1 a2 a3 a4 a5 a6 a7 a8) a9) a10

/-! ## The kernel program's layers -/

open Cert.KernelIdeal Cert.KernelIdeal.KTerm in
/-- One 64-column step of the kernel program: the neighbourhood sum of the pre-scaled product, then the next
    kernel's scaling, bias and rectifier, is the layer. -/
theorem ker_step64 {A : Nat} (src dst : IVec ⟨1, ![800000]⟩ 32) (H : Arr2 50000 A) (W : Arr2 A 64)
    (b : (⟨1, ![64]⟩ : Shape).Idx → EReal) :
    (fun i : (⟨2, ![50000, 64]⟩ : Shape).Idx =>
      act (agg64 (fun i => pre H W (dinv2 dst) (i 0) (i 1)) src dst) (dinv2 dst) (biasRow64 b) (i 0) (i 1))
      = layer src dst H W b := by
  funext i
  obtain ⟨n, j, rfl⟩ : ∃ (n : Fin 50000) (j : Fin 64), i = ix2 n j := ⟨i 0, i 1, eq_ix2 i⟩
  rw [layer_apply]
  show act (agg64 (fun i => pre H W (dinv2 dst) (i 0) (i 1)) src dst) (dinv2 dst) (biasRow64 b) n j = _
  rw [Cert.KernelIdeal.KBridge.layer64, Cert.Cross.cat_eq, Cert.Cross.cat_eq, Cert.Cross.rawIdx_eq, Cert.Cross.normIdx_eq,
    show Cert.KernelIdeal.KBridge.dv dst = Cert.ReferenceIdeal.RBridge.dv dst from funext (Cert.Cross.dv_eq dst)]
  exact conv_eq _ _ _ _ _ _ _ (Cert.ReferenceIdeal.RBridge.dv_nonneg_ne_top dst) (Cert.ReferenceIdeal.RBridge.dst_row dst) n j

open Cert.KernelIdeal Cert.KernelIdeal.KTerm in
theorem ker_step32 {A : Nat} (src dst : IVec ⟨1, ![800000]⟩ 32) (H : Arr2 50000 A) (W : Arr2 A 32)
    (b : (⟨1, ![32]⟩ : Shape).Idx → EReal) :
    (fun i : (⟨2, ![50000, 32]⟩ : Shape).Idx =>
      act (agg32 (fun i => pre H W (dinv2 dst) (i 0) (i 1)) src dst) (dinv2 dst) (biasRow32 b) (i 0) (i 1))
      = layer src dst H W b := by
  funext i
  obtain ⟨n, j, rfl⟩ : ∃ (n : Fin 50000) (j : Fin 32), i = ix2 n j := ⟨i 0, i 1, eq_ix2 i⟩
  rw [layer_apply]
  show act (agg32 (fun i => pre H W (dinv2 dst) (i 0) (i 1)) src dst) (dinv2 dst) (biasRow32 b) n j = _
  rw [Cert.KernelIdeal.KBridge.layer32, Cert.Cross.cat_eq, Cert.Cross.cat_eq, Cert.Cross.rawIdx_eq, Cert.Cross.normIdx_eq,
    show Cert.KernelIdeal.KBridge.dv dst = Cert.ReferenceIdeal.RBridge.dv dst from funext (Cert.Cross.dv_eq dst)]
  exact conv_eq _ _ _ _ _ _ _ (Cert.ReferenceIdeal.RBridge.dv_nonneg_ne_top dst) (Cert.ReferenceIdeal.RBridge.dst_row dst) n j

/-- A fused kernel's output array is the first kernel's on the activated rows. -/
theorem fused_fun {A B : Nat} (agg : Arr2 50000 A) (d : Arr2 50000 1) (b : Arr2 1 A) (W : Arr2 A B) :
    (fun i : (⟨2, ![50000, B]⟩ : Shape).Idx => fused agg d b W (i 0) (i 1))
      = fun i => pre (fun (i : (⟨2, ![50000, A]⟩ : Shape).Idx) => act agg d b (i 0) (i 1)) W d (i 0) (i 1) := rfl

open Cert.KernelIdeal Cert.KernelIdeal.KTerm Cert.KernelIdeal.KNet in
theorem ker1 : (fun i : (⟨2, ![50000, 64]⟩ : Shape).Idx =>
      act (agg0 a0 a1 a2 a3) (dinv2 a2) (biasRow64 a4) (i 0) (i 1)) = X1 a0 a1 a2 a3 a4 :=
  ker_step64 a1 a2 a0 a3 a4

open Cert.KernelIdeal Cert.KernelIdeal.KTerm Cert.KernelIdeal.KNet in
theorem ker2 : (fun i : (⟨2, ![50000, 64]⟩ : Shape).Idx =>
      act (agg1 a0 a1 a2 a3 a4 a5) (dinv2 a2) (biasRow64 a6) (i 0) (i 1)) = X2 a0 a1 a2 a3 a4 a5 a6 := by
  unfold agg1 raw1
  rw [fused_fun, ker1]
  exact ker_step64 a1 a2 (X1 a0 a1 a2 a3 a4) a5 a6

open Cert.KernelIdeal Cert.KernelIdeal.KTerm Cert.KernelIdeal.KNet in
theorem ker3 : (fun i : (⟨2, ![50000, 64]⟩ : Shape).Idx =>
      act (agg2 a0 a1 a2 a3 a4 a5 a6 a7) (dinv2 a2) (biasRow64 a8) (i 0) (i 1)) = X3 a0 a1 a2 a3 a4 a5 a6 a7 a8 := by
  unfold agg2 raw2
  rw [fused_fun, ker2]
  exact ker_step64 a1 a2 (X2 a0 a1 a2 a3 a4 a5 a6) a7 a8

open Cert.KernelIdeal Cert.KernelIdeal.KTerm Cert.KernelIdeal.KNet in
theorem ker4 : h4 a0 a1 a2 a3 a4 a5 a6 a7 a8 a9 a10 = X4 a0 a1 a2 a3 a4 a5 a6 a7 a8 a9 a10 := by
  unfold h4 agg3 raw3
  rw [fused_fun, ker3]
  exact ker_step32 a1 a2 (X3 a0 a1 a2 a3 a4 a5 a6 a7 a8) a9 a10

/-- The last layer's activations are the same array in the two programs. -/
theorem h4_eq : Cert.KernelIdeal.KNet.h4 a0 a1 a2 a3 a4 a5 a6 a7 a8 a9 a10
    = Cert.ReferenceIdeal.RefTerm.h4 a0 a1 a2 a3 a4 a5 a6 a7 a8 a9 a10 := by
  rw [ker4, ref4]

end Cert.Bridge

end
-- ==== Proof.RTail.lean ====
import proofs.«166952_j50646254354931_2_alg».proof.Proof.RefTerm
import proofs.«166952_j50646254354931_2_alg».proof.Proof.KSpec
import proofs.«166952_j50646254354931_2_alg».proof.Proof.LibColumn
import proofs.«166952_j50646254354931_2_alg».proof.Proof.LibBiasRows
import proofs.«166952_j50646254354931_2_alg».proof.Proof.LibDenseHost
import Idealize.ShloMosaic.PureOps.Ideal.Laws
import Idealize.ShloMosaic.Lib.ValueIdx
import Idealize.ShloMosaic.Lib.Pipeline.Value

/-!
# The tail of the reference, entry by entry

The reference ends with a row softmax, the division of each softmax row by its own maximum, and an affine map.
Here each of the three arrays is read at one entry and shown to be the closed form of `KSpec`:

* `softmax_apply`: entry `(n, j)` of the softmax is `exp (h(n,j) − M) / Σ_k exp (h(n,k) − M)`, `M` the maximum of row `n`;
* `concepts_apply`: entry `(n, j)` of the first result is that quotient over the maximum of its row;
* `logits_apply`: entry `(n, q)` of the second result is `Σ_j c(n,j) · W(j,q) + b(q)`, `c` the first result.

Every whole-array operation is first read at an index over arbitrary operands (a quotient and an exponential
entry by entry; a reduction over the columns as a fold or a sum over the 32 columns of the row; a broadcast of a
column or of a scalar as the entry it repeats; the product as a sum over the contracted index), and the three
arrays are then rewritten operation by operation. The reference folds the row maximum from `-inf` and joins it with
`-inf` once more, which changes nothing.
-/

noncomputable section

open scoped BigOperators

namespace Cert.ReferenceIdeal.RTail

open Idealize.ShloMosaic Idealize.ShloMosaic.ValueIdx Cert.ReferenceIdeal
open Facts₀ Facts

variable [Cert.ReferenceIdeal.Facts]

/-! ## One operation at one index, over any operands -/

/-- The host's quotient, entry by entry. -/
theorem hdivf_apply {s : Shape} {φ : FTy} (x y : FVec Ideal s φ) (i : s.Idx) :
    Host.divf x y i = Ideal.div (x i) (y i) := rfl

/-- The host's exponential, entry by entry. -/
theorem hexp_apply {s : Shape} {φ : FTy} (x : FVec Ideal s φ) (i : s.Idx) :
    Host.exp x i = Ideal.exp (x i) := rfl

/-- Inserting column `k` into the row index `n` gives the entry `(n, k)`. -/
theorem lift_eq (hR : S50000x32.Reduces [1] S50000) (n : Fin 50000) (k : Fin 32) :
    hR.lift (ix1 n) k = ix2 n k := by
  funext c
  match c with
  | ⟨0, _⟩ => exact Fin.ext rfl
  | ⟨1, _⟩ => exact Fin.ext rfl

/-- Joining `-inf` with a maximum folded from `-inf` changes nothing. -/
theorem max_negInf_rowMax {C : Nat} (f : Fin C → EReal) :
    max Cert.KSpec.negInfLit (Cert.KSpec.rowMax f) = Cert.KSpec.rowMax f :=
  max_eq_right ((Finset.le_fold_max _).mpr (Or.inl le_rfl))

/-- The maximum over the columns, folded from `-inf`, at row `n`. -/
theorem reduceMax_apply (x : FVec Ideal S50000x32 .f32) (n : Fin 50000) :
    Host.reduce FloatOps.maximumf x (constant (F := Ideal) S_ .f32 0xFF800000#32) reducesTo_S50000x32_S50000_d1 h_S_ (ix1 n)
      = Cert.KSpec.rowMax (fun k : Fin 32 => x (ix2 n k)) := by
  have hR : S50000x32.Reduces [1] S50000 := by decide
  rw [Host.reduce_eq_fold_single FloatOps.maximumf x _ reducesTo_S50000x32_S50000_d1 hR h_S_ (ix1 n)]
  have hl : (x ∘ hR.lift (ix1 n)) = fun k : Fin 32 => x (ix2 n k) := by
    funext k; exact congrArg x (lift_eq hR n k)
  rw [hl]; rfl

/-- The sum over the columns, from zero, at row `n`. -/
theorem reduceAdd_apply (x : FVec Ideal S50000x32 .f32) (n : Fin 50000) :
    Host.reduceAdd x (constant (F := Ideal) S_ .f32 0x00000000#32) reducesTo_S50000x32_S50000_d1 h_S_ (ix1 n)
      = ∑ k : Fin 32, x (ix2 n k) := by
  have hR : S50000x32.Reduces [1] S50000 := by decide
  have e : Host.reduceAdd x (constant (F := Ideal) S_ .f32 0x00000000#32) reducesTo_S50000x32_S50000_d1 h_S_ (ix1 n)
      = Ideal.hostReduceAdd reducesTo_S50000x32_S50000_d1 x (Ideal.ofBits .f32 0x00000000#32) (ix1 n) := rfl
  rw [e, Ideal.hostReduceAdd_single _ hR, Ideal.ofBits_zero_f32, zero_add]
  exact Finset.sum_congr rfl (fun k _ => congrArg x (lift_eq hR n k))

/-- Entry `(n, q)` of the product with the last weight. -/
theorem dot_apply (c : FVec Ideal S50000x32 .f32) (Wl : FVec Ideal S32x4 .f32) (n : Fin 50000) (q : Fin 4) :
    Host.dotGeneral dot_S50000x32_S32x4_S50000x4_1_0_0_1_n_n none c Wl (ix2 n q) = ∑ j : Fin 32, c (ix2 n j) * Wl (ix2 j q) :=
  DenseBlock.dotGeneral_apply_ix2 (K := 50000) (N := 32) (Q := 4) dot_S50000x32_S32x4_S50000x4_1_0_0_1_n_n_wf .single c Wl n q

/-! ## The softmax -/

/-- The exponentials of the softmax: `exp (h − m)`, `m` the row maximum (joined once more with `-inf`) spread
    over the row. -/
def ex (h : FVec Ideal S50000x32 .f32) : FVec Ideal S50000x32 .f32 :=
  Host.exp (subf h (broadcastInDim S50000x32 ![0, 1] bcast_S50000x1_S50000x32_0_1 (broadcastInDim S50000x1 ![0] bcast_S50000_S50000x1_0 (maximumf (broadcastInDim S50000 ![] bcast_S_S50000 (constant (F := Ideal) S_ .f32 0xFF800000#32))
      (Host.reduce FloatOps.maximumf h (constant (F := Ideal) S_ .f32 0xFF800000#32) reducesTo_S50000x32_S50000_d1 h_S_)))))

/-- Entry `(n, j)` of the exponentials. -/
theorem ex_apply (h : FVec Ideal S50000x32 .f32) (n : Fin 50000) (j : Fin 32) :
    ex h (ix2 n j) = Ideal.exp (h (ix2 n j) - Cert.KSpec.rowMax fun k : Fin 32 => h (ix2 n k)) := by
  unfold ex
  rw [hexp_apply, subf_apply, Column.broadcastInDim_a1_ab_apply, Column.broadcastInDim_a_a1_apply, maximumf_apply,
    Column.broadcastInDim_scalar_apply, constant_apply, reduceMax_apply,
    show Ideal.ofBits .f32 0xFF800000#32 = Cert.KSpec.negInfLit from rfl, max_negInf_rowMax]

/-- The softmax is the exponentials over their row sums. -/
theorem softmax_eq (h : FVec Ideal S50000x32 .f32) : RefTerm.softmax h = Host.divf (ex h)
    (broadcastInDim S50000x32 ![0, 1] bcast_S50000x1_S50000x32_0_1 (broadcastInDim S50000x1 ![0] bcast_S50000_S50000x1_0 (Host.reduceAdd (ex h) (constant (F := Ideal) S_ .f32 0x00000000#32) reducesTo_S50000x32_S50000_d1 h_S_))) := by
  unfold ex; rfl

theorem softmax_apply (h : FVec Ideal S50000x32 .f32) (n : Fin 50000) (j : Fin 32) :
    RefTerm.softmax h (ix2 n j) = Cert.KSpec.smax (N := 50000) (C := 32) h n j := by
  rw [softmax_eq, hdivf_apply, Column.broadcastInDim_a1_ab_apply, Column.broadcastInDim_a_a1_apply, reduceAdd_apply]
  simp only [ex_apply]
  rfl

/-! ## The first result -/

/-- The first result is the softmax over its row maxima. -/
theorem concepts_eq (h : FVec Ideal S50000x32 .f32) : RefTerm.concepts h = Host.divf (RefTerm.softmax h)
    (broadcastInDim S50000x32 ![0, 1] bcast_S50000x1_S50000x32_0_1 (broadcastInDim S50000x1 ![0] bcast_S50000_S50000x1_0 (Host.reduce FloatOps.maximumf (RefTerm.softmax h) (constant (F := Ideal) S_ .f32 0xFF800000#32) reducesTo_S50000x32_S50000_d1 h_S_))) := rfl

theorem concepts_apply (h : FVec Ideal S50000x32 .f32) (n : Fin 50000) (j : Fin 32) :
    RefTerm.concepts h (ix2 n j) = Cert.KSpec.concepts (N := 50000) (C := 32) h n j := by
  rw [concepts_eq, hdivf_apply, Column.broadcastInDim_a1_ab_apply, Column.broadcastInDim_a_a1_apply, reduceMax_apply]
  simp only [softmax_apply]
  rfl

/-! ## The second result -/

/-- The second result is the first times the last weight, plus the last bias on every row. -/
theorem logits_eq (h : FVec Ideal S50000x32 .f32) (Wl : FVec Ideal S32x4 .f32) (bl : FVec Ideal S4 .f32) :
    RefTerm.logits h Wl bl = addf (Host.dotGeneral dot_S50000x32_S32x4_S50000x4_1_0_0_1_n_n none (RefTerm.concepts h) Wl)
      (broadcastInDim S50000x4 ![0, 1] bcast_S1x4_S50000x4_0_1 (broadcastInDim S1x4 ![1] bcast_S4_S1x4_1 bl)) := rfl

theorem logits_apply (h : FVec Ideal S50000x32 .f32) (Wl : FVec Ideal S32x4 .f32) (bl : FVec Ideal S4 .f32)
    (n : Fin 50000) (q : Fin 4) :
    RefTerm.logits h Wl bl (ix2 n q)
      = (∑ j : Fin 32, Cert.KSpec.concepts (N := 50000) (C := 32) h n j * Wl (ix2 j q)) + bl (ix1 q) := by
  rw [logits_eq, addf_apply, dot_apply, BiasRows.biasRows_apply]
  simp only [concepts_apply]

end Cert.ReferenceIdeal.RTail

end
-- ==== Proof.Final.lean ====
/-
  The two results.  Both programs finish with the same row-wise tail on the last layer's activations: the softmax
  of the row, the division by the softmax row's own maximum, and a last affine map.  The activations are one array
  (`Bridge.h4_eq`), so the results are equal entry by entry.
-/
import proofs.«166952_j50646254354931_2_alg».proof.Proof.Bridge
import proofs.«166952_j50646254354931_2_alg».proof.Proof.RTail

noncomputable section

open scoped BigOperators

namespace Cert.Final

open Idealize.ShloMosaic Idealize.ShloMosaic.ValueIdx Cert.KSpec

variable [Cert.KernelIdeal.Facts₀] [Cert.ReferenceIdeal.Facts]

variable (a0 : Arr2 50000 128) (a1 a2 : IVec ⟨1, ![800000]⟩ 32) (a3 : Arr2 128 64)
  (a4 : (⟨1, ![64]⟩ : Shape).Idx → EReal) (a5 : Arr2 64 64) (a6 : (⟨1, ![64]⟩ : Shape).Idx → EReal) (a7 : Arr2 64 64)
  (a8 : (⟨1, ![64]⟩ : Shape).Idx → EReal) (a9 : Arr2 64 32) (a10 : (⟨1, ![32]⟩ : Shape).Idx → EReal)
  (a11 : Arr2 32 4) (a12 : (⟨1, ![4]⟩ : Shape).Idx → EReal)

/-- The first result. -/
theorem out0_eq : Cert.KernelIdeal.KNet.out0 a0 a1 a2 a3 a4 a5 a6 a7 a8 a9 a10
    = Cert.ReferenceIdeal.RefTerm.concepts (Cert.ReferenceIdeal.RefTerm.h4 a0 a1 a2 a3 a4 a5 a6 a7 a8 a9 a10) := by
  funext i
  obtain ⟨n, j, rfl⟩ : ∃ (n : Fin 50000) (j : Fin 32), i = ix2 n j := ⟨i 0, i 1, eq_ix2 i⟩
  rw [Cert.ReferenceIdeal.RTail.concepts_apply, ← Cert.Bridge.h4_eq]
  rfl

/-- The second result. -/
theorem out1_eq : Cert.KernelIdeal.KNet.out1 a0 a1 a2 a3 a4 a5 a6 a7 a8 a9 a10 a11 a12
    = Cert.ReferenceIdeal.RefTerm.logits (Cert.ReferenceIdeal.RefTerm.h4 a0 a1 a2 a3 a4 a5 a6 a7 a8 a9 a10) a11 a12 := by
  funext i
  obtain ⟨n, q, rfl⟩ : ∃ (n : Fin 50000) (q : Fin 4), i = ix2 n q := ⟨i 0, i 1, eq_ix2 i⟩
  rw [Cert.ReferenceIdeal.RTail.logits_apply, ← Cert.Bridge.h4_eq]
  show logits (Cert.KernelIdeal.KNet.h4 a0 a1 a2 a3 a4 a5 a6 a7 a8 a9 a10) a11 (Cert.KernelIdeal.KTerm.biasRow4 a12) n q = _
  unfold logits Cert.KernelIdeal.KTerm.biasRow4
  rw [Cert.KernelIdeal.KBridge.row_apply]

end Cert.Final

end
-- ==== Proof.lean ====
/-
  A four-layer graph convolution network on 50000 nodes, followed by a row softmax, a division by the softmax row's
  maximum and a last affine map, computed two ways.

  The reference scales the message of every edge `s → t` by `dinv s · dinv t` (`dinv` the guarded inverse square root of
  the in-degree) before summing the messages at `t`.  The kernel program scales the rows by `dinv s` inside the tiled
  matrix-product kernel, sums the rows at `t` with no per-edge factor, and scales the sum by `dinv t` inside the next
  tiled kernel.  On the extended reals the two agree because `dinv t` is a finite non-negative number — such a factor
  may be moved inside any finite sum — and multiplication is associative (`Spec.conv_eq`); the rectifiers `v > 0` and
  `v ≥ 0` differ only at `0`, where both branches are `0` (`Spec.lrelu_eq`).  Changes of float format are the identity,
  the tiled matrix products and the host's are the same sums, and the tail is the same function of a row on both sides.
  The precondition (finite inputs) is not needed for any of this.

  The modules: `KSpec` (what each tiled kernel leaves in a row), `KReg*` (each region's output array is that row
  function of its input arrays), `KTerm`, `KChain`, `KRun`, `KNet`, `KValue` (the kernel program's run, its results as
  terms of the arguments), `RefTerm`, `RefRun` (the same for the reference), `Edges`, `KBridge`, `RBridge`, `RBridge2`,
  `RTail` (the terms read at an index), `Spec`, `Cross`, `Bridge`, `Final` (the algebra and the equality of the results).
-/
import proofs.«166952_j50646254354931_2_alg».proof.Defs
import proofs.«166952_j50646254354931_2_alg».proof.Proof.Gen.Kernel
import proofs.«166952_j50646254354931_2_alg».proof.Proof.Gen.Kernel.Frame
import proofs.«166952_j50646254354931_2_alg».proof.Proof.Gen.KernelIdeal
import proofs.«166952_j50646254354931_2_alg».proof.Proof.Gen.KernelIdeal.Frame
import proofs.«166952_j50646254354931_2_alg».proof.Proof.Gen.ReferenceIdeal
import proofs.«166952_j50646254354931_2_alg».proof.Proof.Gen.Pre_finite_inputs
import proofs.«166952_j50646254354931_2_alg».proof.Proof.KValue
import proofs.«166952_j50646254354931_2_alg».proof.Proof.RefRun
import proofs.«166952_j50646254354931_2_alg».proof.Proof.Final

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its value run with the results dropped. -/
theorem frame_ri : Cert.frame_ReferenceIdeal := fun m ρ _ =>
  (θ_run Cert.ReferenceIdeal.defs _ _).mono (fun _ h c => (h c).2.2) (Cert.ReferenceIdeal.RefRun.run m ρ)

/-- From memories that agree on the arguments the two idealized programs end with equal results. -/
theorem algebraic : Cert.algebraic_KernelIdeal_ReferenceIdeal := by
  intro m ρ m' ρ' _ hagree
  refine ⟨fun c => Cert.KernelIdeal.KNet.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.KNet.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RefRun.run m' ρ')
  · obtain ⟨e0, e1, e2, e3, e4, e5, e6, e7, e8, e9, e10, e11, e12⟩ := hagree c
    rw [e0, e1, e2, e3, e4, e5, e6, e7, e8, e9, e10]
    exact (Cert.Final.out0_eq _ _ _ _ _ _ _ _ _ _ _).symm
  · obtain ⟨e0, e1, e2, e3, e4, e5, e6, e7, e8, e9, e10, e11, e12⟩ := hagree c
    rw [e0, e1, e2, e3, e4, e5, e6, e7, e8, e9, e10, e11, e12]
    exact (Cert.Final.out1_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
